-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v19)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v19) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v28) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x4096x3 : Shape := ⟨3, ![16, 4096, 3]⟩
abbrev S_ : Shape := ⟨0, ![]⟩

class Facts : Prop where
  bcast_S_S16x4096x3 : S_.BroadcastsInDim S16x4096x3 (![] : Fin 0 → Fin S16x4096x3.rank)
  reducesTo_S16x4096x3_S_d0_1_2 : S16x4096x3.ReducesTo [0, 1, 2] S_
  h_S_ : 0 < S_.numel

variable [Facts]

def fn {F : FTy → Type} [FloatOps F] (main_arg0 : FVec F S16x4096x3 .f32) (main_arg1 : FVec F S16x4096x3 .f32) : IVec S_ 1 :=
  let main_v0 : FVec F S16x4096x3 .f32 := Host.absf main_arg0
  let main_cst : FVec F S_ .f32 := constant S_ .f32 0x7F800000#32
  let main_v1 : FVec F S16x4096x3 .f32 := broadcastInDim S16x4096x3 ![] bcast_S_S16x4096x3 main_cst
  let main_v2 : IVec S16x4096x3 1 := cmpf .olt main_v0 main_v1
  let main_c : IVec S_ 1 := constantI S_ 1 1#1
  let main_v3 : IVec S_ 1 := (fun x v => Host.reduce IntOp.andi x v reducesTo_S16x4096x3_S_d0_1_2 h_S_) main_v2 main_c
  let main_v4 : FVec F S16x4096x3 .f32 := Host.absf main_arg1
  let main_cst_0 : FVec F S_ .f32 := constant S_ .f32 0x7F800000#32
  let main_v5 : FVec F S16x4096x3 .f32 := broadcastInDim S16x4096x3 ![] bcast_S_S16x4096x3 main_cst_0
  let main_v6 : IVec S16x4096x3 1 := cmpf .olt main_v4 main_v5
  let main_c_1 : IVec S_ 1 := constantI S_ 1 1#1
  let main_v7 : IVec S_ 1 := (fun x v => Host.reduce IntOp.andi x v reducesTo_S16x4096x3_S_d0_1_2 h_S_) main_v6 main_c_1
  let main_v8 : IVec S_ 1 := andi main_v3 main_v7
  main_v8
-- ==== Kernel.lean ====
abbrev S16x4096x3 : Shape := ⟨3, ![16, 4096, 3]⟩
abbrev S3x16x4096 : Shape := ⟨3, ![3, 16, 4096]⟩
abbrev S16x4096 : Shape := ⟨2, ![16, 4096]⟩
abbrev S3x8x256 : Shape := ⟨3, ![3, 8, 256]⟩
abbrev S3x8x4096 : Shape := ⟨3, ![3, 8, 4096]⟩
abbrev S8x256 : Shape := ⟨2, ![8, 256]⟩
abbrev S8x4096 : Shape := ⟨2, ![8, 4096]⟩
abbrev S1x8x256 : Shape := ⟨3, ![1, 8, 256]⟩
abbrev S8x256x1 : Shape := ⟨3, ![8, 256, 1]⟩
abbrev S8x256x256 : Shape := ⟨3, ![8, 256, 256]⟩
abbrev S1x8x4096 : Shape := ⟨3, ![1, 8, 4096]⟩
abbrev S8x1x256 : Shape := ⟨3, ![8, 1, 256]⟩
abbrev S_ : Shape := ⟨0, ![]⟩
abbrev S16 : Shape := ⟨1, ![16]⟩

abbrev nBuf : Space → Nat
  | .hbm => 32
  | .vmem => 7
  | .smem => 0
  | _ => 0

abbrev bufTy : (tb : Table) → Fin (tcTables nBuf tb) → BufTy
  | .hbm, ⟨0, _⟩ => ⟨S16x4096x3, .f32⟩
  | .hbm, ⟨1, _⟩ => ⟨S16x4096x3, .f32⟩
  | .hbm, ⟨2, _⟩ => ⟨S3x16x4096, .f32⟩
  | .hbm, ⟨3, _⟩ => ⟨S3x16x4096, .f32⟩
  | .hbm, ⟨4, _⟩ => ⟨S16x4096, .f32⟩
  | .hbm, ⟨5, _⟩ => ⟨S16x4096, .f32⟩
  | .hbm, ⟨6, _⟩ => ⟨S_, .f32⟩
  | .hbm, ⟨7, _⟩ => ⟨S16x4096, .f32⟩
  | .hbm, ⟨8, _⟩ => ⟨S16x4096, .f32⟩
  | .hbm, ⟨9, _⟩ => ⟨S16x4096, .f32⟩
  | .hbm, ⟨10, _⟩ => ⟨S_, .f32⟩
  | .hbm, ⟨11, _⟩ => ⟨S16x4096, .f32⟩
  | .hbm, ⟨12, _⟩ => ⟨S16x4096, .f32⟩
  | .hbm, ⟨13, _⟩ => ⟨S16x4096, .f32⟩
  | .hbm, ⟨14, _⟩ => ⟨S_, .f32⟩
  | .hbm, ⟨15, _⟩ => ⟨S16, .f32⟩
  | .hbm, ⟨16, _⟩ => ⟨S_, .f32⟩
  | .hbm, ⟨17, _⟩ => ⟨S16, .f32⟩
  | .hbm, ⟨18, _⟩ => ⟨S16, .f32⟩
  | .hbm, ⟨19, _⟩ => ⟨S_, .f32⟩
  | .hbm, ⟨20, _⟩ => ⟨S16, .f32⟩
  | .hbm, ⟨21, _⟩ => ⟨S_, .f32⟩
  | .hbm, ⟨22, _⟩ => ⟨S16, .f32⟩
  | .hbm, ⟨23, _⟩ => ⟨S16, .f32⟩
  | .hbm, ⟨24, _⟩ => ⟨S16, .f32⟩
  | .hbm, ⟨25, _⟩ => ⟨S_, .f32⟩
  | .hbm, ⟨26, _⟩ => ⟨S16, .f32⟩
  | .hbm, ⟨27, _⟩ => ⟨S16, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S_, .f32⟩
  | .local _ .vmem, ⟨0, _⟩ => ⟨S3x8x256, .f32⟩
  | .local _ .vmem, ⟨1, _⟩ => ⟨S3x8x256, .f32⟩
  | .local _ .vmem, ⟨2, _⟩ => ⟨S3x8x4096, .f32⟩
  | .local _ .vmem, ⟨3, _⟩ => ⟨S8x256, .f32⟩
  | .local _ .vmem, ⟨4, _⟩ => ⟨S8x256, .f32⟩
  | .local _ .vmem, ⟨5, _⟩ => ⟨S8x4096, .f32⟩
  | .local _ .vmem, ⟨6, _⟩ => ⟨S8x4096, .f32⟩
  | _, _ => ⟨S16x4096x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2_0 : Ref sig .tc := ⟨.hbm, 4, rfl⟩
abbrev main_v2_1 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst_0 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst_1 : Ref sig .tc := ⟨.hbm, 14, rfl⟩
abbrev main_v9 : Ref sig .tc := ⟨.hbm, 15, rfl⟩
abbrev main_cst_2 : Ref sig .tc := ⟨.hbm, 16, rfl⟩
abbrev main_v10 : Ref sig .tc := ⟨.hbm, 17, rfl⟩
abbrev main_v11 : Ref sig .tc := ⟨.hbm, 18, rfl⟩
abbrev main_cst_3 : Ref sig .tc := ⟨.hbm, 19, rfl⟩
abbrev main_v12 : Ref sig .tc := ⟨.hbm, 20, rfl⟩
abbrev main_cst_4 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst_5 : Ref sig .tc := ⟨.hbm, 25, rfl⟩
abbrev main_v16 : Ref sig .tc := ⟨.hbm, 26, rfl⟩
abbrev main_v17 : Ref sig .tc := ⟨.hbm, 27, rfl⟩
abbrev main_cst_6 : Ref sig .tc := ⟨.hbm, 28, rfl⟩
abbrev main_v18 : Ref sig .tc := ⟨.hbm, 29, rfl⟩
abbrev main_cst_7 : Ref sig .tc := ⟨.hbm, 30, rfl⟩
abbrev main_v19 : Ref sig .tc := ⟨.hbm, 31, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![2, 16], ![false, false]⟩

@[reducible] def k0_t1_loop : Scf.Loop 32 :=
  let c0_i32_9 : BitVec 32 := 0#32
  let c16_i32 : BitVec 32 := 16#32
  let v19 : BitVec 32 := Scalar.addi c0_i32_9 c16_i32
  let c1_i32 : BitVec 32 := 1#32
  ⟨c0_i32_9, v19, c1_i32⟩
def k0_mult1 (k0_t1 : Fin k0_t1_loop.trips) : BitVec 32 :=
  let c0_i32_12 : BitVec 32 := 0#32
  let c0_i32_9 : BitVec 32 := 0#32
  let c1_i32 : BitVec 32 := 1#32
  let arg6 : BitVec 32 := Scf.iv c0_i32_9 c1_i32 k0_t1
  let c1_i32_11 : BitVec 32 := 1#32
  let v20 : BitVec 32 := Scalar.muli arg6 c1_i32_11
  let v21 : BitVec 32 := Scalar.addi c0_i32_12 v20
  let c256_i32 : BitVec 32 := 256#32
  let v22 : BitVec 32 := Scalar.muli v21 c256_i32
  v22
def k0_off1 (k0_t1 : Fin k0_t1_loop.trips) : Fin 2 → Nat :=
  let c0_16 : Index := 0#32
  let c0_i32_12 : BitVec 32 := 0#32
  let c0_i32_9 : BitVec 32 := 0#32
  let c1_i32 : BitVec 32 := 1#32
  let arg6 : BitVec 32 := Scf.iv c0_i32_9 c1_i32 k0_t1
  let c1_i32_11 : BitVec 32 := 1#32
  let v20 : BitVec 32 := Scalar.muli arg6 c1_i32_11
  let v21 : BitVec 32 := Scalar.addi c0_i32_12 v20
  let c256_i32 : BitVec 32 := 256#32
  let v22 : BitVec 32 := Scalar.muli v21 c256_i32
  let v23 : BitVec 32 := v22
  let v26 : Index := Scalar.indexCast v23
  ![0, v26.toNat]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S3x8x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S3x8x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 2 → Memref sig .tc .vmem S8x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S8x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

class Facts₀ : Prop where
  transposes_S16x4096x3_S3x16x4096_2_0_1 : S16x4096x3.Transposes [2, 0, 1] S3x16x4096
  inb_S8x4096_S8x4096_0_0 : ∀ a, (![0, 0] : Fin 2 → Nat) a + S8x4096.size a ≤ S8x4096.size a
  h_S8x4096 : 0 < S8x4096.numel
  inb_S8x256_S8x256_0_0 : ∀ a, (![0, 0] : Fin 2 → Nat) a + S8x256.size a ≤ S8x256.size a
  h_S8x256 : 0 < S8x256.numel
  inb_S3x8x256_S1x8x256_0_0_0 : ∀ a, (![0, 0, 0] : Fin 3 → Nat) a + S1x8x256.size a ≤ S3x8x256.size a
  h_S1x8x256 : 0 < S1x8x256.numel
  shapeCasts_S1x8x256_S8x256 : S1x8x256.ShapeCasts S8x256
  inb_S3x8x256_S1x8x256_1_0_0 : ∀ a, (![1, 0, 0] : Fin 3 → Nat) a + S1x8x256.size a ≤ S3x8x256.size a
  inb_S3x8x256_S1x8x256_2_0_0 : ∀ a, (![2, 0, 0] : Fin 3 → Nat) a + S1x8x256.size a ≤ S3x8x256.size a
  shapeCasts_S8x256_S8x256x1 : S8x256.ShapeCasts S8x256x1
  shapeCasts_S8x256x1_S8x256x1 : S8x256x1.ShapeCasts S8x256x1
  broadcasts_S8x256x1_S8x256x256 : S8x256x1.Broadcasts S8x256x256
  inb_S3x8x4096_S1x8x4096_0_0_0 : ∀ a, (![0, 0, 0] : Fin 3 → Nat) a + S1x8x4096.size a ≤ S3x8x4096.size a
  squeezes_S1x8x4096_S8x4096 : S1x8x4096.Squeezes S8x4096
  shapeCasts_S8x256_S8x256 : S8x256.ShapeCasts S8x256
  inb_S3x8x4096_S1x8x4096_1_0_0 : ∀ a, (![1, 0, 0] : Fin 3 → Nat) a + S1x8x4096.size a ≤ S3x8x4096.size a
  inb_S3x8x4096_S1x8x4096_2_0_0 : ∀ a, (![2, 0, 0] : Fin 3 → Nat) a + S1x8x4096.size a ≤ S3x8x4096.size a
  shapeCasts_S8x256_S8x1x256 : S8x256.ShapeCasts S8x1x256
  broadcasts_S8x1x256_S8x256x256 : S8x1x256.Broadcasts S8x256x256
  shapeCasts_S8x1x256_S8x1x256 : S8x1x256.ShapeCasts S8x1x256
  reduces_S8x256x256_S8x256 : S8x256x256.Reduces [2] S8x256
  reduces_S8x256x256_S8x256_2 : S8x256x256.Reduces [1] S8x256
  bcast_S_S16x4096 : S_.BroadcastsInDim S16x4096 (![] : Fin 0 → Fin S16x4096.rank)
  reducesTo_S16x4096_S16_d1 : S16x4096.ReducesTo [1] S16
  h_S_ : 0 < S_.numel
  bcast_S_S16 : S_.BroadcastsInDim S16 (![] : Fin 0 → Fin S16.rank)
  reducesTo_S16_S_d0 : S16.ReducesTo [0] S_
  hrank0 : 0 < grid0.rank
  k0_t1_ok : k0_t1_loop.OK
  k0_mult1_dvd : ∀ k0_t1 : Fin k0_t1_loop.trips, 256 ∣ (k0_mult1 k0_t1).toNat
  k0_off1_inb : ∀ k0_t1 : Fin k0_t1_loop.trips, ∀ a, (k0_off1 k0_t1) a + S8x256.size a ≤ S8x4096.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S3x8x256.size a ≤ S3x16x4096.size a
  hwx0_0 : ∀ i : grid0.Coords, EltTy.bits .f32 = 32 ∨ (Rect.block (s := S3x16x4096) S3x8x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S3x8x4096.size a ≤ S3x16x4096.size a
  hwx0_1 : ∀ i : grid0.Coords, EltTy.bits .f32 = 32 ∨ (Rect.block (s := S3x16x4096) S3x8x4096.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8x256.size a ≤ S16x4096.size a
  hwx0_2 : ∀ i : grid0.Coords, EltTy.bits .f32 = 32 ∨ (Rect.block (s := S16x4096) S8x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S8x4096.size a ≤ S16x4096.size a
  hwx0_3 : ∀ i : grid0.Coords, EltTy.bits .f32 = 32 ∨ (Rect.block (s := S16x4096) S8x4096.size (cc0_transform_3 i) (hinb0_3 i)).WholeWords (EltTy.packing .f32)

variable [Facts₀]

abbrev win0_0 : Pipeline.Window sig grid0 :=
  Pipeline.Window.ofSpec (Memref.whole main_v0) S3x8x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S3x8x4096.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2_0) S8x256.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v2_1) S8x4096.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S16x4096x3 : Shape := ⟨3, ![16, 4096, 3]⟩
abbrev S_ : Shape := ⟨0, ![]⟩
abbrev S16x4096 : Shape := ⟨2, ![16, 4096]⟩
abbrev S16x4096x4096 : Shape := ⟨3, ![16, 4096, 4096]⟩
abbrev S16x4096x1 : Shape := ⟨3, ![16, 4096, 1]⟩
abbrev S16x1x4096 : Shape := ⟨3, ![16, 1, 4096]⟩
abbrev S16 : Shape := ⟨1, ![16]⟩

abbrev nBuf : Space → Nat
  | .hbm => 44
  | .vmem => 0
  | .smem => 0
  | _ => 0

abbrev bufTy : (tb : Table) → Fin (tcTables nBuf tb) → BufTy
  | .hbm, ⟨0, _⟩ => ⟨S16x4096x3, .f32⟩
  | .hbm, ⟨1, _⟩ => ⟨S16x4096x3, .f32⟩
  | .hbm, ⟨2, _⟩ => ⟨S16x4096x3, .f32⟩
  | .hbm, ⟨3, _⟩ => ⟨S_, .f32⟩
  | .hbm, ⟨4, _⟩ => ⟨S16x4096, .f32⟩
  | .hbm, ⟨5, _⟩ => ⟨S16x4096x3, .f32⟩
  | .hbm, ⟨6, _⟩ => ⟨S_, .f32⟩
  | .hbm, ⟨7, _⟩ => ⟨S16x4096, .f32⟩
  | .hbm, ⟨8, _⟩ => ⟨S16x4096x4096, .f32⟩
  | .hbm, ⟨9, _⟩ => ⟨S16x4096x1, .f32⟩
  | .hbm, ⟨10, _⟩ => ⟨S16x1x4096, .f32⟩
  | .hbm, ⟨11, _⟩ => ⟨S16x4096x4096, .f32⟩
  | .hbm, ⟨12, _⟩ => ⟨S16x4096x4096, .f32⟩
  | .hbm, ⟨13, _⟩ => ⟨S16x4096x4096, .f32⟩
  | .hbm, ⟨14, _⟩ => ⟨S_, .f32⟩
  | .hbm, ⟨15, _⟩ => ⟨S16x4096x4096, .f32⟩
  | .hbm, ⟨16, _⟩ => ⟨S16x4096x4096, .f32⟩
  | .hbm, ⟨17, _⟩ => ⟨S16x4096x4096, .f32⟩
  | .hbm, ⟨18, _⟩ => ⟨S_, .f32⟩
  | .hbm, ⟨19, _⟩ => ⟨S16x4096x4096, .f32⟩
  | .hbm, ⟨20, _⟩ => ⟨S16x4096x4096, .f32⟩
  | .hbm, ⟨21, _⟩ => ⟨S16x4096x4096, .f32⟩
  | .hbm, ⟨22, _⟩ => ⟨S_, .f32⟩
  | .hbm, ⟨23, _⟩ => ⟨S16x4096, .f32⟩
  | .hbm, ⟨24, _⟩ => ⟨S_, .f32⟩
  | .hbm, ⟨25, _⟩ => ⟨S16, .f32⟩
  | .hbm, ⟨26, _⟩ => ⟨S_, .f32⟩
  | .hbm, ⟨27, _⟩ => ⟨S16, .f32⟩
  | .hbm, ⟨28, _⟩ => ⟨S16, .f32⟩
  | .hbm, ⟨29, _⟩ => ⟨S_, .f32⟩
  | .hbm, ⟨30, _⟩ => ⟨S16x4096, .f32⟩
  | .hbm, ⟨31, _⟩ => ⟨S_, .f32⟩
  | .hbm, ⟨32, _⟩ => ⟨S16, .f32⟩
  | .hbm, ⟨33, _⟩ => ⟨S_, .f32⟩
  | .hbm, ⟨34, _⟩ => ⟨S16, .f32⟩
  | .hbm, ⟨35, _⟩ => ⟨S16, .f32⟩
  | .hbm, ⟨36, _⟩ => ⟨S16, .f32⟩
  | .hbm, ⟨37, _⟩ => ⟨S_, .f32⟩
  | .hbm, ⟨38, _⟩ => ⟨S16, .f32⟩
  | .hbm, ⟨39, _⟩ => ⟨S16, .f32⟩
  | .hbm, ⟨40, _⟩ => ⟨S_, .f32⟩
  | .hbm, ⟨41, _⟩ => ⟨S_, .f32⟩
  | .hbm, ⟨42, _⟩ => ⟨S_, .f32⟩
  | .hbm, ⟨43, _⟩ => ⟨S_, .f32⟩
  | _, _ => ⟨S16x4096x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst_1 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst_2 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_cst_3 : Ref sig .tc := ⟨.hbm, 22, rfl⟩
abbrev main_v16 : Ref sig .tc := ⟨.hbm, 23, rfl⟩
abbrev main_cst_4 : Ref sig .tc := ⟨.hbm, 24, rfl⟩
abbrev main_v17 : Ref sig .tc := ⟨.hbm, 25, rfl⟩
abbrev main_cst_5 : Ref sig .tc := ⟨.hbm, 26, rfl⟩
abbrev main_v18 : Ref sig .tc := ⟨.hbm, 27, rfl⟩
abbrev main_v19 : Ref sig .tc := ⟨.hbm, 28, rfl⟩
abbrev main_cst_6 : Ref sig .tc := ⟨.hbm, 29, rfl⟩
abbrev main_v20 : Ref sig .tc := ⟨.hbm, 30, rfl⟩
abbrev main_cst_7 : Ref sig .tc := ⟨.hbm, 31, rfl⟩
abbrev main_v21 : Ref sig .tc := ⟨.hbm, 32, rfl⟩
abbrev main_cst_8 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_cst_9 : Ref sig .tc := ⟨.hbm, 37, rfl⟩
abbrev main_v25 : Ref sig .tc := ⟨.hbm, 38, rfl⟩
abbrev main_v26 : Ref sig .tc := ⟨.hbm, 39, rfl⟩
abbrev main_cst_10 : Ref sig .tc := ⟨.hbm, 40, rfl⟩
abbrev main_v27 : Ref sig .tc := ⟨.hbm, 41, rfl⟩
abbrev main_cst_11 : Ref sig .tc := ⟨.hbm, 42, rfl⟩
abbrev main_v28 : Ref sig .tc := ⟨.hbm, 43, rfl⟩

abbrev nD : Nat := 1
abbrev τ : Topo := Topo.v7x

variable {F : FTy → Type} [FloatOps F]

class Facts₀ : Prop where
  reducesTo_S16x4096x3_S16x4096_d2 : S16x4096x3.ReducesTo [2] S16x4096
  h_S_ : 0 < S_.numel
  bcast_S16x4096_S16x4096x1_0_1 : S16x4096.BroadcastsInDim S16x4096x1 (![0, 1] : Fin 2 → Fin S16x4096x1.rank)
  bcast_S16x4096_S16x1x4096_0_2 : S16x4096.BroadcastsInDim S16x1x4096 (![0, 2] : Fin 2 → Fin S16x1x4096.rank)
  bcast_S16x4096x1_S16x4096x4096_0_1_2 : S16x4096x1.BroadcastsInDim S16x4096x4096 (![0, 1, 2] : Fin 3 → Fin S16x4096x4096.rank)
  bcast_S16x1x4096_S16x4096x4096_0_1_2 : S16x1x4096.BroadcastsInDim S16x4096x4096 (![0, 1, 2] : Fin 3 → Fin S16x4096x4096.rank)
  bcast_S_S16x4096x4096 : S_.BroadcastsInDim S16x4096x4096 (![] : Fin 0 → Fin S16x4096x4096.rank)
  reducesTo_S16x4096x4096_S16x4096_d2 : S16x4096x4096.ReducesTo [2] S16x4096
  reducesTo_S16x4096_S16_d1 : S16x4096.ReducesTo [1] S16
  bcast_S_S16 : S_.BroadcastsInDim S16 (![] : Fin 0 → Fin S16.rank)
  reducesTo_S16x4096x4096_S16x4096_d1 : S16x4096x4096.ReducesTo [1] S16x4096
  reducesTo_S16_S_d0 : S16.ReducesTo [0] S_
  dot_S16x4096x3_S16x4096x3_S16x4096x4096_2_2_1_1_0_0_wf : DotDims.WF S16x4096x3 S16x4096x3 S16x4096x4096 [2] [2] [1] [1] [0] [0]

variable [Facts₀]

def dot_S16x4096x3_S16x4096x3_S16x4096x4096_2_2_1_1_0_0 : DotDims S16x4096x3 S16x4096x3 S16x4096x4096 where
  lhsContracting := [2]
  rhsContracting := [2]
  lhsNonContracting := [1]
  rhsNonContracting := [1]
  lhsBatch := [0]
  rhsBatch := [0]
  wf := dot_S16x4096x3_S16x4096x3_S16x4096x4096_2_2_1_1_0_0_wf

class Facts : Prop extends Facts₀ where

variable [Facts]
-- ==== Proof.ChunksW.lean ====
/-
  The loop over the sixteen 256-column chunks of the second cloud's block, by its invariant. One trip reads the three
  coordinate planes of chunk k (through the three plane views of the block, the block held whole), forms the squared
  distances of the 8×256 points of the first cloud's tile to the 8×256 points of the chunk, and lowers two running
  minima held in memory: the row minima (the whole 8×256 tile, rewritten every trip) and the column minima (columns
  256k … 256k+255 of the 8×4096 block). Before trip k each of the two buffers holds the pieces of the trips before k
  written over what the loop found there; each trip's piece is a function of what the trip finds, since it reads the
  running minimum back.
-/
import proofs.«176827_j80092550135919_2_alg».proof.Proof.Gen.Kernel.Skeleton
import proofs.«176827_j80092550135919_2_alg».proof.Proof.Gen.Kernel.Loops
import Idealize.ShloMosaic.Lib.Exec
import Idealize.ShloMosaic.Lib.Tactic
import Idealize.ShloMosaic.Lib.Pipeline.Kit

set_option maxRecDepth 16384
set_option maxHeartbeats 4000000

noncomputable section

namespace Cert.Kernel.Chunks

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄G" => MT nD τ sig Unit (Elt F) ℕ (UR sig nD τ) ℕ

/-- What one trip touches: the second cloud's block whole at its contents, the two minima buffers at any contents. -/
abbrev Held (c : Dev nD) (arg3 : Memref sig .tc .vmem S3x8x4096 .f32) (arg4 : Memref sig .tc .vmem S8x256 .f32) (arg5 : Memref sig .tc .vmem S8x4096 .f32)
    (X3 : BufTy.Contents (Elt F) arg3.view.ty) (f4 : BufTy.Contents (Elt F) arg4.view.ty) (f5 : BufTy.Contents (Elt F) arg5.view.ty) : sProp 𝕄G :=
  iprop((arg3.view.loc (c : Thread nD τ) ↦[arg3.view.set]{fullShare} X3) ∗ (arg4.view.loc (c : Thread nD τ) ↦[arg4.view.set]{fullShare} f4) ∗ (arg5.view.loc (c : Thread nD τ) ↦[arg5.view.set]{fullShare} f5))

/-- One trip at a symbolic chunk k: the piece it writes into each minima buffer, as a function of what it finds there,
    with the trip's run from the held buffers to the held buffers with those pieces written. -/
def trip (𝒱 : Variants) (c : Dev nD) (bd : Option 𝒱.V) (i : grid0.Coords) (arg2 : Memref sig .tc .vmem S3x8x256 .f32) (harg2 : arg2.IsWhole) (arg3 : Memref sig .tc .vmem S3x8x4096 .f32) (harg3 : arg3.IsWhole) (arg4 : Memref sig .tc .vmem S8x256 .f32) (harg4 : arg4.IsWhole) (arg5 : Memref sig .tc .vmem S8x4096 .f32) (harg5 : arg5.IsWhole) (v5 : Vec F S1x8x256 .f32) (v7 : Vec F S1x8x256 .f32) (v9 : Vec F S1x8x256 .f32) (X3 : BufTy.Contents (Elt F) arg3.view.ty) (k : Fin k0_t1_loop.trips) :
    Σ' (L4 : BufTy.Contents (Elt F) arg4.view.ty → BufTy.Contents (Elt F) arg5.view.ty → List (View.Piece (Elt F) S8x256 .f32)), { L5 : BufTy.Contents (Elt F) arg4.view.ty → BufTy.Contents (Elt F) arg5.view.ty → List (View.Piece (Elt F) S8x4096 .f32) // ∀ (E : Set ℕ) (f4 : BufTy.Contents (Elt F) arg4.view.ty) (f5 : BufTy.Contents (Elt F) arg5.view.ty),
      Held (F := F) c arg3 arg4 arg5 X3 f4 f5
      ⊢ wp frame (wpE (defs₀ (F := F)) 𝒱 (c : Thread nD τ) bd) E (k0_t1_body (F := F) i arg2 harg2 arg3 harg3 arg4 harg4 arg5 harg5 v5 v7 v9 k PUnit.unit)
          (fun _ => Held (F := F) c arg3 arg4 arg5 X3 (arg4.view.writes (Elt F) f4 (L4 f4 f5)) (arg5.view.writes (Elt F) f5 (L5 f4 f5))) } := by
  have hk : k.val < 16 := Nat.lt_of_lt_of_le k.isLt k0_t1_abs.2.1
  refine ⟨?_, ?_, fun E f4 f5 => ?run⟩
  case run =>
    unfold k0_t1_body
    iintro ⟨H3, H4, H5⟩
    sl_exec
    sl_step
    sl_close

/-- The trip's two pieces at the contents it finds. -/
abbrev tripPieces (𝒱 : Variants) (c : Dev nD) (bd : Option 𝒱.V) (i : grid0.Coords) (arg2 : Memref sig .tc .vmem S3x8x256 .f32) (harg2 : arg2.IsWhole) (arg3 : Memref sig .tc .vmem S3x8x4096 .f32) (harg3 : arg3.IsWhole) (arg4 : Memref sig .tc .vmem S8x256 .f32) (harg4 : arg4.IsWhole) (arg5 : Memref sig .tc .vmem S8x4096 .f32) (harg5 : arg5.IsWhole) (v5 : Vec F S1x8x256 .f32) (v7 : Vec F S1x8x256 .f32) (v9 : Vec F S1x8x256 .f32) (X3 : BufTy.Contents (Elt F) arg3.view.ty) (k : Fin k0_t1_loop.trips) (f4 : BufTy.Contents (Elt F) arg4.view.ty) (f5 : BufTy.Contents (Elt F) arg5.view.ty) : List (View.Piece (Elt F) S8x256 .f32) × List (View.Piece (Elt F) S8x4096 .f32) :=
  ((trip (F := F) 𝒱 c bd i arg2 harg2 arg3 harg3 arg4 harg4 arg5 harg5 v5 v7 v9 X3 k).1 f4 f5, (trip (F := F) 𝒱 c bd i arg2 harg2 arg3 harg3 arg4 harg4 arg5 harg5 v5 v7 v9 X3 k).2.1 f4 f5)

/-- Trip k's pieces put in front of the pieces of the trips before it; past the last trip, nothing. -/
@[irreducible] def piecesStep (𝒱 : Variants) (c : Dev nD) (bd : Option 𝒱.V) (i : grid0.Coords) (arg2 : Memref sig .tc .vmem S3x8x256 .f32) (harg2 : arg2.IsWhole) (arg3 : Memref sig .tc .vmem S3x8x4096 .f32) (harg3 : arg3.IsWhole) (arg4 : Memref sig .tc .vmem S8x256 .f32) (harg4 : arg4.IsWhole) (arg5 : Memref sig .tc .vmem S8x4096 .f32) (harg5 : arg5.IsWhole) (v5 : Vec F S1x8x256 .f32) (v7 : Vec F S1x8x256 .f32) (v9 : Vec F S1x8x256 .f32) (X3 : BufTy.Contents (Elt F) arg3.view.ty) (G4 : BufTy.Contents (Elt F) arg4.view.ty) (G5 : BufTy.Contents (Elt F) arg5.view.ty) (k : ℕ) (prev : List (View.Piece (Elt F) S8x256 .f32) × List (View.Piece (Elt F) S8x4096 .f32)) : List (View.Piece (Elt F) S8x256 .f32) × List (View.Piece (Elt F) S8x4096 .f32) :=
  if h : k < k0_t1_loop.trips then
    ((tripPieces (F := F) 𝒱 c bd i arg2 harg2 arg3 harg3 arg4 harg4 arg5 harg5 v5 v7 v9 X3 ⟨k, h⟩ (arg4.view.writes (Elt F) G4 prev.1) (arg5.view.writes (Elt F) G5 prev.2)).1 ++ prev.1,
     (tripPieces (F := F) 𝒱 c bd i arg2 harg2 arg3 harg3 arg4 harg4 arg5 harg5 v5 v7 v9 X3 ⟨k, h⟩ (arg4.view.writes (Elt F) G4 prev.1) (arg5.view.writes (Elt F) G5 prev.2)).2 ++ prev.2)
  else prev

/-- The pieces of the trips before k (last first), from the contents G4, G5 the loop found. -/
def piecesBefore (𝒱 : Variants) (c : Dev nD) (bd : Option 𝒱.V) (i : grid0.Coords) (arg2 : Memref sig .tc .vmem S3x8x256 .f32) (harg2 : arg2.IsWhole) (arg3 : Memref sig .tc .vmem S3x8x4096 .f32) (harg3 : arg3.IsWhole) (arg4 : Memref sig .tc .vmem S8x256 .f32) (harg4 : arg4.IsWhole) (arg5 : Memref sig .tc .vmem S8x4096 .f32) (harg5 : arg5.IsWhole) (v5 : Vec F S1x8x256 .f32) (v7 : Vec F S1x8x256 .f32) (v9 : Vec F S1x8x256 .f32) (X3 : BufTy.Contents (Elt F) arg3.view.ty) (G4 : BufTy.Contents (Elt F) arg4.view.ty) (G5 : BufTy.Contents (Elt F) arg5.view.ty) : ℕ → List (View.Piece (Elt F) S8x256 .f32) × List (View.Piece (Elt F) S8x4096 .f32)
  | 0 => ([], [])
  | k + 1 => piecesStep (F := F) 𝒱 c bd i arg2 harg2 arg3 harg3 arg4 harg4 arg5 harg5 v5 v7 v9 X3 G4 G5 k (piecesBefore 𝒱 c bd i arg2 harg2 arg3 harg3 arg4 harg4 arg5 harg5 v5 v7 v9 X3 G4 G5 k)

theorem piecesBefore_succ (𝒱 : Variants) (c : Dev nD) (bd : Option 𝒱.V) (i : grid0.Coords) (arg2 : Memref sig .tc .vmem S3x8x256 .f32) (harg2 : arg2.IsWhole) (arg3 : Memref sig .tc .vmem S3x8x4096 .f32) (harg3 : arg3.IsWhole) (arg4 : Memref sig .tc .vmem S8x256 .f32) (harg4 : arg4.IsWhole) (arg5 : Memref sig .tc .vmem S8x4096 .f32) (harg5 : arg5.IsWhole) (v5 : Vec F S1x8x256 .f32) (v7 : Vec F S1x8x256 .f32) (v9 : Vec F S1x8x256 .f32) (X3 : BufTy.Contents (Elt F) arg3.view.ty) (G4 : BufTy.Contents (Elt F) arg4.view.ty) (G5 : BufTy.Contents (Elt F) arg5.view.ty) (k : Fin k0_t1_loop.trips) :
    piecesBefore (F := F) 𝒱 c bd i arg2 harg2 arg3 harg3 arg4 harg4 arg5 harg5 v5 v7 v9 X3 G4 G5 (k.val + 1)
      = ((tripPieces (F := F) 𝒱 c bd i arg2 harg2 arg3 harg3 arg4 harg4 arg5 harg5 v5 v7 v9 X3 k (arg4.view.writes (Elt F) G4 (piecesBefore (F := F) 𝒱 c bd i arg2 harg2 arg3 harg3 arg4 harg4 arg5 harg5 v5 v7 v9 X3 G4 G5 k.val).1) (arg5.view.writes (Elt F) G5 (piecesBefore (F := F) 𝒱 c bd i arg2 harg2 arg3 harg3 arg4 harg4 arg5 harg5 v5 v7 v9 X3 G4 G5 k.val).2)).1 ++ (piecesBefore (F := F) 𝒱 c bd i arg2 harg2 arg3 harg3 arg4 harg4 arg5 harg5 v5 v7 v9 X3 G4 G5 k.val).1,
         (tripPieces (F := F) 𝒱 c bd i arg2 harg2 arg3 harg3 arg4 harg4 arg5 harg5 v5 v7 v9 X3 k (arg4.view.writes (Elt F) G4 (piecesBefore (F := F) 𝒱 c bd i arg2 harg2 arg3 harg3 arg4 harg4 arg5 harg5 v5 v7 v9 X3 G4 G5 k.val).1) (arg5.view.writes (Elt F) G5 (piecesBefore (F := F) 𝒱 c bd i arg2 harg2 arg3 harg3 arg4 harg4 arg5 harg5 v5 v7 v9 X3 G4 G5 k.val).2)).2 ++ (piecesBefore (F := F) 𝒱 c bd i arg2 harg2 arg3 harg3 arg4 harg4 arg5 harg5 v5 v7 v9 X3 G4 G5 k.val).2) := by
  rw [piecesBefore.eq_2]; unfold piecesStep; exact dif_pos k.isLt

/-- Before trip k: the block at its contents; each minima buffer holding the pieces of the trips before k over what the
    loop found. -/
abbrev inv (𝒱 : Variants) (c : Dev nD) (bd : Option 𝒱.V) (i : grid0.Coords) (arg2 : Memref sig .tc .vmem S3x8x256 .f32) (harg2 : arg2.IsWhole) (arg3 : Memref sig .tc .vmem S3x8x4096 .f32) (harg3 : arg3.IsWhole) (arg4 : Memref sig .tc .vmem S8x256 .f32) (harg4 : arg4.IsWhole) (arg5 : Memref sig .tc .vmem S8x4096 .f32) (harg5 : arg5.IsWhole) (v5 : Vec F S1x8x256 .f32) (v7 : Vec F S1x8x256 .f32) (v9 : Vec F S1x8x256 .f32) (X3 : BufTy.Contents (Elt F) arg3.view.ty) (G4 : BufTy.Contents (Elt F) arg4.view.ty) (G5 : BufTy.Contents (Elt F) arg5.view.ty) (k : ℕ) (_u : PUnit) : sProp 𝕄G :=
  iprop((arg3.view.loc (c : Thread nD τ) ↦[arg3.view.set]{fullShare} X3)
    ∗ (∃ f, (arg4.view.loc (c : Thread nD τ) ↦[arg4.view.set]{fullShare} f) ∗ ⌜f = arg4.view.writes (Elt F) G4 (piecesBefore (F := F) 𝒱 c bd i arg2 harg2 arg3 harg3 arg4 harg4 arg5 harg5 v5 v7 v9 X3 G4 G5 k).1⌝)
    ∗ (∃ f, (arg5.view.loc (c : Thread nD τ) ↦[arg5.view.set]{fullShare} f) ∗ ⌜f = arg5.view.writes (Elt F) G5 (piecesBefore (F := F) 𝒱 c bd i arg2 harg2 arg3 harg3 arg4 harg4 arg5 harg5 v5 v7 v9 X3 G4 G5 k).2⌝))

set_option warn.classDefReducibility false in
/-- The loop by its invariant: one trip takes the invariant at k to the invariant at k + 1. -/
@[sl_loop] def loopInv (𝒱 : Variants) (c : Dev nD) (bd : Option 𝒱.V) (E : Set ℕ) (i : grid0.Coords) (arg2 : Memref sig .tc .vmem S3x8x256 .f32) (harg2 : arg2.IsWhole) (arg3 : Memref sig .tc .vmem S3x8x4096 .f32) (harg3 : arg3.IsWhole) (arg4 : Memref sig .tc .vmem S8x256 .f32) (harg4 : arg4.IsWhole) (arg5 : Memref sig .tc .vmem S8x4096 .f32) (harg5 : arg5.IsWhole) (v5 : Vec F S1x8x256 .f32) (v7 : Vec F S1x8x256 .f32) (v9 : Vec F S1x8x256 .f32) (X3 : BufTy.Contents (Elt F) arg3.view.ty) (G4 : BufTy.Contents (Elt F) arg4.view.ty) (G5 : BufTy.Contents (Elt F) arg5.view.ty) :
    LoopInvTy_k0_t1 (F := F) Unit ℕ (UR sig nD τ) ℕ 𝒱 c bd E i arg2 harg2 arg3 harg3 arg4 harg4 arg5 harg5 v5 v7 v9 where
  inv := inv (F := F) 𝒱 c bd i arg2 harg2 arg3 harg3 arg4 harg4 arg5 harg5 v5 v7 v9 X3 G4 G5
  step k acc := by
    iintro ⟨H3, ⟨%f4, H4, %h4⟩, ⟨%f5, H5, %h5⟩⟩
    iapply (wp_wand_r Idealize.ShloMosaic.frame (wpE (defs₀ (F := F)) 𝒱 (c : Thread nD τ) bd) E)
    isplitl [H3 H4 H5]
    · iapply ((trip (F := F) 𝒱 c bd i arg2 harg2 arg3 harg3 arg4 harg4 arg5 harg5 v5 v7 v9 X3 k).2.2 E f4 f5)
      isplitl [H3]; · iexact H3
      isplitl [H4]; · iexact H4
      iexact H5
    · iintro %_ ⟨H3, H4, H5⟩
      isplitl [H3]; · iexact H3
      rw [piecesBefore_succ]
      isplitl [H4]
      · iexists _; isplitl [H4]; · iexact H4
        ipureintro; rw [h4, h5, ← View.writes_append]
      iexists _; isplitl [H5]; · iexact H5
      ipureintro; rw [h4, h5, ← View.writes_append]

end Cert.Kernel.Chunks

end
-- ==== Proof.RunsW.lean ====
/-
  The kernel body at one grid point, run once for each of its two control cases. At the first tile of a batch group the
  body first fills the column-minima block with +infinity; at the later tiles it keeps what the tile before left
  there. In both cases it fills the row-minima tile with +infinity, loads the three coordinate planes of the first
  cloud's tile, and sweeps the sixteen column chunks. What the stores leave in the two output buffers is found by the
  run, as lists of pieces (last store first).
-/
import proofs.«176827_j80092550135919_2_alg».proof.Proof.ChunksW
import proofs.«176827_j80092550135919_2_alg».proof.Proof.Gen.Kernel.Frame
import Idealize.ShloMosaic.Lib.Pipeline.FrameBody
import Idealize.ShloMosaic.Lib.Ring
import Idealize.ShloMosaic.Lib.Tactic

set_option maxRecDepth 16384

noncomputable section

namespace Cert.Kernel.Tile

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The body's branch condition from the grid coordinates: the tile index along the first cloud's points is zero. -/
abbrev firstTile (i : grid0.Coords) : Prop := (Scalar.cmpi .ne (Scalar.extui (Scalar.cmpi .eq (BitVec.ofNat 32 (i 1).val) 0#32)) 0#32) = 1#1
/-- It holds exactly at the first of the sixteen tiles of each batch group. -/
theorem firstTile_iff : ∀ t : Fin cfg0.N, firstTile (grid0.coords t) ↔ t.val % 16 = 0 :=
  (by decide +kernel : ∀ t : Fin grid0.N, firstTile (grid0.coords t) ↔ t.val % 16 = 0)

set_option maxHeartbeats 4000000 in
/-- The first tile of a batch group: both output buffers may hold anything before the body. -/
noncomputable def runFirst (c : Dev nD) (i : grid0.Coords) (arg2 : Memref sig .tc .vmem S3x8x256 .f32) (harg2 : arg2.IsWhole) (arg3 : Memref sig .tc .vmem S3x8x4096 .f32) (harg3 : arg3.IsWhole) (arg4 : Memref sig .tc .vmem S8x256 .f32) (harg4 : arg4.IsWhole) (arg5 : Memref sig .tc .vmem S8x4096 .f32) (harg5 : arg5.IsWhole) (hc0 : firstTile i)
    (x0 : Vec F S3x8x256 .f32) (x1 : Vec F S3x8x4096 .f32) :
    Σ' (L4 : List (View.Piece (Elt F) S8x256 .f32)), { L5 : List (View.Piece (Elt F) S8x4096 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ (∃ d, owns (c : Thread nD τ) arg5 fullShare d)
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L4) ∗ (∃ f, arg5.view.loc (c : Thread nD τ) ↦[arg5.view.set]{fullShare} arg5.view.writes (Elt F) f L5)) -∗ K ⟨⟩))
          ⊢ wp frame (wpE (defs₀ (F := F)) Variants.none c none) E (cc0__nn_kernel i arg2 harg2 arg3 harg3 arg4 harg4 arg5 harg5) K } := by
  refine ⟨?_, ?_, fun E K => ?run⟩
  case run =>
    simp only [cc0__nn_kernel_eq_skeleton]; unfold cc0__nn_kernel_skel
    unfold owns
    iintro ⟨⟨%f0, %hf0, H0⟩, ⟨%f1, %hf1, H1⟩, ⟨%d4, %f4, -, H4⟩, ⟨%d5, %f5, -, H5⟩, Hk⟩
    obtain rfl := harg2.eq_unread hf0; obtain rfl := harg3.eq_unread hf1
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H4]
    · iexists _; iexact H4
    iexists _; iexact H5

set_option maxHeartbeats 4000000 in
/-- A later tile: the column-minima buffer holds what the tile before left (`xo`), and the body's pieces are written
    over exactly that. -/
noncomputable def runLater (c : Dev nD) (i : grid0.Coords) (arg2 : Memref sig .tc .vmem S3x8x256 .f32) (harg2 : arg2.IsWhole) (arg3 : Memref sig .tc .vmem S3x8x4096 .f32) (harg3 : arg3.IsWhole) (arg4 : Memref sig .tc .vmem S8x256 .f32) (harg4 : arg4.IsWhole) (arg5 : Memref sig .tc .vmem S8x4096 .f32) (harg5 : arg5.IsWhole) (hc0 : ¬firstTile i)
    (x0 : Vec F S3x8x256 .f32) (x1 : Vec F S3x8x4096 .f32) (xo : Vec F S8x4096 .f32) :
    Σ' (L4 : List (View.Piece (Elt F) S8x256 .f32)), { L5 : List (View.Piece (Elt F) S8x4096 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare xo
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L4) ∗ (arg5.view.loc (c : Thread nD τ) ↦[arg5.view.set]{fullShare} arg5.view.writes (Elt F) (harg5.unread xo) L5)) -∗ K ⟨⟩))
          ⊢ wp frame (wpE (defs₀ (F := F)) Variants.none c none) E (cc0__nn_kernel i arg2 harg2 arg3 harg3 arg4 harg4 arg5 harg5) K } := by
  refine ⟨?_, ?_, fun E K => ?run⟩
  case run =>
    simp only [cc0__nn_kernel_eq_skeleton]; unfold cc0__nn_kernel_skel
    unfold owns
    iintro ⟨⟨%f0, %hf0, H0⟩, ⟨%f1, %hf1, H1⟩, ⟨%d4, %f4, -, H4⟩, ⟨%f5, %hf5, H5⟩, Hk⟩
    obtain rfl := harg2.eq_unread hf0; obtain rfl := harg3.eq_unread hf1; obtain rfl := harg5.eq_unread hf5
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H4]
    · iexists _; iexact H4
    iexact H5

end Cert.Kernel.Tile
end
-- ==== Proof.BodyW.lean ====
/-
  The pipeline's proof data and the body obligation. After the body at grid point t (batch group t / 16, tile t % 16
  of the first cloud) the row-minima tile holds what that point's stores left — it is rewritten at every point —,
  and the column-minima block holds what the stores left over the block the point before left, except at the first
  tile of a batch group, where it is filled afresh. The column block is written back after the sixteenth tile only, so
  between two tiles of a group the staging buffer still holds the running minima.
-/
import proofs.«176827_j80092550135919_2_alg».proof.Proof.RunsW
import Idealize.ShloMosaic.Lib.Pipeline.FrameBody
import Idealize.ShloMosaic.Lib.Ring
import Idealize.ShloMosaic.Lib.Tactic

set_option maxRecDepth 16384

noncomputable section

namespace Cert.Kernel.Tile

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Each window's current staging memref at point `t`, as the pipeline passes it, and its wholeness. -/
abbrev ms0 (t : Fin cfg0.N) : Memref sig .tc .vmem S3x8x256 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S3x8x4096 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S8x256 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S8x4096 .f32 := win0_3.stage (cfg0.slots t 3)
abbrev hs3 (t : Fin cfg0.N) : (ms3 t).IsWhole := hstage0_3 ((cfg0.slots t 3).cast nbuf0_3)

/-! ## What each case leaves -/

/-- The row minima a first tile leaves: its pieces read back (the +infinity fill covers the tile). -/
def rowsFirst (c : Dev nD) (i : grid0.Coords) (arg2 : Memref sig .tc .vmem S3x8x256 .f32) (harg2 : arg2.IsWhole) (arg3 : Memref sig .tc .vmem S3x8x4096 .f32) (harg3 : arg3.IsWhole) (arg4 : Memref sig .tc .vmem S8x256 .f32) (harg4 : arg4.IsWhole) (arg5 : Memref sig .tc .vmem S8x4096 .f32) (harg5 : arg5.IsWhole) (hc0 : firstTile i) (x0 : Vec F S3x8x256 .f32) (x1 : Vec F S3x8x4096 .f32) : Vec F S8x256 .f32 :=
  View.canon (runFirst c i arg2 harg2 arg3 harg3 arg4 harg4 arg5 harg5 hc0 x0 x1).1
/-- The column minima a first tile leaves: its pieces read back (the +infinity fill covers the block). -/
def colsFirst (c : Dev nD) (i : grid0.Coords) (arg2 : Memref sig .tc .vmem S3x8x256 .f32) (harg2 : arg2.IsWhole) (arg3 : Memref sig .tc .vmem S3x8x4096 .f32) (harg3 : arg3.IsWhole) (arg4 : Memref sig .tc .vmem S8x256 .f32) (harg4 : arg4.IsWhole) (arg5 : Memref sig .tc .vmem S8x4096 .f32) (harg5 : arg5.IsWhole) (hc0 : firstTile i) (x0 : Vec F S3x8x256 .f32) (x1 : Vec F S3x8x4096 .f32) : Vec F S8x4096 .f32 :=
  View.canon (runFirst c i arg2 harg2 arg3 harg3 arg4 harg4 arg5 harg5 hc0 x0 x1).2.1
/-- The row minima a later tile leaves. -/
def rowsLater (c : Dev nD) (i : grid0.Coords) (arg2 : Memref sig .tc .vmem S3x8x256 .f32) (harg2 : arg2.IsWhole) (arg3 : Memref sig .tc .vmem S3x8x4096 .f32) (harg3 : arg3.IsWhole) (arg4 : Memref sig .tc .vmem S8x256 .f32) (harg4 : arg4.IsWhole) (arg5 : Memref sig .tc .vmem S8x4096 .f32) (harg5 : arg5.IsWhole) (hc0 : ¬firstTile i) (x0 : Vec F S3x8x256 .f32) (x1 : Vec F S3x8x4096 .f32) (xo : Vec F S8x4096 .f32) : Vec F S8x256 .f32 :=
  View.canon (runLater c i arg2 harg2 arg3 harg3 arg4 harg4 arg5 harg5 hc0 x0 x1 xo).1
/-- The column minima a later tile leaves: its pieces written over what the tile before left. -/
def colsLater (c : Dev nD) (i : grid0.Coords) (arg2 : Memref sig .tc .vmem S3x8x256 .f32) (harg2 : arg2.IsWhole) (arg3 : Memref sig .tc .vmem S3x8x4096 .f32) (harg3 : arg3.IsWhole) (arg4 : Memref sig .tc .vmem S8x256 .f32) (harg4 : arg4.IsWhole) (arg5 : Memref sig .tc .vmem S8x4096 .f32) (harg5 : arg5.IsWhole) (hc0 : ¬firstTile i) (x0 : Vec F S3x8x256 .f32) (x1 : Vec F S3x8x4096 .f32) (xo : Vec F S8x4096 .f32) : Vec F S8x4096 .f32 :=
  arg5.view.read (Elt F) (arg5.view.writes (Elt F) (harg5.unread xo) (runLater c i arg2 harg2 arg3 harg3 arg4 harg4 arg5 harg5 hc0 x0 x1 xo).2.1)

theorem cover_rowsFirst (c : Dev nD) (i : grid0.Coords) (arg2 : Memref sig .tc .vmem S3x8x256 .f32) (harg2 : arg2.IsWhole) (arg3 : Memref sig .tc .vmem S3x8x4096 .f32) (harg3 : arg3.IsWhole) (arg4 : Memref sig .tc .vmem S8x256 .f32) (harg4 : arg4.IsWhole) (arg5 : Memref sig .tc .vmem S8x4096 .f32) (harg5 : arg5.IsWhole) (hc0 : firstTile i) (x0 : Vec F S3x8x256 .f32) (x1 : Vec F S3x8x4096 .f32) :
    ∀ y : S8x256.Idx, ∃ pc ∈ (runFirst c i arg2 harg2 arg3 harg3 arg4 harg4 arg5 harg5 hc0 x0 x1).1, y ∈ pc.1.set :=
  View.cover_of_wholeMem _ (by unfold runFirst; dsimp only; sl_whole_mem)
theorem cover_colsFirst (c : Dev nD) (i : grid0.Coords) (arg2 : Memref sig .tc .vmem S3x8x256 .f32) (harg2 : arg2.IsWhole) (arg3 : Memref sig .tc .vmem S3x8x4096 .f32) (harg3 : arg3.IsWhole) (arg4 : Memref sig .tc .vmem S8x256 .f32) (harg4 : arg4.IsWhole) (arg5 : Memref sig .tc .vmem S8x4096 .f32) (harg5 : arg5.IsWhole) (hc0 : firstTile i) (x0 : Vec F S3x8x256 .f32) (x1 : Vec F S3x8x4096 .f32) :
    ∀ y : S8x4096.Idx, ∃ pc ∈ (runFirst c i arg2 harg2 arg3 harg3 arg4 harg4 arg5 harg5 hc0 x0 x1).2.1, y ∈ pc.1.set :=
  View.cover_of_wholeMem _ (by unfold runFirst; dsimp only; sl_whole_mem)
theorem cover_rowsLater (c : Dev nD) (i : grid0.Coords) (arg2 : Memref sig .tc .vmem S3x8x256 .f32) (harg2 : arg2.IsWhole) (arg3 : Memref sig .tc .vmem S3x8x4096 .f32) (harg3 : arg3.IsWhole) (arg4 : Memref sig .tc .vmem S8x256 .f32) (harg4 : arg4.IsWhole) (arg5 : Memref sig .tc .vmem S8x4096 .f32) (harg5 : arg5.IsWhole) (hc0 : ¬firstTile i) (x0 : Vec F S3x8x256 .f32) (x1 : Vec F S3x8x4096 .f32) (xo : Vec F S8x4096 .f32) :
    ∀ y : S8x256.Idx, ∃ pc ∈ (runLater c i arg2 harg2 arg3 harg3 arg4 harg4 arg5 harg5 hc0 x0 x1 xo).1, y ∈ pc.1.set :=
  View.cover_of_wholeMem _ (by unfold runLater; dsimp only; sl_whole_mem)

/-! ## What the outputs hold after each point -/

/-- The column-minima block after the body at position `n`: filled afresh at the first tile of a batch group, else
    this point's pieces over what position `n - 1` left. -/
def colsAt (c : Dev nD) : (n : ℕ) → n < cfg0.N → Vec F S8x4096 .f32
  | 0, hn => colsFirst c (grid0.coords ⟨0, hn⟩) (ms0 ⟨0, hn⟩) (hs0 ⟨0, hn⟩) (ms1 ⟨0, hn⟩) (hs1 ⟨0, hn⟩) (ms2 ⟨0, hn⟩) (hs2 ⟨0, hn⟩) (ms3 ⟨0, hn⟩) (hs3 ⟨0, hn⟩) ((firstTile_iff ⟨0, hn⟩).mpr (Nat.zero_mod _)) (iblk m c 0 ⟨0, hn⟩) (iblk m c 1 ⟨0, hn⟩)
  | n + 1, hn =>
    if h0 : (n + 1) % 16 = 0 then
      colsFirst c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) ((firstTile_iff ⟨n + 1, hn⟩).mpr h0) (iblk m c 0 ⟨n + 1, hn⟩) (iblk m c 1 ⟨n + 1, hn⟩)
    else
      colsLater c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (fun h => h0 ((firstTile_iff ⟨n + 1, hn⟩).mp h)) (iblk m c 0 ⟨n + 1, hn⟩) (iblk m c 1 ⟨n + 1, hn⟩) (colsAt c n (Nat.lt_of_succ_lt hn))

theorem colsAt_first (c : Dev nD) (t : Fin cfg0.N) (h0 : t.val % 16 = 0) :
    colsAt m c t.val t.isLt = colsFirst c (grid0.coords t) (ms0 t) (hs0 t) (ms1 t) (hs1 t) (ms2 t) (hs2 t) (ms3 t) (hs3 t) ((firstTile_iff t).mpr h0) (iblk m c 0 t) (iblk m c 1 t) := by
  obtain ⟨n, hn⟩ := t
  cases n with
  | zero => exact rfl
  | succ n => exact (dif_pos h0).trans rfl

theorem colsAt_later (c : Dev nD) (t : Fin cfg0.N) (h0 : ¬t.val % 16 = 0) :
    colsAt m c t.val t.isLt = colsLater c (grid0.coords t) (ms0 t) (hs0 t) (ms1 t) (hs1 t) (ms2 t) (hs2 t) (ms3 t) (hs3 t) (fun h => h0 ((firstTile_iff t).mp h)) (iblk m c 0 t) (iblk m c 1 t) (colsAt m c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans rfl

/-- The row-minima tile after the body at point `t`. -/
def rowsAt (c : Dev nD) (t : Fin cfg0.N) : Vec F S8x256 .f32 :=
  if h0 : t.val % 16 = 0 then
    rowsFirst c (grid0.coords t) (ms0 t) (hs0 t) (ms1 t) (hs1 t) (ms2 t) (hs2 t) (ms3 t) (hs3 t) ((firstTile_iff t).mpr h0) (iblk m c 0 t) (iblk m c 1 t)
  else
    rowsLater c (grid0.coords t) (ms0 t) (hs0 t) (ms1 t) (hs1 t) (ms2 t) (hs2 t) (ms3 t) (hs3 t) (fun h => h0 ((firstTile_iff t).mp h)) (iblk m c 0 t) (iblk m c 1 t) (colsAt m c (t.val - 1) (Nat.lt_of_le_of_lt (Nat.sub_le _ _) t.isLt))

/-! ## The pipeline's proof data -/

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => rowsAt m c t
    | ⟨3, _⟩ => colsAt m c t.val t.isLt
  Φ _ := Pipeline.ΦA spec0 c
  q _ := fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = rowsAt m c t := by dsimp only [dats]
theorem after_3 (c : Dev nD) (t : Fin cfg0.N) : (dats m 0 c).after 3 t = colsAt m c t.val t.isLt := by dsimp only [dats]

theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
/-- At a later tile the column block's staging buffer holds what the body left at the point before: the point is not
    the first of its group, so the buffer was not written back in between. -/
theorem before_3_later (c : Dev nD) (t : Fin cfg0.N) (h0 : ¬t.val % 16 = 0) (d) :
    (dats m 0 c).before 3 t d = colsAt m c (t.val - 1) (Nat.lt_of_le_of_lt (Nat.sub_le _ _) t.isLt) := by
  have hN : t.val < 32 := lt_of_lt_of_eq t.isLt (show cfg0.N = 32 from N_0)
  rw [Dat.before_out_kept _ 3 rfl t (by omega) (Bool.eq_false_iff.mpr fun h => by have := (flush0_3 _).mp h; dsimp only at this; omega)
    (fun _ => rfl) (fun _ _ => rfl)]
  dsimp only [dats]

/-! ## The body obligation, at a generic point -/

def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d)))

def bodyPost (c : Dev nD) (t : Fin cfg0.N) : sProp 𝕄 :=
  iprop((dats m 0 c).Φ t.succ ∗ (dats m 0 c).owesAt () t.succ
    ∗ owns (c : Thread nD τ) (ms0 t) fullShare ((dats m 0 c).after 0 t)
    ∗ owns (c : Thread nD τ) (ms1 t) fullShare ((dats m 0 c).after 1 t)
    ∗ owns (c : Thread nD τ) (ms2 t) fullShare ((dats m 0 c).after 2 t)
    ∗ owns (c : Thread nD τ) (ms3 t) fullShare ((dats m 0 c).after 3 t))

set_option maxHeartbeats 1600000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1]
  rw [show (dats m 0 c).Φ t.succ = (dats m 0 c).Φ t.castSucc from rfl,
    show (dats m 0 c).owesAt () t.succ = (dats m 0 c).owesAt () t.castSucc from rfl,
    after_0, after_1, after_2, after_3]
  by_cases h0 : t.val % 16 = 0
  · rw [colsAt_first m c t h0]
    unfold rowsAt; rw [dif_pos h0]
    unfold rowsFirst colsFirst
    iintro ⟨HΦ, Ho, ⟨%d0, H0⟩, ⟨%d1, H1⟩, ⟨%d2, H2⟩, ⟨%d3, H3⟩⟩
    iapply ((runFirst c (grid0.coords t) _ _ _ _ _ _ _ _ ((firstTile_iff t).mpr h0) (iblk m c 0 t) (iblk m c 1 t)).2.2 Set.univ _)
    isplitl [H0]; · iexact H0
    isplitl [H1]; · iexact H1
    isplitl [H2]; · iexists _; iexact H2
    isplitl [H3]; · iexists _; iexact H3
    iintro ⟨H0, H1, ⟨%e2, H2⟩, ⟨%e3, H3⟩⟩
    isplitl [HΦ]; · iexact HΦ
    isplitl [Ho]; · iexact Ho
    isplitl [H0]; · iexact H0
    isplitl [H1]; · iexact H1
    isplitl [H2]
    · unfold owns; iexists _; isplitr
      swap; · iexact H2
      ipureintro; exact View.read_writes_eq_canon _ _ _ (cover_rowsFirst c _ _ _ _ _ _ _ _ _ _ _ _)
    unfold owns; iexists _; isplitr
    swap; · iexact H3
    ipureintro; exact View.read_writes_eq_canon _ _ _ (cover_colsFirst c _ _ _ _ _ _ _ _ _ _ _ _)
  · rw [colsAt_later m c t h0]
    unfold rowsAt; rw [dif_neg h0]
    simp only [before_3_later m c t h0]
    unfold rowsLater colsLater
    iintro ⟨HΦ, Ho, ⟨%d0, H0⟩, ⟨%d1, H1⟩, ⟨%d2, H2⟩, ⟨%d3, H3⟩⟩
    iapply ((runLater c (grid0.coords t) _ _ _ _ _ _ _ _ (fun h => h0 ((firstTile_iff t).mp h)) (iblk m c 0 t) (iblk m c 1 t) _).2.2 Set.univ _)
    isplitl [H0]; · iexact H0
    isplitl [H1]; · iexact H1
    isplitl [H2]; · iexists _; iexact H2
    isplitl [H3]; · iexact H3
    iintro ⟨H0, H1, ⟨%e2, H2⟩, H3⟩
    isplitl [HΦ]; · iexact HΦ
    isplitl [Ho]; · iexact Ho
    isplitl [H0]; · iexact H0
    isplitl [H1]; · iexact H1
    isplitl [H2]
    · unfold owns; iexists _; isplitr
      swap; · iexact H2
      ipureintro; exact View.read_writes_eq_canon _ _ _ (cover_rowsLater c _ _ _ _ _ _ _ _ _ _ _ _ _)
    unfold owns; iexists _; isplitr
    swap; · iexact H3
    ipureintro; rfl

theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The program runs to the end without a fault and leaves both argument arrays as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of m ρ (dats m) (A_eq m) (run_main m ρ)

end Cert.Kernel.Tile
end
-- ==== Proof.ChunksI.lean ====
/-
  The loop over the sixteen 256-column chunks of the second cloud's block, by its invariant. One trip reads the three
  coordinate planes of chunk k (through the three plane views of the block, the block held whole), forms the squared
  distances of the 8×256 points of the first cloud's tile to the 8×256 points of the chunk, and lowers two running
  minima held in memory: the row minima (the whole 8×256 tile, rewritten every trip) and the column minima (columns
  256k … 256k+255 of the 8×4096 block). Before trip k each of the two buffers holds the pieces of the trips before k
  written over what the loop found there; each trip's piece is a function of what the trip finds, since it reads the
  running minimum back.
-/
import proofs.«176827_j80092550135919_2_alg».proof.Proof.Gen.KernelIdeal.Skeleton
import proofs.«176827_j80092550135919_2_alg».proof.Proof.Gen.KernelIdeal.Loops
import Idealize.ShloMosaic.Lib.Exec
import Idealize.ShloMosaic.Lib.Tactic
import Idealize.ShloMosaic.Lib.Pipeline.Kit

set_option maxRecDepth 16384
set_option maxHeartbeats 4000000

noncomputable section

namespace Cert.KernelIdeal.Chunks

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄G" => MT nD τ sig Unit (Elt F) ℕ (UR sig nD τ) ℕ

/-- What one trip touches: the second cloud's block whole at its contents, the two minima buffers at any contents. -/
abbrev Held (c : Dev nD) (arg3 : Memref sig .tc .vmem S3x8x4096 .f32) (arg4 : Memref sig .tc .vmem S8x256 .f32) (arg5 : Memref sig .tc .vmem S8x4096 .f32)
    (X3 : BufTy.Contents (Elt F) arg3.view.ty) (f4 : BufTy.Contents (Elt F) arg4.view.ty) (f5 : BufTy.Contents (Elt F) arg5.view.ty) : sProp 𝕄G :=
  iprop((arg3.view.loc (c : Thread nD τ) ↦[arg3.view.set]{fullShare} X3) ∗ (arg4.view.loc (c : Thread nD τ) ↦[arg4.view.set]{fullShare} f4) ∗ (arg5.view.loc (c : Thread nD τ) ↦[arg5.view.set]{fullShare} f5))

/-- One trip at a symbolic chunk k: the piece it writes into each minima buffer, as a function of what it finds there,
    with the trip's run from the held buffers to the held buffers with those pieces written. -/
def trip (𝒱 : Variants) (c : Dev nD) (bd : Option 𝒱.V) (i : grid0.Coords) (arg2 : Memref sig .tc .vmem S3x8x256 .f32) (harg2 : arg2.IsWhole) (arg3 : Memref sig .tc .vmem S3x8x4096 .f32) (harg3 : arg3.IsWhole) (arg4 : Memref sig .tc .vmem S8x256 .f32) (harg4 : arg4.IsWhole) (arg5 : Memref sig .tc .vmem S8x4096 .f32) (harg5 : arg5.IsWhole) (v5 : Vec F S1x8x256 .f32) (v7 : Vec F S1x8x256 .f32) (v9 : Vec F S1x8x256 .f32) (X3 : BufTy.Contents (Elt F) arg3.view.ty) (k : Fin k0_t1_loop.trips) :
    Σ' (L4 : BufTy.Contents (Elt F) arg4.view.ty → BufTy.Contents (Elt F) arg5.view.ty → List (View.Piece (Elt F) S8x256 .f32)), { L5 : BufTy.Contents (Elt F) arg4.view.ty → BufTy.Contents (Elt F) arg5.view.ty → List (View.Piece (Elt F) S8x4096 .f32) // ∀ (E : Set ℕ) (f4 : BufTy.Contents (Elt F) arg4.view.ty) (f5 : BufTy.Contents (Elt F) arg5.view.ty),
      Held (F := F) c arg3 arg4 arg5 X3 f4 f5
      ⊢ wp frame (wpE (defs₀ (F := F)) 𝒱 (c : Thread nD τ) bd) E (k0_t1_body (F := F) i arg2 harg2 arg3 harg3 arg4 harg4 arg5 harg5 v5 v7 v9 k PUnit.unit)
          (fun _ => Held (F := F) c arg3 arg4 arg5 X3 (arg4.view.writes (Elt F) f4 (L4 f4 f5)) (arg5.view.writes (Elt F) f5 (L5 f4 f5))) } := by
  have hk : k.val < 16 := Nat.lt_of_lt_of_le k.isLt k0_t1_abs.2.1
  refine ⟨?_, ?_, fun E f4 f5 => ?run⟩
  case run =>
    unfold k0_t1_body
    iintro ⟨H3, H4, H5⟩
    sl_exec
    sl_step
    sl_close

/-- The trip's two pieces at the contents it finds. -/
abbrev tripPieces (𝒱 : Variants) (c : Dev nD) (bd : Option 𝒱.V) (i : grid0.Coords) (arg2 : Memref sig .tc .vmem S3x8x256 .f32) (harg2 : arg2.IsWhole) (arg3 : Memref sig .tc .vmem S3x8x4096 .f32) (harg3 : arg3.IsWhole) (arg4 : Memref sig .tc .vmem S8x256 .f32) (harg4 : arg4.IsWhole) (arg5 : Memref sig .tc .vmem S8x4096 .f32) (harg5 : arg5.IsWhole) (v5 : Vec F S1x8x256 .f32) (v7 : Vec F S1x8x256 .f32) (v9 : Vec F S1x8x256 .f32) (X3 : BufTy.Contents (Elt F) arg3.view.ty) (k : Fin k0_t1_loop.trips) (f4 : BufTy.Contents (Elt F) arg4.view.ty) (f5 : BufTy.Contents (Elt F) arg5.view.ty) : List (View.Piece (Elt F) S8x256 .f32) × List (View.Piece (Elt F) S8x4096 .f32) :=
  ((trip (F := F) 𝒱 c bd i arg2 harg2 arg3 harg3 arg4 harg4 arg5 harg5 v5 v7 v9 X3 k).1 f4 f5, (trip (F := F) 𝒱 c bd i arg2 harg2 arg3 harg3 arg4 harg4 arg5 harg5 v5 v7 v9 X3 k).2.1 f4 f5)

/-- Trip k's pieces put in front of the pieces of the trips before it; past the last trip, nothing. -/
@[irreducible] def piecesStep (𝒱 : Variants) (c : Dev nD) (bd : Option 𝒱.V) (i : grid0.Coords) (arg2 : Memref sig .tc .vmem S3x8x256 .f32) (harg2 : arg2.IsWhole) (arg3 : Memref sig .tc .vmem S3x8x4096 .f32) (harg3 : arg3.IsWhole) (arg4 : Memref sig .tc .vmem S8x256 .f32) (harg4 : arg4.IsWhole) (arg5 : Memref sig .tc .vmem S8x4096 .f32) (harg5 : arg5.IsWhole) (v5 : Vec F S1x8x256 .f32) (v7 : Vec F S1x8x256 .f32) (v9 : Vec F S1x8x256 .f32) (X3 : BufTy.Contents (Elt F) arg3.view.ty) (G4 : BufTy.Contents (Elt F) arg4.view.ty) (G5 : BufTy.Contents (Elt F) arg5.view.ty) (k : ℕ) (prev : List (View.Piece (Elt F) S8x256 .f32) × List (View.Piece (Elt F) S8x4096 .f32)) : List (View.Piece (Elt F) S8x256 .f32) × List (View.Piece (Elt F) S8x4096 .f32) :=
  if h : k < k0_t1_loop.trips then
    ((tripPieces (F := F) 𝒱 c bd i arg2 harg2 arg3 harg3 arg4 harg4 arg5 harg5 v5 v7 v9 X3 ⟨k, h⟩ (arg4.view.writes (Elt F) G4 prev.1) (arg5.view.writes (Elt F) G5 prev.2)).1 ++ prev.1,
     (tripPieces (F := F) 𝒱 c bd i arg2 harg2 arg3 harg3 arg4 harg4 arg5 harg5 v5 v7 v9 X3 ⟨k, h⟩ (arg4.view.writes (Elt F) G4 prev.1) (arg5.view.writes (Elt F) G5 prev.2)).2 ++ prev.2)
  else prev

/-- The pieces of the trips before k (last first), from the contents G4, G5 the loop found. -/
def piecesBefore (𝒱 : Variants) (c : Dev nD) (bd : Option 𝒱.V) (i : grid0.Coords) (arg2 : Memref sig .tc .vmem S3x8x256 .f32) (harg2 : arg2.IsWhole) (arg3 : Memref sig .tc .vmem S3x8x4096 .f32) (harg3 : arg3.IsWhole) (arg4 : Memref sig .tc .vmem S8x256 .f32) (harg4 : arg4.IsWhole) (arg5 : Memref sig .tc .vmem S8x4096 .f32) (harg5 : arg5.IsWhole) (v5 : Vec F S1x8x256 .f32) (v7 : Vec F S1x8x256 .f32) (v9 : Vec F S1x8x256 .f32) (X3 : BufTy.Contents (Elt F) arg3.view.ty) (G4 : BufTy.Contents (Elt F) arg4.view.ty) (G5 : BufTy.Contents (Elt F) arg5.view.ty) : ℕ → List (View.Piece (Elt F) S8x256 .f32) × List (View.Piece (Elt F) S8x4096 .f32)
  | 0 => ([], [])
  | k + 1 => piecesStep (F := F) 𝒱 c bd i arg2 harg2 arg3 harg3 arg4 harg4 arg5 harg5 v5 v7 v9 X3 G4 G5 k (piecesBefore 𝒱 c bd i arg2 harg2 arg3 harg3 arg4 harg4 arg5 harg5 v5 v7 v9 X3 G4 G5 k)

theorem piecesBefore_succ (𝒱 : Variants) (c : Dev nD) (bd : Option 𝒱.V) (i : grid0.Coords) (arg2 : Memref sig .tc .vmem S3x8x256 .f32) (harg2 : arg2.IsWhole) (arg3 : Memref sig .tc .vmem S3x8x4096 .f32) (harg3 : arg3.IsWhole) (arg4 : Memref sig .tc .vmem S8x256 .f32) (harg4 : arg4.IsWhole) (arg5 : Memref sig .tc .vmem S8x4096 .f32) (harg5 : arg5.IsWhole) (v5 : Vec F S1x8x256 .f32) (v7 : Vec F S1x8x256 .f32) (v9 : Vec F S1x8x256 .f32) (X3 : BufTy.Contents (Elt F) arg3.view.ty) (G4 : BufTy.Contents (Elt F) arg4.view.ty) (G5 : BufTy.Contents (Elt F) arg5.view.ty) (k : Fin k0_t1_loop.trips) :
    piecesBefore (F := F) 𝒱 c bd i arg2 harg2 arg3 harg3 arg4 harg4 arg5 harg5 v5 v7 v9 X3 G4 G5 (k.val + 1)
      = ((tripPieces (F := F) 𝒱 c bd i arg2 harg2 arg3 harg3 arg4 harg4 arg5 harg5 v5 v7 v9 X3 k (arg4.view.writes (Elt F) G4 (piecesBefore (F := F) 𝒱 c bd i arg2 harg2 arg3 harg3 arg4 harg4 arg5 harg5 v5 v7 v9 X3 G4 G5 k.val).1) (arg5.view.writes (Elt F) G5 (piecesBefore (F := F) 𝒱 c bd i arg2 harg2 arg3 harg3 arg4 harg4 arg5 harg5 v5 v7 v9 X3 G4 G5 k.val).2)).1 ++ (piecesBefore (F := F) 𝒱 c bd i arg2 harg2 arg3 harg3 arg4 harg4 arg5 harg5 v5 v7 v9 X3 G4 G5 k.val).1,
         (tripPieces (F := F) 𝒱 c bd i arg2 harg2 arg3 harg3 arg4 harg4 arg5 harg5 v5 v7 v9 X3 k (arg4.view.writes (Elt F) G4 (piecesBefore (F := F) 𝒱 c bd i arg2 harg2 arg3 harg3 arg4 harg4 arg5 harg5 v5 v7 v9 X3 G4 G5 k.val).1) (arg5.view.writes (Elt F) G5 (piecesBefore (F := F) 𝒱 c bd i arg2 harg2 arg3 harg3 arg4 harg4 arg5 harg5 v5 v7 v9 X3 G4 G5 k.val).2)).2 ++ (piecesBefore (F := F) 𝒱 c bd i arg2 harg2 arg3 harg3 arg4 harg4 arg5 harg5 v5 v7 v9 X3 G4 G5 k.val).2) := by
  rw [piecesBefore.eq_2]; unfold piecesStep; exact dif_pos k.isLt

/-- Before trip k: the block at its contents; each minima buffer holding the pieces of the trips before k over what the
    loop found. -/
abbrev inv (𝒱 : Variants) (c : Dev nD) (bd : Option 𝒱.V) (i : grid0.Coords) (arg2 : Memref sig .tc .vmem S3x8x256 .f32) (harg2 : arg2.IsWhole) (arg3 : Memref sig .tc .vmem S3x8x4096 .f32) (harg3 : arg3.IsWhole) (arg4 : Memref sig .tc .vmem S8x256 .f32) (harg4 : arg4.IsWhole) (arg5 : Memref sig .tc .vmem S8x4096 .f32) (harg5 : arg5.IsWhole) (v5 : Vec F S1x8x256 .f32) (v7 : Vec F S1x8x256 .f32) (v9 : Vec F S1x8x256 .f32) (X3 : BufTy.Contents (Elt F) arg3.view.ty) (G4 : BufTy.Contents (Elt F) arg4.view.ty) (G5 : BufTy.Contents (Elt F) arg5.view.ty) (k : ℕ) (_u : PUnit) : sProp 𝕄G :=
  iprop((arg3.view.loc (c : Thread nD τ) ↦[arg3.view.set]{fullShare} X3)
    ∗ (∃ f, (arg4.view.loc (c : Thread nD τ) ↦[arg4.view.set]{fullShare} f) ∗ ⌜f = arg4.view.writes (Elt F) G4 (piecesBefore (F := F) 𝒱 c bd i arg2 harg2 arg3 harg3 arg4 harg4 arg5 harg5 v5 v7 v9 X3 G4 G5 k).1⌝)
    ∗ (∃ f, (arg5.view.loc (c : Thread nD τ) ↦[arg5.view.set]{fullShare} f) ∗ ⌜f = arg5.view.writes (Elt F) G5 (piecesBefore (F := F) 𝒱 c bd i arg2 harg2 arg3 harg3 arg4 harg4 arg5 harg5 v5 v7 v9 X3 G4 G5 k).2⌝))

set_option warn.classDefReducibility false in
/-- The loop by its invariant: one trip takes the invariant at k to the invariant at k + 1. -/
@[sl_loop] def loopInv (𝒱 : Variants) (c : Dev nD) (bd : Option 𝒱.V) (E : Set ℕ) (i : grid0.Coords) (arg2 : Memref sig .tc .vmem S3x8x256 .f32) (harg2 : arg2.IsWhole) (arg3 : Memref sig .tc .vmem S3x8x4096 .f32) (harg3 : arg3.IsWhole) (arg4 : Memref sig .tc .vmem S8x256 .f32) (harg4 : arg4.IsWhole) (arg5 : Memref sig .tc .vmem S8x4096 .f32) (harg5 : arg5.IsWhole) (v5 : Vec F S1x8x256 .f32) (v7 : Vec F S1x8x256 .f32) (v9 : Vec F S1x8x256 .f32) (X3 : BufTy.Contents (Elt F) arg3.view.ty) (G4 : BufTy.Contents (Elt F) arg4.view.ty) (G5 : BufTy.Contents (Elt F) arg5.view.ty) :
    LoopInvTy_k0_t1 (F := F) Unit ℕ (UR sig nD τ) ℕ 𝒱 c bd E i arg2 harg2 arg3 harg3 arg4 harg4 arg5 harg5 v5 v7 v9 where
  inv := inv (F := F) 𝒱 c bd i arg2 harg2 arg3 harg3 arg4 harg4 arg5 harg5 v5 v7 v9 X3 G4 G5
  step k acc := by
    iintro ⟨H3, ⟨%f4, H4, %h4⟩, ⟨%f5, H5, %h5⟩⟩
    iapply (wp_wand_r Idealize.ShloMosaic.frame (wpE (defs₀ (F := F)) 𝒱 (c : Thread nD τ) bd) E)
    isplitl [H3 H4 H5]
    · iapply ((trip (F := F) 𝒱 c bd i arg2 harg2 arg3 harg3 arg4 harg4 arg5 harg5 v5 v7 v9 X3 k).2.2 E f4 f5)
      isplitl [H3]; · iexact H3
      isplitl [H4]; · iexact H4
      iexact H5
    · iintro %_ ⟨H3, H4, H5⟩
      isplitl [H3]; · iexact H3
      rw [piecesBefore_succ]
      isplitl [H4]
      · iexists _; isplitl [H4]; · iexact H4
        ipureintro; rw [h4, h5, ← View.writes_append]
      iexists _; isplitl [H5]; · iexact H5
      ipureintro; rw [h4, h5, ← View.writes_append]

end Cert.KernelIdeal.Chunks

end
-- ==== Proof.RunsI.lean ====
/-
  The kernel body at one grid point, run once for each of its two control cases. At the first tile of a batch group the
  body first fills the column-minima block with +infinity; at the later tiles it keeps what the tile before left
  there. In both cases it fills the row-minima tile with +infinity, loads the three coordinate planes of the first
  cloud's tile, and sweeps the sixteen column chunks. What the stores leave in the two output buffers is found by the
  run, as lists of pieces (last store first).
-/
import proofs.«176827_j80092550135919_2_alg».proof.Proof.ChunksI
import proofs.«176827_j80092550135919_2_alg».proof.Proof.Gen.KernelIdeal.Frame
import Idealize.ShloMosaic.Lib.Pipeline.FrameBody
import Idealize.ShloMosaic.Lib.Ring
import Idealize.ShloMosaic.Lib.Tactic

set_option maxRecDepth 16384

noncomputable section

namespace Cert.KernelIdeal.Tile

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The body's branch condition from the grid coordinates: the tile index along the first cloud's points is zero. -/
abbrev firstTile (i : grid0.Coords) : Prop := (Scalar.cmpi .ne (Scalar.extui (Scalar.cmpi .eq (BitVec.ofNat 32 (i 1).val) 0#32)) 0#32) = 1#1
/-- It holds exactly at the first of the sixteen tiles of each batch group. -/
theorem firstTile_iff : ∀ t : Fin cfg0.N, firstTile (grid0.coords t) ↔ t.val % 16 = 0 :=
  (by decide +kernel : ∀ t : Fin grid0.N, firstTile (grid0.coords t) ↔ t.val % 16 = 0)

set_option maxHeartbeats 4000000 in
/-- The first tile of a batch group: both output buffers may hold anything before the body. -/
noncomputable def runFirst (c : Dev nD) (i : grid0.Coords) (arg2 : Memref sig .tc .vmem S3x8x256 .f32) (harg2 : arg2.IsWhole) (arg3 : Memref sig .tc .vmem S3x8x4096 .f32) (harg3 : arg3.IsWhole) (arg4 : Memref sig .tc .vmem S8x256 .f32) (harg4 : arg4.IsWhole) (arg5 : Memref sig .tc .vmem S8x4096 .f32) (harg5 : arg5.IsWhole) (hc0 : firstTile i)
    (x0 : Vec F S3x8x256 .f32) (x1 : Vec F S3x8x4096 .f32) :
    Σ' (L4 : List (View.Piece (Elt F) S8x256 .f32)), { L5 : List (View.Piece (Elt F) S8x4096 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ (∃ d, owns (c : Thread nD τ) arg5 fullShare d)
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L4) ∗ (∃ f, arg5.view.loc (c : Thread nD τ) ↦[arg5.view.set]{fullShare} arg5.view.writes (Elt F) f L5)) -∗ K ⟨⟩))
          ⊢ wp frame (wpE (defs₀ (F := F)) Variants.none c none) E (cc0__nn_kernel i arg2 harg2 arg3 harg3 arg4 harg4 arg5 harg5) K } := by
  refine ⟨?_, ?_, fun E K => ?run⟩
  case run =>
    simp only [cc0__nn_kernel_eq_skeleton]; unfold cc0__nn_kernel_skel
    unfold owns
    iintro ⟨⟨%f0, %hf0, H0⟩, ⟨%f1, %hf1, H1⟩, ⟨%d4, %f4, -, H4⟩, ⟨%d5, %f5, -, H5⟩, Hk⟩
    obtain rfl := harg2.eq_unread hf0; obtain rfl := harg3.eq_unread hf1
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H4]
    · iexists _; iexact H4
    iexists _; iexact H5

set_option maxHeartbeats 4000000 in
/-- A later tile: the column-minima buffer holds what the tile before left (`xo`), and the body's pieces are written
    over exactly that. -/
noncomputable def runLater (c : Dev nD) (i : grid0.Coords) (arg2 : Memref sig .tc .vmem S3x8x256 .f32) (harg2 : arg2.IsWhole) (arg3 : Memref sig .tc .vmem S3x8x4096 .f32) (harg3 : arg3.IsWhole) (arg4 : Memref sig .tc .vmem S8x256 .f32) (harg4 : arg4.IsWhole) (arg5 : Memref sig .tc .vmem S8x4096 .f32) (harg5 : arg5.IsWhole) (hc0 : ¬firstTile i)
    (x0 : Vec F S3x8x256 .f32) (x1 : Vec F S3x8x4096 .f32) (xo : Vec F S8x4096 .f32) :
    Σ' (L4 : List (View.Piece (Elt F) S8x256 .f32)), { L5 : List (View.Piece (Elt F) S8x4096 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare xo
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L4) ∗ (arg5.view.loc (c : Thread nD τ) ↦[arg5.view.set]{fullShare} arg5.view.writes (Elt F) (harg5.unread xo) L5)) -∗ K ⟨⟩))
          ⊢ wp frame (wpE (defs₀ (F := F)) Variants.none c none) E (cc0__nn_kernel i arg2 harg2 arg3 harg3 arg4 harg4 arg5 harg5) K } := by
  refine ⟨?_, ?_, fun E K => ?run⟩
  case run =>
    simp only [cc0__nn_kernel_eq_skeleton]; unfold cc0__nn_kernel_skel
    unfold owns
    iintro ⟨⟨%f0, %hf0, H0⟩, ⟨%f1, %hf1, H1⟩, ⟨%d4, %f4, -, H4⟩, ⟨%f5, %hf5, H5⟩, Hk⟩
    obtain rfl := harg2.eq_unread hf0; obtain rfl := harg3.eq_unread hf1; obtain rfl := harg5.eq_unread hf5
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H4]
    · iexists _; iexact H4
    iexact H5

end Cert.KernelIdeal.Tile
end
-- ==== Proof.BodyI.lean ====
/-
  The pipeline's proof data and the body obligation. After the body at grid point t (batch group t / 16, tile t % 16
  of the first cloud) the row-minima tile holds what that point's stores left — it is rewritten at every point —,
  and the column-minima block holds what the stores left over the block the point before left, except at the first
  tile of a batch group, where it is filled afresh. The column block is written back after the sixteenth tile only, so
  between two tiles of a group the staging buffer still holds the running minima.
-/
import proofs.«176827_j80092550135919_2_alg».proof.Proof.RunsI
import Idealize.ShloMosaic.Lib.Pipeline.FrameBody
import Idealize.ShloMosaic.Lib.Ring
import Idealize.ShloMosaic.Lib.Tactic

set_option maxRecDepth 16384

noncomputable section

namespace Cert.KernelIdeal.Tile

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Each window's current staging memref at point `t`, as the pipeline passes it, and its wholeness. -/
abbrev ms0 (t : Fin cfg0.N) : Memref sig .tc .vmem S3x8x256 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S3x8x4096 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S8x256 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S8x4096 .f32 := win0_3.stage (cfg0.slots t 3)
abbrev hs3 (t : Fin cfg0.N) : (ms3 t).IsWhole := hstage0_3 ((cfg0.slots t 3).cast nbuf0_3)

/-! ## What each case leaves -/

/-- The row minima a first tile leaves: its pieces read back (the +infinity fill covers the tile). -/
def rowsFirst (c : Dev nD) (i : grid0.Coords) (arg2 : Memref sig .tc .vmem S3x8x256 .f32) (harg2 : arg2.IsWhole) (arg3 : Memref sig .tc .vmem S3x8x4096 .f32) (harg3 : arg3.IsWhole) (arg4 : Memref sig .tc .vmem S8x256 .f32) (harg4 : arg4.IsWhole) (arg5 : Memref sig .tc .vmem S8x4096 .f32) (harg5 : arg5.IsWhole) (hc0 : firstTile i) (x0 : Vec F S3x8x256 .f32) (x1 : Vec F S3x8x4096 .f32) : Vec F S8x256 .f32 :=
  View.canon (runFirst c i arg2 harg2 arg3 harg3 arg4 harg4 arg5 harg5 hc0 x0 x1).1
/-- The column minima a first tile leaves: its pieces read back (the +infinity fill covers the block). -/
def colsFirst (c : Dev nD) (i : grid0.Coords) (arg2 : Memref sig .tc .vmem S3x8x256 .f32) (harg2 : arg2.IsWhole) (arg3 : Memref sig .tc .vmem S3x8x4096 .f32) (harg3 : arg3.IsWhole) (arg4 : Memref sig .tc .vmem S8x256 .f32) (harg4 : arg4.IsWhole) (arg5 : Memref sig .tc .vmem S8x4096 .f32) (harg5 : arg5.IsWhole) (hc0 : firstTile i) (x0 : Vec F S3x8x256 .f32) (x1 : Vec F S3x8x4096 .f32) : Vec F S8x4096 .f32 :=
  View.canon (runFirst c i arg2 harg2 arg3 harg3 arg4 harg4 arg5 harg5 hc0 x0 x1).2.1
/-- The row minima a later tile leaves. -/
def rowsLater (c : Dev nD) (i : grid0.Coords) (arg2 : Memref sig .tc .vmem S3x8x256 .f32) (harg2 : arg2.IsWhole) (arg3 : Memref sig .tc .vmem S3x8x4096 .f32) (harg3 : arg3.IsWhole) (arg4 : Memref sig .tc .vmem S8x256 .f32) (harg4 : arg4.IsWhole) (arg5 : Memref sig .tc .vmem S8x4096 .f32) (harg5 : arg5.IsWhole) (hc0 : ¬firstTile i) (x0 : Vec F S3x8x256 .f32) (x1 : Vec F S3x8x4096 .f32) (xo : Vec F S8x4096 .f32) : Vec F S8x256 .f32 :=
  View.canon (runLater c i arg2 harg2 arg3 harg3 arg4 harg4 arg5 harg5 hc0 x0 x1 xo).1
/-- The column minima a later tile leaves: its pieces written over what the tile before left. -/
def colsLater (c : Dev nD) (i : grid0.Coords) (arg2 : Memref sig .tc .vmem S3x8x256 .f32) (harg2 : arg2.IsWhole) (arg3 : Memref sig .tc .vmem S3x8x4096 .f32) (harg3 : arg3.IsWhole) (arg4 : Memref sig .tc .vmem S8x256 .f32) (harg4 : arg4.IsWhole) (arg5 : Memref sig .tc .vmem S8x4096 .f32) (harg5 : arg5.IsWhole) (hc0 : ¬firstTile i) (x0 : Vec F S3x8x256 .f32) (x1 : Vec F S3x8x4096 .f32) (xo : Vec F S8x4096 .f32) : Vec F S8x4096 .f32 :=
  arg5.view.read (Elt F) (arg5.view.writes (Elt F) (harg5.unread xo) (runLater c i arg2 harg2 arg3 harg3 arg4 harg4 arg5 harg5 hc0 x0 x1 xo).2.1)

theorem cover_rowsFirst (c : Dev nD) (i : grid0.Coords) (arg2 : Memref sig .tc .vmem S3x8x256 .f32) (harg2 : arg2.IsWhole) (arg3 : Memref sig .tc .vmem S3x8x4096 .f32) (harg3 : arg3.IsWhole) (arg4 : Memref sig .tc .vmem S8x256 .f32) (harg4 : arg4.IsWhole) (arg5 : Memref sig .tc .vmem S8x4096 .f32) (harg5 : arg5.IsWhole) (hc0 : firstTile i) (x0 : Vec F S3x8x256 .f32) (x1 : Vec F S3x8x4096 .f32) :
    ∀ y : S8x256.Idx, ∃ pc ∈ (runFirst c i arg2 harg2 arg3 harg3 arg4 harg4 arg5 harg5 hc0 x0 x1).1, y ∈ pc.1.set :=
  View.cover_of_wholeMem _ (by unfold runFirst; dsimp only; sl_whole_mem)
theorem cover_colsFirst (c : Dev nD) (i : grid0.Coords) (arg2 : Memref sig .tc .vmem S3x8x256 .f32) (harg2 : arg2.IsWhole) (arg3 : Memref sig .tc .vmem S3x8x4096 .f32) (harg3 : arg3.IsWhole) (arg4 : Memref sig .tc .vmem S8x256 .f32) (harg4 : arg4.IsWhole) (arg5 : Memref sig .tc .vmem S8x4096 .f32) (harg5 : arg5.IsWhole) (hc0 : firstTile i) (x0 : Vec F S3x8x256 .f32) (x1 : Vec F S3x8x4096 .f32) :
    ∀ y : S8x4096.Idx, ∃ pc ∈ (runFirst c i arg2 harg2 arg3 harg3 arg4 harg4 arg5 harg5 hc0 x0 x1).2.1, y ∈ pc.1.set :=
  View.cover_of_wholeMem _ (by unfold runFirst; dsimp only; sl_whole_mem)
theorem cover_rowsLater (c : Dev nD) (i : grid0.Coords) (arg2 : Memref sig .tc .vmem S3x8x256 .f32) (harg2 : arg2.IsWhole) (arg3 : Memref sig .tc .vmem S3x8x4096 .f32) (harg3 : arg3.IsWhole) (arg4 : Memref sig .tc .vmem S8x256 .f32) (harg4 : arg4.IsWhole) (arg5 : Memref sig .tc .vmem S8x4096 .f32) (harg5 : arg5.IsWhole) (hc0 : ¬firstTile i) (x0 : Vec F S3x8x256 .f32) (x1 : Vec F S3x8x4096 .f32) (xo : Vec F S8x4096 .f32) :
    ∀ y : S8x256.Idx, ∃ pc ∈ (runLater c i arg2 harg2 arg3 harg3 arg4 harg4 arg5 harg5 hc0 x0 x1 xo).1, y ∈ pc.1.set :=
  View.cover_of_wholeMem _ (by unfold runLater; dsimp only; sl_whole_mem)

/-! ## What the outputs hold after each point -/

/-- The column-minima block after the body at position `n`: filled afresh at the first tile of a batch group, else
    this point's pieces over what position `n - 1` left. -/
def colsAt (c : Dev nD) : (n : ℕ) → n < cfg0.N → Vec F S8x4096 .f32
  | 0, hn => colsFirst c (grid0.coords ⟨0, hn⟩) (ms0 ⟨0, hn⟩) (hs0 ⟨0, hn⟩) (ms1 ⟨0, hn⟩) (hs1 ⟨0, hn⟩) (ms2 ⟨0, hn⟩) (hs2 ⟨0, hn⟩) (ms3 ⟨0, hn⟩) (hs3 ⟨0, hn⟩) ((firstTile_iff ⟨0, hn⟩).mpr (Nat.zero_mod _)) (iblk m c 0 ⟨0, hn⟩) (iblk m c 1 ⟨0, hn⟩)
  | n + 1, hn =>
    if h0 : (n + 1) % 16 = 0 then
      colsFirst c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) ((firstTile_iff ⟨n + 1, hn⟩).mpr h0) (iblk m c 0 ⟨n + 1, hn⟩) (iblk m c 1 ⟨n + 1, hn⟩)
    else
      colsLater c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (fun h => h0 ((firstTile_iff ⟨n + 1, hn⟩).mp h)) (iblk m c 0 ⟨n + 1, hn⟩) (iblk m c 1 ⟨n + 1, hn⟩) (colsAt c n (Nat.lt_of_succ_lt hn))

theorem colsAt_first (c : Dev nD) (t : Fin cfg0.N) (h0 : t.val % 16 = 0) :
    colsAt m c t.val t.isLt = colsFirst c (grid0.coords t) (ms0 t) (hs0 t) (ms1 t) (hs1 t) (ms2 t) (hs2 t) (ms3 t) (hs3 t) ((firstTile_iff t).mpr h0) (iblk m c 0 t) (iblk m c 1 t) := by
  obtain ⟨n, hn⟩ := t
  cases n with
  | zero => exact rfl
  | succ n => exact (dif_pos h0).trans rfl

theorem colsAt_later (c : Dev nD) (t : Fin cfg0.N) (h0 : ¬t.val % 16 = 0) :
    colsAt m c t.val t.isLt = colsLater c (grid0.coords t) (ms0 t) (hs0 t) (ms1 t) (hs1 t) (ms2 t) (hs2 t) (ms3 t) (hs3 t) (fun h => h0 ((firstTile_iff t).mp h)) (iblk m c 0 t) (iblk m c 1 t) (colsAt m c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans rfl

/-- The row-minima tile after the body at point `t`. -/
def rowsAt (c : Dev nD) (t : Fin cfg0.N) : Vec F S8x256 .f32 :=
  if h0 : t.val % 16 = 0 then
    rowsFirst c (grid0.coords t) (ms0 t) (hs0 t) (ms1 t) (hs1 t) (ms2 t) (hs2 t) (ms3 t) (hs3 t) ((firstTile_iff t).mpr h0) (iblk m c 0 t) (iblk m c 1 t)
  else
    rowsLater c (grid0.coords t) (ms0 t) (hs0 t) (ms1 t) (hs1 t) (ms2 t) (hs2 t) (ms3 t) (hs3 t) (fun h => h0 ((firstTile_iff t).mp h)) (iblk m c 0 t) (iblk m c 1 t) (colsAt m c (t.val - 1) (Nat.lt_of_le_of_lt (Nat.sub_le _ _) t.isLt))

/-! ## The pipeline's proof data -/

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => rowsAt m c t
    | ⟨3, _⟩ => colsAt m c t.val t.isLt
  Φ _ := Pipeline.ΦA spec0 c
  q _ := fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = rowsAt m c t := by dsimp only [dats]
theorem after_3 (c : Dev nD) (t : Fin cfg0.N) : (dats m 0 c).after 3 t = colsAt m c t.val t.isLt := by dsimp only [dats]

theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
/-- At a later tile the column block's staging buffer holds what the body left at the point before: the point is not
    the first of its group, so the buffer was not written back in between. -/
theorem before_3_later (c : Dev nD) (t : Fin cfg0.N) (h0 : ¬t.val % 16 = 0) (d) :
    (dats m 0 c).before 3 t d = colsAt m c (t.val - 1) (Nat.lt_of_le_of_lt (Nat.sub_le _ _) t.isLt) := by
  have hN : t.val < 32 := lt_of_lt_of_eq t.isLt (show cfg0.N = 32 from N_0)
  rw [Dat.before_out_kept _ 3 rfl t (by omega) (Bool.eq_false_iff.mpr fun h => by have := (flush0_3 _).mp h; dsimp only at this; omega)
    (fun _ => rfl) (fun _ _ => rfl)]
  dsimp only [dats]

/-! ## The body obligation, at a generic point -/

def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d)))

def bodyPost (c : Dev nD) (t : Fin cfg0.N) : sProp 𝕄 :=
  iprop((dats m 0 c).Φ t.succ ∗ (dats m 0 c).owesAt () t.succ
    ∗ owns (c : Thread nD τ) (ms0 t) fullShare ((dats m 0 c).after 0 t)
    ∗ owns (c : Thread nD τ) (ms1 t) fullShare ((dats m 0 c).after 1 t)
    ∗ owns (c : Thread nD τ) (ms2 t) fullShare ((dats m 0 c).after 2 t)
    ∗ owns (c : Thread nD τ) (ms3 t) fullShare ((dats m 0 c).after 3 t))

set_option maxHeartbeats 1600000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1]
  rw [show (dats m 0 c).Φ t.succ = (dats m 0 c).Φ t.castSucc from rfl,
    show (dats m 0 c).owesAt () t.succ = (dats m 0 c).owesAt () t.castSucc from rfl,
    after_0, after_1, after_2, after_3]
  by_cases h0 : t.val % 16 = 0
  · rw [colsAt_first m c t h0]
    unfold rowsAt; rw [dif_pos h0]
    unfold rowsFirst colsFirst
    iintro ⟨HΦ, Ho, ⟨%d0, H0⟩, ⟨%d1, H1⟩, ⟨%d2, H2⟩, ⟨%d3, H3⟩⟩
    iapply ((runFirst c (grid0.coords t) _ _ _ _ _ _ _ _ ((firstTile_iff t).mpr h0) (iblk m c 0 t) (iblk m c 1 t)).2.2 Set.univ _)
    isplitl [H0]; · iexact H0
    isplitl [H1]; · iexact H1
    isplitl [H2]; · iexists _; iexact H2
    isplitl [H3]; · iexists _; iexact H3
    iintro ⟨H0, H1, ⟨%e2, H2⟩, ⟨%e3, H3⟩⟩
    isplitl [HΦ]; · iexact HΦ
    isplitl [Ho]; · iexact Ho
    isplitl [H0]; · iexact H0
    isplitl [H1]; · iexact H1
    isplitl [H2]
    · unfold owns; iexists _; isplitr
      swap; · iexact H2
      ipureintro; exact View.read_writes_eq_canon _ _ _ (cover_rowsFirst c _ _ _ _ _ _ _ _ _ _ _ _)
    unfold owns; iexists _; isplitr
    swap; · iexact H3
    ipureintro; exact View.read_writes_eq_canon _ _ _ (cover_colsFirst c _ _ _ _ _ _ _ _ _ _ _ _)
  · rw [colsAt_later m c t h0]
    unfold rowsAt; rw [dif_neg h0]
    simp only [before_3_later m c t h0]
    unfold rowsLater colsLater
    iintro ⟨HΦ, Ho, ⟨%d0, H0⟩, ⟨%d1, H1⟩, ⟨%d2, H2⟩, ⟨%d3, H3⟩⟩
    iapply ((runLater c (grid0.coords t) _ _ _ _ _ _ _ _ (fun h => h0 ((firstTile_iff t).mp h)) (iblk m c 0 t) (iblk m c 1 t) _).2.2 Set.univ _)
    isplitl [H0]; · iexact H0
    isplitl [H1]; · iexact H1
    isplitl [H2]; · iexists _; iexact H2
    isplitl [H3]; · iexact H3
    iintro ⟨H0, H1, ⟨%e2, H2⟩, H3⟩
    isplitl [HΦ]; · iexact HΦ
    isplitl [Ho]; · iexact Ho
    isplitl [H0]; · iexact H0
    isplitl [H1]; · iexact H1
    isplitl [H2]
    · unfold owns; iexists _; isplitr
      swap; · iexact H2
      ipureintro; exact View.read_writes_eq_canon _ _ _ (cover_rowsLater c _ _ _ _ _ _ _ _ _ _ _ _ _)
    unfold owns; iexists _; isplitr
    swap; · iexact H3
    ipureintro; rfl

theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The program runs to the end without a fault and leaves both argument arrays as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of m ρ (dats m) (A_eq m) (run_main m ρ)

end Cert.KernelIdeal.Tile
end
-- ==== Proof.Spec.lean ====
/-
  The specification both programs are compared against: for two clouds of 4096 points of ℝ³ in each of 16 batches, the
  squared distance between point n of the first cloud and point m of the second, expanded as
  |p|² + |t|² − Σ_d p_d·(t_d + t_d), and for every point of either cloud the least such squared distance to the other
  cloud (an infimum over a finite, non-empty set: a minimum).
-/
import Idealize.ShloMosaic.PureOps.Ideal
import Idealize.ShloMosaic.Lib.ValueIdx

noncomputable section

namespace Cert.Nearest

open Idealize.ShloMosaic Idealize.ShloMosaic.ValueIdx

/-- A batch of point clouds: 16 batches of 4096 points with 3 coordinates, over the extended reals. -/
abbrev Cloud : Type := (⟨3, ![16, 4096, 3]⟩ : Shape).Idx → EReal

/-- One value per batch and point. -/
abbrev PerPoint : Type := (⟨2, ![16, 4096]⟩ : Shape).Idx → EReal

/-- The squared norm of point `n` of batch `b`, summed in coordinate order. -/
def sqNorm (P : Cloud) (b : Fin 16) (n : Fin 4096) : EReal :=
  (P (ix3 b n (0 : Fin 3)) * P (ix3 b n (0 : Fin 3)) + P (ix3 b n (1 : Fin 3)) * P (ix3 b n (1 : Fin 3)))
    + P (ix3 b n (2 : Fin 3)) * P (ix3 b n (2 : Fin 3))

/-- Twice the inner product of point `n` of `P` and point `m` of `T`, with the second point doubled coordinate by coordinate. -/
def twiceInner (P T : Cloud) (b : Fin 16) (n m : Fin 4096) : EReal :=
  (P (ix3 b n (0 : Fin 3)) * (T (ix3 b m (0 : Fin 3)) + T (ix3 b m (0 : Fin 3)))
      + P (ix3 b n (1 : Fin 3)) * (T (ix3 b m (1 : Fin 3)) + T (ix3 b m (1 : Fin 3))))
    + P (ix3 b n (2 : Fin 3)) * (T (ix3 b m (2 : Fin 3)) + T (ix3 b m (2 : Fin 3)))

/-- The squared distance between point `n` of `P` and point `m` of `T`: |p|² + |t|² − 2⟨p, t⟩. -/
def sqDist (P T : Cloud) (b : Fin 16) (n m : Fin 4096) : EReal :=
  (sqNorm P b n + sqNorm T b m) - twiceInner P T b n m

/-- For each point of `P`, the least squared distance to a point of `T`. -/
def rowNearest (P T : Cloud) : PerPoint := fun i => ⨅ m : Fin 4096, sqDist P T (i 0) (i 1) m

/-- For each point of `T`, the least squared distance to a point of `P`. -/
def colNearest (P T : Cloud) : PerPoint := fun i => ⨅ n : Fin 4096, sqDist P T (i 0) n (i 1)

end Cert.Nearest

end
-- ==== Proof.HostTail.lean ====
/-
  What both programs do with the two arrays of nearest squared distances.

  Each array (one value per batch and point) is clamped below at 0 and its square root taken, entry by entry; each
  batch's 4096 values are summed from 0 and the sum divided by 4096 (a mean over the points of the batch); the two
  means are added and halved; the 16 batch values are summed from 0 and the sum divided by 16. The result is one
  scalar: the Chamfer distance averaged over the batches.

  `sqrtClamp` is the first step, `meanTail` everything after it, `hostTail` their composition. Nothing here is
  opened by the proofs that use it: the two programs are compared by showing that they hand the SAME two arrays to
  the same function.
-/
import Idealize.ShloMosaic.PureOps
import Idealize.ShloMosaic.PureOps.Ideal
import proofs.«176827_j80092550135919_2_alg».proof.Proof.Spec

noncomputable section

namespace Cert.Nearest

open Idealize.ShloMosaic

/-- The shapes of the tail: one value per batch and point, one per batch, one in all. -/
abbrev SPoints : Shape := ⟨2, ![16, 4096]⟩
abbrev SBatch : Shape := ⟨1, ![16]⟩
abbrev SOne : Shape := ⟨0, ![]⟩

theorem one_pos : 0 < SOne.numel := by decide
theorem splat_points : SOne.BroadcastsInDim SPoints (![] : Fin 0 → Fin SPoints.rank) := by decide
theorem splat_batch : SOne.BroadcastsInDim SBatch (![] : Fin 0 → Fin SBatch.rank) := by decide
theorem points_to_batch : SPoints.ReducesTo [1] SBatch := by decide
theorem batch_to_one : SBatch.ReducesTo [0] SOne := by decide

/-- Entry by entry: the larger of the value and 0, then its square root. -/
def sqrtClamp (x : PerPoint) : PerPoint :=
  Host.sqrt (F := Ideal) (φ := .f32)
    (maximumf (F := Ideal) (φ := .f32) x
      (broadcastInDim SPoints ![] splat_points (constant (F := Ideal) SOne .f32 0x00000000#32)))

/-- The mean over each batch's points of either array, the two means added and halved, and the mean over the batches. -/
def meanTail (a b : PerPoint) : SOne.Idx → EReal :=
  Host.divf (F := Ideal) (φ := .f32)
    (Host.reduceAdd (F := Ideal) (φ := .f32)
      (Host.divf (F := Ideal) (φ := .f32)
        (addf (F := Ideal) (φ := .f32)
          (Host.divf (F := Ideal) (φ := .f32)
            (Host.reduceAdd (F := Ideal) (φ := .f32) a (constant (F := Ideal) SOne .f32 0x00000000#32) points_to_batch one_pos)
            (broadcastInDim SBatch ![] splat_batch (constant (F := Ideal) SOne .f32 0x45800000#32)))
          (Host.divf (F := Ideal) (φ := .f32)
            (Host.reduceAdd (F := Ideal) (φ := .f32) b (constant (F := Ideal) SOne .f32 0x00000000#32) points_to_batch one_pos)
            (broadcastInDim SBatch ![] splat_batch (constant (F := Ideal) SOne .f32 0x45800000#32))))
        (broadcastInDim SBatch ![] splat_batch (constant (F := Ideal) SOne .f32 0x40000000#32)))
      (constant (F := Ideal) SOne .f32 0x00000000#32) batch_to_one one_pos)
    (constant (F := Ideal) SOne .f32 0x41800000#32)

/-- From the two arrays of nearest squared distances to the scalar result. -/
def hostTail (r c : PerPoint) : SOne.Idx → EReal := meanTail (sqrtClamp r) (sqrtClamp c)

end Cert.Nearest

end
-- ==== Proof.KernelArrays.lean ====
/-
  The two arrays the kernel's region leaves, and the kernel's result.

  The grid has 32 points; point t works on batch group t / 16 (eight batches) and on tile t % 16 of the first cloud
  (256 points). The row-minima tile of point t is written back, at every point, to rows 8·(t/16) … 8·(t/16)+7 and
  columns 256·(t%16) … 256·(t%16)+255 of the first result array; the 32 tiles tile that array. The column-minima block
  of a batch group is written back once, after the group's sixteenth tile (t % 16 = 15), to rows 8·(t/16) … 8·(t/16)+7
  of the second result array; the two blocks tile it.

  Given that each written-back tile holds, entry by entry, the nearest squared distance of the specification for the
  point it stands for (`RowsSpec`, `ColsSpec`: the statements about the kernel's body, proved elsewhere), each result
  array IS the specification's array of nearest squared distances. The host operations after the region are the shared
  tail, applied to these two arrays.
-/
import proofs.«176827_j80092550135919_2_alg».proof.Proof.BodyI
import proofs.«176827_j80092550135919_2_alg».proof.Proof.Spec
import proofs.«176827_j80092550135919_2_alg».proof.Proof.HostTail
import Idealize.ShloMosaic.Lib.Pipeline.Value
import Idealize.ShloMosaic.Lib.StableHlo.Run

noncomputable section

namespace Cert.KernelIdeal.Arrays

open Cert.KernelIdeal Cert.KernelIdeal.Gen Cert.KernelIdeal.Tile
open Idealize.ShloMosaic Idealize.ShloMosaic.TcCoe Idealize.SL.Sem Idealize.ShloMosaic.ValueIdx
open Idealize.ShloMosaic.Pipeline (Dat)
open Cert.Nearest (Cloud PerPoint rowNearest colNearest hostTail)

variable (m : (ℓ : Loc nD τ sig) → Buf (Elt Ideal) ℓ) (ρ : Dev nD → PrngReg)

/-- The two clouds as core `c` is launched with them. -/
abbrev cloudP (c : Dev nD) : Cloud := m ((c.tc : Thread nD τ).loc main_arg0)
abbrev cloudT (c : Dev nD) : Cloud := m ((c.tc : Thread nD τ).loc main_arg1)

/-! ## What the body is to leave in each tile -/

/-- The row-minima tile after the body at point `t` holds, at (r, n), the nearest squared distance from point
    256·(t%16) + n of batch 8·(t/16) + r of the first cloud to the second cloud. -/
def RowsSpec : Prop :=
  ∀ (c : Dev nD) (t : Fin cfg0.N) (y : S8x256.Idx) (i : S16x4096.Idx),
    (i 0).val = 8 * (t.val / 16) + (y 0).val → (i 1).val = 256 * (t.val % 16) + (y 1).val →
    rowsAt m c t y = rowNearest (cloudP m c) (cloudT m c) i

/-- The column-minima block after the body at the last tile of a batch group holds, at (r, j), the nearest squared
    distance from point j of batch 8·(t/16) + r of the second cloud to the first cloud. -/
def ColsSpec : Prop :=
  ∀ (c : Dev nD) (t : Fin cfg0.N), t.val % 16 = 15 → ∀ (y : S8x4096.Idx) (i : S16x4096.Idx),
    (i 0).val = 8 * (t.val / 16) + (y 0).val → (i 1).val = (y 1).val →
    colsAt m c t.val t.isLt y = colNearest (cloudP m c) (cloudT m c) i

theorem batch_lt (t : Fin cfg0.N) (r : Fin 8) : 8 * (t.val / 16) + r.val < 16 := by
  have hN : t.val < 32 := lt_of_lt_of_eq t.isLt (show cfg0.N = 32 from N_0)
  omega

theorem point_lt (t : Fin cfg0.N) (n : Fin 256) : 256 * (t.val % 16) + n.val < 4096 := by omega

/-- The same two statements over explicit coordinates. -/
theorem rowsSpec_of_coords
    (h : ∀ (c : Dev nD) (t : Fin cfg0.N) (r : Fin 8) (n : Fin 256), rowsAt m c t (ix2 r n)
      = rowNearest (cloudP m c) (cloudT m c) (ix2 ⟨8 * (t.val / 16) + r.val, batch_lt t r⟩ ⟨256 * (t.val % 16) + n.val, point_lt t n⟩)) :
    RowsSpec m := by
  intro c t y i h0 h1
  obtain ⟨r, n, rfl⟩ : ∃ (r : Fin 8) (n : Fin 256), y = ix2 r n := ⟨y 0, y 1, eq_ix2 y⟩
  have e : i = ix2 ⟨8 * (t.val / 16) + r.val, batch_lt t r⟩ ⟨256 * (t.val % 16) + n.val, point_lt t n⟩ :=
    funext fun a => Fin.ext (by match a with | ⟨0, _⟩ => exact h0 | ⟨1, _⟩ => exact h1)
  rw [e]
  exact h c t r n

theorem colsSpec_of_coords
    (h : ∀ (c : Dev nD) (t : Fin cfg0.N), t.val % 16 = 15 → ∀ (r : Fin 8) (j : Fin 4096), colsAt m c t.val t.isLt (ix2 r j)
      = colNearest (cloudP m c) (cloudT m c) (ix2 ⟨8 * (t.val / 16) + r.val, batch_lt t r⟩ j)) :
    ColsSpec m := by
  intro c t ht y i h0 h1
  obtain ⟨r, j, rfl⟩ : ∃ (r : Fin 8) (j : Fin 4096), y = ix2 r j := ⟨y 0, y 1, eq_ix2 y⟩
  have e : i = ix2 ⟨8 * (t.val / 16) + r.val, batch_lt t r⟩ j :=
    funext fun a => Fin.ext (by match a with | ⟨0, _⟩ => exact h0 | ⟨1, _⟩ => exact h1)
  rw [e]
  exact h c t ht r j

/-! ## Where each point's tiles sit -/

/-- Point `t`'s row tile is block (t / 16, t % 16) of the first result array. -/
theorem idx_rows : ∀ t : Fin cfg0.N, win0_2.index t (0 : Fin 2) = t.val / 16 ∧ win0_2.index t (1 : Fin 2) = t.val % 16 :=
  (by decide +kernel : ∀ t : Fin grid0.N, win0_2.index t (0 : Fin 2) = t.val / 16 ∧ win0_2.index t (1 : Fin 2) = t.val % 16)

/-- Point `t`'s column block is block (t / 16, 0) of the second result array. -/
theorem idx_cols : ∀ t : Fin cfg0.N, win0_3.index t (0 : Fin 2) = t.val / 16 ∧ win0_3.index t (1 : Fin 2) = 0 :=
  (by decide +kernel : ∀ t : Fin grid0.N, win0_3.index t (0 : Fin 2) = t.val / 16 ∧ win0_3.index t (1 : Fin 2) = 0)

/-- An index of the first result array is in point `t`'s tile iff each coordinate is in the tile's range. -/
theorem mem_blk_rows (t : Fin cfg0.N) (i : S16x4096.Idx) :
    i ∈ ((cfg0.win 2).blk t).view.set ↔ ∀ a : Fin 2, win0_2.index t a * S8x256.size a ≤ (i a).val ∧ (i a).val < win0_2.index t a * S8x256.size a + S8x256.size a := by
  show i ∈ ((View.whole main_v2_0).slice (win0_2.rect t)).set ↔ _
  rw [View.set_slice_whole, Rect.mem_set_unit]
  exact Iff.rfl

/-- An index of the second result array is in point `t`'s block iff each coordinate is in the block's range. -/
theorem mem_blk_cols (t : Fin cfg0.N) (i : S16x4096.Idx) :
    i ∈ ((cfg0.win 3).blk t).view.set ↔ ∀ a : Fin 2, win0_3.index t a * S8x4096.size a ≤ (i a).val ∧ (i a).val < win0_3.index t a * S8x4096.size a + S8x4096.size a := by
  show i ∈ ((View.whole main_v2_1).slice (win0_3.rect t)).set ↔ _
  rw [View.set_slice_whole, Rect.mem_set_unit]
  exact Iff.rfl

/-! ## The first result array: the nearest squared distances from the first cloud -/

/-- What point `t` writes back is tile `t` of the specification's array. -/
theorem flushed_rows (hrows : RowsSpec m) (c : Dev nD) (t : Fin cfg0.N) :
    (dats m 0 c).flushed 2 t = ((cfg0.win 2).blk t).view.read (Elt Ideal) (rowNearest (cloudP m c) (cloudT m c)) := by
  show (cfg0.win 2).cut (grid0.coords t) ((dats m 0 c).after 2 t) = _
  rw [after_2]
  obtain ⟨e0, e1⟩ := idx_rows t
  funext y
  show rowsAt m c t y = rowNearest (cloudP m c) (cloudT m c) (((cfg0.win 2).blk t).view.emb y)
  refine hrows c t y _ ?_ ?_
  · show win0_2.index t (0 : Fin 2) * 8 + 1 * (y 0).val = 8 * (t.val / 16) + (y 0).val
    rw [e0]; omega
  · show win0_2.index t (1 : Fin 2) * 256 + 1 * (y 1).val = 256 * (t.val % 16) + (y 1).val
    rw [e1]; omega

/-- Row b, column n of the first result array is in the tile of point 16·(b/8) + n/256. -/
theorem cover_rows (i : S16x4096.Idx) :
    ∃ t : Fin cfg0.N, (cfg0.win 2).flush t = true ∧ i ∈ ((cfg0.win 2).blk t).view.set := by
  have hi0 : (i 0).val < 16 := (i 0).isLt
  have hi1 : (i 1).val < 4096 := (i 1).isLt
  have hN : cfg0.N = 32 := N_0
  obtain ⟨t, ht⟩ : ∃ t : Fin cfg0.N, t.val = 16 * ((i 0).val / 8) + (i 1).val / 256 := ⟨⟨_, by omega⟩, rfl⟩
  obtain ⟨e0, e1⟩ := idx_rows t
  refine ⟨t, flush0_2 t, ?_⟩
  rw [mem_blk_rows]
  intro a
  match a with
  | ⟨0, _⟩ =>
    show win0_2.index t (0 : Fin 2) * 8 ≤ (i 0).val ∧ (i 0).val < win0_2.index t (0 : Fin 2) * 8 + 8
    rw [e0]; omega
  | ⟨1, _⟩ =>
    show win0_2.index t (1 : Fin 2) * 256 ≤ (i 1).val ∧ (i 1).val < win0_2.index t (1 : Fin 2) * 256 + 256
    rw [e1]; omega

/-- After the region the first result array is the specification's array of nearest squared distances from the first
    cloud's points. -/
theorem final_rows (hrows : RowsSpec m) (c : Dev nD) :
    (dats m 0 c).arrAt 2 cfg0.N = rowNearest (cloudP m c) (cloudT m c) :=
  (dats m 0 c).arrAt_eq_of_cover 2 (rowNearest (cloudP m c) (cloudT m c)) (fun t _ => flushed_rows m hrows c t) cover_rows

/-! ## The second result array: the nearest squared distances from the second cloud -/

/-- What the last tile of a batch group writes back is the group's block of the specification's array. -/
theorem flushed_cols (hcols : ColsSpec m) (c : Dev nD) (t : Fin cfg0.N) (hf : (cfg0.win 3).flush t = true) :
    (dats m 0 c).flushed 3 t = ((cfg0.win 3).blk t).view.read (Elt Ideal) (colNearest (cloudP m c) (cloudT m c)) := by
  have h15 : t.val % 16 = 15 := (flush0_3 t).mp hf
  show (cfg0.win 3).cut (grid0.coords t) ((dats m 0 c).after 3 t) = _
  rw [after_3]
  obtain ⟨e0, e1⟩ := idx_cols t
  funext y
  show colsAt m c t.val t.isLt y = colNearest (cloudP m c) (cloudT m c) (((cfg0.win 3).blk t).view.emb y)
  refine hcols c t h15 y _ ?_ ?_
  · show win0_3.index t (0 : Fin 2) * 8 + 1 * (y 0).val = 8 * (t.val / 16) + (y 0).val
    rw [e0]; omega
  · show win0_3.index t (1 : Fin 2) * 4096 + 1 * (y 1).val = (y 1).val
    rw [e1]; omega

/-- Row b of the second result array is in the block written back at point 16·(b/8) + 15. -/
theorem cover_cols (i : S16x4096.Idx) :
    ∃ t : Fin cfg0.N, (cfg0.win 3).flush t = true ∧ i ∈ ((cfg0.win 3).blk t).view.set := by
  have hi0 : (i 0).val < 16 := (i 0).isLt
  have hi1 : (i 1).val < 4096 := (i 1).isLt
  have hN : cfg0.N = 32 := N_0
  obtain ⟨t, ht⟩ : ∃ t : Fin cfg0.N, t.val = 16 * ((i 0).val / 8) + 15 := ⟨⟨_, by omega⟩, rfl⟩
  obtain ⟨e0, e1⟩ := idx_cols t
  refine ⟨t, (flush0_3 t).mpr (by omega), ?_⟩
  rw [mem_blk_cols]
  intro a
  match a with
  | ⟨0, _⟩ =>
    show win0_3.index t (0 : Fin 2) * 8 ≤ (i 0).val ∧ (i 0).val < win0_3.index t (0 : Fin 2) * 8 + 8
    rw [e0]; omega
  | ⟨1, _⟩ =>
    show win0_3.index t (1 : Fin 2) * 4096 ≤ (i 1).val ∧ (i 1).val < win0_3.index t (1 : Fin 2) * 4096 + 4096
    rw [e1]; omega

/-- After the region the second result array is the specification's array of nearest squared distances from the second
    cloud's points. -/
theorem final_cols (hcols : ColsSpec m) (c : Dev nD) :
    (dats m 0 c).arrAt 3 cfg0.N = colNearest (cloudP m c) (cloudT m c) :=
  (dats m 0 c).arrAt_eq_of_cover 3 (colNearest (cloudP m c) (cloudT m c)) (flushed_cols m hcols c) cover_cols

/-! ## The host operations after the region, and the run -/

/-- The 26 host operations after the region, from any contents of the buffers: the result is the shared tail of the
    two result arrays' contents. -/
theorem tail_read (W : Valuation τ sig (Elt Ideal)) :
    StableHlo.after (hostOps1 (F := Ideal)) W (Proc.devRef .tc main_v19)
      = hostTail (W (Proc.devRef .tc main_v2_0)) (W (Proc.devRef .tc main_v2_1)) := by
  after_results
  rfl

/-- The program's result: the shared tail of the two arrays of nearest squared distances. -/
theorem result_eq (hrows : RowsSpec m) (hcols : ColsSpec m) (c : Dev nD) :
    Pipeline.afterTail₀ cfgs (dats m) 0 (V0 m) [hostOps1] c main_v19
      = hostTail (rowNearest (cloudP m c) (cloudT m c)) (colNearest (cloudP m c) (cloudT m c)) := by
  unfold Pipeline.afterTail₀
  show StableHlo.after hostOps1 _ (Proc.devRef .tc main_v19) = _
  refine (tail_read _).trans ?_
  exact congrArg₂ hostTail
    ((Pipeline.withArrays_arr spec0 launch0.win.arr_inj c _ _ 2).trans (final_rows m hrows c))
    ((Pipeline.withArrays_arr spec0 launch0.win.arr_inj c _ _ 3).trans (final_cols m hcols c))

/-- Every weakly fair execution of the kernel's program terminates without a fault; its result is the shared tail of the
    specification's two arrays of nearest squared distances of the launched clouds, and the clouds are unchanged. -/
theorem kernel_run (hrows : RowsSpec m) (hcols : ColsSpec m) :
    θ_run defs (onTc (τ := τ) (main (F := Ideal))) ⟨m, fun _ => 0, ρ⟩ (fun r => ∀ c : Dev nD,
      r.2.mem ((c.tc : Thread nD τ).loc main_v19)
          = hostTail (rowNearest (cloudP m c) (cloudT m c)) (colNearest (cloudP m c) (cloudT m c))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨((h c).2 main_v19 (Pipeline.mem_restRefs_of main_v19 (by decide) (by decide))).trans (result_eq m hrows hcols c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c)⟩)
    (run_main m ρ)

end Cert.KernelIdeal.Arrays

end
-- ==== Proof.LibFinite.lean ====
/-
  Extended reals that are real numbers, and a "finite inputs" check read back.

  * `IsReal x`: the extended real `x` is (the coercion of) a real number. The coercion commutes with finite sums and
    with maxima (`coe_sum`, `coe_max`).
  * An extended real whose absolute value — the larger of `x` and `−x` — is below `+∞` (the word `0x7F800000`) is a
    real number (`isReal_of_abs_lt`).
  * A precondition's check of one array — compare every entry's absolute value with the splat of `+∞`, reduce the
    verdicts by "and" from "true" into one — that came out "true" says every entry of the array is a real number
    (`isReal_of_check`), whatever the array's shape.
-/
import Idealize.ShloMosaic.Lib.ReduceAll
import Idealize.ShloMosaic.Lib.Pipeline.Value
import Idealize.ShloMosaic.Lib.ValueIdx
import Idealize.ShloMosaic.PureOps.Ideal

noncomputable section

namespace Cert.LibFinite

open Idealize.ShloMosaic Idealize.ShloMosaic.ValueIdx

/-- An extended real that is a real number. -/
def IsReal (x : EReal) : Prop := ∃ r : ℝ, x = (r : EReal)

/-- The coercion of a finite sum of reals is the sum of the coercions. -/
theorem coe_sum {ι : Type} (t : Finset ι) (f : ι → ℝ) : ((∑ i ∈ t, f i : ℝ) : EReal) = ∑ i ∈ t, (f i : EReal) := by
  classical
  refine Finset.induction_on t ?_ ?_
  · simp
  · intro a t ha ih
    rw [Finset.sum_insert ha, Finset.sum_insert ha, EReal.coe_add, ih]

/-- The coercion of a maximum of reals is the maximum of the coercions. -/
theorem coe_max (a b : ℝ) : ((max a b : ℝ) : EReal) = max (a : EReal) (b : EReal) :=
  EReal.coe_strictMono.monotone.map_max

/-- The scalar shape has one index. -/
instance : Subsingleton (⟨0, ![]⟩ : Shape).Idx := ⟨fun _ _ => funext fun d => d.elim0⟩

/-- An extended real whose absolute value is below `+∞` is a real number. -/
theorem isReal_of_abs_lt (x : EReal) (h : Ideal.cmp .olt (max x (-x)) (Ideal.ofBits .f32 0x7F800000#32) = 1#1) : IsReal x := by
  have hinf : Ideal.ofBits .f32 0x7F800000#32 = ⊤ := by simp [Ideal.ofBits, Ideal.ieee]
  rw [hinf] at h
  by_cases ht : x = ⊤
  · subst ht; simp [Ideal.cmp] at h
  by_cases hb : x = ⊥
  · subst hb; simp [Ideal.cmp] at h
  lift x to ℝ using ⟨ht, hb⟩
  exact ⟨x, rfl⟩

/-- One array's check read back: if "every entry's absolute value is below `+∞`" came out true, every entry is real. -/
theorem isReal_of_check {s : Shape} {axes : List (Fin s.rank)} (x : FVec Ideal s .f32)
    (dims : Fin (⟨0, ![]⟩ : Shape).rank → Fin s.rank) (hb : (⟨0, ![]⟩ : Shape).BroadcastsInDim s dims)
    (hr : s.ReducesTo axes ⟨0, ![]⟩) (hu : 0 < (⟨0, ![]⟩ : Shape).numel)
    (e : Host.reduce IntOp.andi (cmpf .olt (Host.absf x) (broadcastInDim s dims hb (constant ⟨0, ![]⟩ .f32 0x7F800000#32)))
      (constantI ⟨0, ![]⟩ 1 1#1) hr hu ix0 = 1#1) (i : s.Idx) : IsReal (x i) := by
  have h := Host.reduce_andi_all _ _ hr hu ix0 e i
  have hb' : broadcastInDim s dims hb (constant (F := Ideal) ⟨0, ![]⟩ .f32 0x7F800000#32) i = Ideal.ofBits .f32 0x7F800000#32 :=
    broadcastInDim_apply dims hb _ i ix0 (fun a => a.elim0)
  apply isReal_of_abs_lt
  rw [← hb']
  exact h

end Cert.LibFinite

end
-- ==== Proof.MinSqrt.lean ====
/-
  Three facts about the extended reals that join the two programs.

  * Clamping below at 0 and then taking the square root is monotone and sends +∞ to +∞, so it commutes with the
    minimum of a finite family started from +∞: the least of the roots is the root of the least.
  * Over real numbers, twice an inner product of two points of ℝ³ is the inner product with the second point doubled
    coordinate by coordinate. (Over the extended reals this distributive step fails at infinities: this is where the
    inputs' finiteness is used.)
  * The two float words that occur: 0x7F800000 is +∞ and 0x40000000 is 2.
-/
import Idealize.ShloMosaic.PureOps.Ideal
import Idealize.ShloMosaic.PureOps.Ideal.Laws
import proofs.«176827_j80092550135919_2_alg».proof.Proof.LibFinite

noncomputable section

namespace Cert.Nearest

open Idealize.ShloMosaic Cert.LibFinite

/-- The square root of the extended reals (−∞ and the negative reals go to −∞, +∞ to +∞) is monotone. -/
theorem sqrt_mono : Monotone Ideal.sqrt := by
  intro x y h
  induction x using EReal.rec with
  | bot => exact bot_le
  | top => rw [top_le_iff.mp h]
  | coe a =>
    induction y using EReal.rec with
    | bot => exact absurd h (by simp)
    | top => exact le_top
    | coe b =>
      have hab : a ≤ b := EReal.coe_le_coe_iff.mp h
      rw [Ideal.sqrt_coe, Ideal.sqrt_coe]
      by_cases ha : a < 0
      · rw [if_pos ha]; exact bot_le
      · rw [if_neg ha, if_neg (by linarith)]
        exact EReal.coe_le_coe_iff.mpr (Real.sqrt_le_sqrt hab)

/-- Clamp below at 0, then take the square root. -/
def clampSqrt (x : EReal) : EReal := Ideal.sqrt (max x 0)

theorem clampSqrt_mono : Monotone clampSqrt := fun _ _ h => sqrt_mono (max_le_max h le_rfl)

theorem clampSqrt_top : clampSqrt ⊤ = ⊤ := by
  unfold clampSqrt
  rw [max_eq_left le_top, Ideal.sqrt_top]

/-- The least of the clamped roots of a finite family, counted from +∞, is the clamped root of the family's least
    member. -/
theorem fold_min_clampSqrt {ι : Type} [Fintype ι] (f : ι → EReal) :
    (Finset.univ : Finset ι).fold min ⊤ (fun k => clampSqrt (f k)) = clampSqrt (⨅ k, f k) := by
  have h1 : (Finset.univ : Finset ι).fold min ⊤ (fun k => clampSqrt (f k)) = Finset.univ.inf (clampSqrt ∘ f) := rfl
  rw [h1, ← Finset.comp_inf_eq_inf_comp clampSqrt (fun x y => clampSqrt_mono.map_inf x y) clampSqrt_top,
    Finset.inf_univ_eq_iInf]

/-- The float word 0x7F800000 is +∞. -/
theorem ofBits_inf : Ideal.ofBits .f32 0x7F800000#32 = ⊤ := by simp [Ideal.ofBits, Ideal.ieee]

/-- The float word 0x40000000 is 2. -/
theorem ofBits_two : Ideal.ofBits .f32 0x40000000#32 = ((2 : ℝ) : EReal) := by
  simp [Ideal.ofBits, Ideal.ieee, -EReal.coe_mul]
  norm_num

/-- Over real numbers: twice the inner product is the inner product with the second point doubled. -/
theorem two_mul_inner {a0 a1 a2 b0 b1 b2 : EReal} (ha0 : IsReal a0) (ha1 : IsReal a1) (ha2 : IsReal a2)
    (hb0 : IsReal b0) (hb1 : IsReal b1) (hb2 : IsReal b2) :
    ((2 : ℝ) : EReal) * ((a0 * b0 + a1 * b1) + a2 * b2) = (a0 * (b0 + b0) + a1 * (b1 + b1)) + a2 * (b2 + b2) := by
  obtain ⟨p0, rfl⟩ := ha0
  obtain ⟨p1, rfl⟩ := ha1
  obtain ⟨p2, rfl⟩ := ha2
  obtain ⟨t0, rfl⟩ := hb0
  obtain ⟨t1, rfl⟩ := hb1
  obtain ⟨t2, rfl⟩ := hb2
  simp only [← EReal.coe_mul, ← EReal.coe_add]
  exact congrArg _ (by ring)

end Cert.Nearest

end
-- ==== Proof.RefRead.lean ====
/-
  The reference program read back as the shared tail of the two arrays of nearest squared distances.

  The reference forms, for every batch b and pair of points (n, m), the value
      (0 + Σ_d p_d·p_d) + (0 + Σ_d t_d·t_d) − 2·(Σ_d p_d·t_d),
  clamps it below at 0, takes the square root, and then takes the minimum over m (for each n) and over n (for each m),
  each counted from +∞. For real inputs the value above is the squared distance of the specification (the sums of three
  terms are the ordered sums; only the doubled inner product needs the inputs real). Clamping and the square root are
  monotone and fix +∞, so the minimum of the roots is the root of the minimum: the two arrays the reference hands to the
  rest of the program are the clamped roots of the specification's two arrays of nearest squared distances, and the rest
  of the program is the shared tail.
-/
import proofs.«176827_j80092550135919_2_alg».proof.Proof.Gen.ReferenceIdeal.Run
import proofs.«176827_j80092550135919_2_alg».proof.Proof.Gen.ReferenceIdeal.Read
import proofs.«176827_j80092550135919_2_alg».proof.Proof.Spec
import proofs.«176827_j80092550135919_2_alg».proof.Proof.HostTail
import proofs.«176827_j80092550135919_2_alg».proof.Proof.MinSqrt

noncomputable section

namespace Cert.Nearest

open Idealize.ShloMosaic Idealize.ShloMosaic.ValueIdx Cert.LibFinite
open Cert.ReferenceIdeal Cert.ReferenceIdeal.Gen Cert.ReferenceIdeal.Read

/-! ## Which entries of the clouds an entry of the distance array reads -/

theorem idx_sqP (b : Fin 16) (n m : Fin 4096) (k : Fin 3) :
    idx_main_v1 (idx_main_v5 (idx_main_v7 (ix3 b n m))) k = ix3 b n k :=
  funext fun a => Fin.ext (by match a with | ⟨0, _⟩ => rfl | ⟨1, _⟩ => rfl | ⟨2, _⟩ => rfl)

theorem idx_sqT (b : Fin 16) (n m : Fin 4096) (k : Fin 3) :
    idx_main_v3 (idx_main_v6 (idx_main_v8 (ix3 b n m))) k = ix3 b m k :=
  funext fun a => Fin.ext (by match a with | ⟨0, _⟩ => rfl | ⟨1, _⟩ => rfl | ⟨2, _⟩ => rfl)

theorem idx_innerP (b : Fin 16) (n m : Fin 4096) (k : Fin 3) : lidx_main_v4 (ix3 b n m) k = ix3 b n k :=
  funext fun a => Fin.ext (by match a with | ⟨0, _⟩ => rfl | ⟨1, _⟩ => rfl | ⟨2, _⟩ => rfl)

theorem idx_innerT (b : Fin 16) (n m : Fin 4096) (k : Fin 3) : ridx_main_v4 (ix3 b n m) k = ix3 b m k :=
  funext fun a => Fin.ext (by match a with | ⟨0, _⟩ => rfl | ⟨1, _⟩ => rfl | ⟨2, _⟩ => rfl)

/-! ## The squared distance -/

/-- For real inputs the reference's |p|² + |t|² − 2⟨p, t⟩ at (b, n, m) is the specification's squared distance. -/
theorem sqDist_read (P T : Cloud) (hP : ∀ i, IsReal (P i)) (hT : ∀ i, IsReal (T i)) (b : Fin 16) (n m : Fin 4096) :
    val_main_v12 (F := Ideal) P T (ix3 b n m) = sqDist P T b n m := by
  rw [val_main_v12_apply, val_main_v9_apply, val_main_v11_apply, val_main_v7_apply, val_main_v5_apply,
    val_main_v1_apply, val_main_v8_apply, val_main_v6_apply, val_main_v3_apply, val_main_v10_apply, val_main_v4_apply]
  simp only [val_main_v0_apply, val_main_v2_apply, val_main_cst_apply, val_main_cst_0_apply, val_main_cst_1_apply,
    idx_sqP, idx_sqT, idx_innerP, idx_innerT, Fin.sum_univ_three,
    Ideal.addf_def, Ideal.subf_def, Ideal.mulf_def, Ideal.ofBits_def, Ideal.ofBits_zero_f32, zero_add, ofBits_two]
  rw [two_mul_inner (hP _) (hP _) (hP _) (hT _) (hT _) (hT _)]
  rfl

/-- The reference's distance at (b, n, m): the clamped root of the squared distance. -/
theorem dist_read (P T : Cloud) (hP : ∀ i, IsReal (P i)) (hT : ∀ i, IsReal (T i)) (b : Fin 16) (n m : Fin 4096) :
    val_main_v15 (F := Ideal) P T (ix3 b n m) = clampSqrt (sqDist P T b n m) := by
  rw [val_main_v15_apply, val_main_v14_apply, val_main_v13_apply, val_main_cst_2_apply, sqDist_read P T hP hT b n m]
  simp only [Ideal.hostUnary_sqrt_def, Ideal.maximumf_def, Ideal.ofBits_def, Ideal.ofBits_zero_f32]
  rfl

/-! ## The two minima -/

theorem reduces_row : S16x4096x4096.Reduces [2] S16x4096 := by decide
theorem reduces_col : S16x4096x4096.Reduces [1] S16x4096 := by decide

/-- Over (b, n), coordinate m of the last axis is the entry (b, n, m). -/
theorem lift_row (b : Fin 16) (n m : Fin 4096) : reduces_row.lift (ix2 b n) m = ix3 b n m :=
  funext fun a => Fin.ext (by match a with | ⟨0, _⟩ => rfl | ⟨1, _⟩ => rfl | ⟨2, _⟩ => rfl)

/-- Over (b, m), coordinate n of the middle axis is the entry (b, n, m). -/
theorem lift_col (b : Fin 16) (n m : Fin 4096) : reduces_col.lift (ix2 b m) n = ix3 b n m :=
  funext fun a => Fin.ext (by match a with | ⟨0, _⟩ => rfl | ⟨1, _⟩ => rfl | ⟨2, _⟩ => rfl)

/-- The minimum over the second cloud of the distances from point n: the clamped root of the nearest squared distance. -/
theorem rowMin_read (P T : Cloud) (hP : ∀ i, IsReal (P i)) (hT : ∀ i, IsReal (T i)) (b : Fin 16) (n : Fin 4096) :
    val_main_v16 (F := Ideal) P T (ix2 b n) = clampSqrt (⨅ m : Fin 4096, sqDist P T b n m) := by
  unfold val_main_v16
  refine (Host.reduce_eq_fold_single (FloatOps.minimumf (F := Ideal) (φ := .f32)) (val_main_v15 (F := Ideal) P T)
    (val_main_cst_3 (F := Ideal)) reducesTo_S16x4096x4096_S16x4096_d2 reduces_row h_S_ (ix2 b n)).trans ?_
  refine Eq.trans ?_ (fold_min_clampSqrt (fun m : Fin 4096 => sqDist P T b n m))
  have hinit : val_main_cst_3 (F := Ideal) (Shape.Idx.first h_S_) = ⊤ := ofBits_inf
  rw [hinit]
  exact Finset.fold_congr (fun m _ =>
    (congrArg (val_main_v15 (F := Ideal) P T) (lift_row b n m)).trans (dist_read P T hP hT b n m))

/-- The minimum over the first cloud of the distances to point m: the clamped root of the nearest squared distance. -/
theorem colMin_read (P T : Cloud) (hP : ∀ i, IsReal (P i)) (hT : ∀ i, IsReal (T i)) (b : Fin 16) (m : Fin 4096) :
    val_main_v20 (F := Ideal) P T (ix2 b m) = clampSqrt (⨅ n : Fin 4096, sqDist P T b n m) := by
  unfold val_main_v20
  refine (Host.reduce_eq_fold_single (FloatOps.minimumf (F := Ideal) (φ := .f32)) (val_main_v15 (F := Ideal) P T)
    (val_main_cst_6 (F := Ideal)) reducesTo_S16x4096x4096_S16x4096_d1 reduces_col h_S_ (ix2 b m)).trans ?_
  refine Eq.trans ?_ (fold_min_clampSqrt (fun n : Fin 4096 => sqDist P T b n m))
  have hinit : val_main_cst_6 (F := Ideal) (Shape.Idx.first h_S_) = ⊤ := ofBits_inf
  rw [hinit]
  exact Finset.fold_congr (fun n _ =>
    (congrArg (val_main_v15 (F := Ideal) P T) (lift_col b n m)).trans (dist_read P T hP hT b n m))

/-! ## The two arrays, and the result -/

/-- The first step of the shared tail at an index. -/
theorem sqrtClamp_apply (x : PerPoint) (i : SPoints.Idx) : sqrtClamp x i = clampSqrt (x i) := by
  unfold sqrtClamp clampSqrt
  show Ideal.sqrt (max (x i) (broadcastInDim SPoints ![] splat_points (constant (F := Ideal) SOne .f32 0x00000000#32) i)) = _
  rw [broadcastInDim_apply ![] splat_points _ i ix0 (fun a => a.elim0)]
  show Ideal.sqrt (max (x i) (Ideal.ofBits .f32 0x00000000#32)) = _
  rw [Ideal.ofBits_zero_f32]

/-- The reference's array of row minima is the first step of the tail applied to the nearest squared distances. -/
theorem rowArr_read (P T : Cloud) (hP : ∀ i, IsReal (P i)) (hT : ∀ i, IsReal (T i)) :
    val_main_v16 (F := Ideal) P T = sqrtClamp (rowNearest P T) := by
  funext i
  obtain ⟨b, n, rfl⟩ : ∃ (b : Fin 16) (n : Fin 4096), i = ix2 b n := ⟨i 0, i 1, eq_ix2 i⟩
  rw [rowMin_read P T hP hT b n, sqrtClamp_apply]
  rfl

/-- The reference's array of column minima, likewise. -/
theorem colArr_read (P T : Cloud) (hP : ∀ i, IsReal (P i)) (hT : ∀ i, IsReal (T i)) :
    val_main_v20 (F := Ideal) P T = sqrtClamp (colNearest P T) := by
  funext i
  obtain ⟨b, m, rfl⟩ : ∃ (b : Fin 16) (m : Fin 4096), i = ix2 b m := ⟨i 0, i 1, eq_ix2 i⟩
  rw [colMin_read P T hP hT b m, sqrtClamp_apply]
  rfl

/-- For real inputs the reference's result is the shared tail of the two arrays of nearest squared distances. -/
theorem reference_eq_hostTail (P T : Cloud) (hP : ∀ i, IsReal (P i)) (hT : ∀ i, IsReal (T i)) :
    val_main_v28 (F := Ideal) P T = hostTail (rowNearest P T) (colNearest P T) := by
  have h : val_main_v28 (F := Ideal) P T
      = meanTail (val_main_v16 (F := Ideal) P T) (val_main_v20 (F := Ideal) P T) := rfl
  rw [h, rowArr_read P T hP hT, colArr_read P T hP hT]
  rfl

end Cert.Nearest

end
-- ==== Proof.RefRun.lean ====
/-
  The reference program's run, with its result stated as the shared tail of the two arrays of nearest squared distances.

  From any memory whose two argument arrays consist of real numbers, every weakly fair execution of the reference
  terminates, its result is the shared tail applied to the specification's nearest squared distances of the two argument
  clouds, and the arguments are unchanged.
-/
import proofs.«176827_j80092550135919_2_alg».proof.Proof.RefRead

noncomputable section

namespace Cert.Nearest

open Idealize.ShloMosaic Idealize.SL.Sem Cert.LibFinite
open Cert.ReferenceIdeal Cert.ReferenceIdeal.Gen

theorem reference_run (m : (ℓ : Loc nD τ sig) → Buf (Elt Ideal) ℓ) (ρ : Dev nD → PrngReg)
    (hP : ∀ (c : Dev nD) (i : S16x4096x3.Idx), IsReal (m ((c.tc : Thread nD τ).loc main_arg0) i))
    (hT : ∀ (c : Dev nD) (i : S16x4096x3.Idx), IsReal (m ((c.tc : Thread nD τ).loc main_arg1) i)) :
    θ_run (defs (F := Ideal)) (onTc (τ := τ) (main (F := Ideal))) ⟨m, fun _ => 0, ρ⟩ fun r => ∀ c : Dev nD,
      r.2.mem ((c.tc : Thread nD τ).loc main_v28)
          = hostTail (rowNearest (m ((c.tc : Thread nD τ).loc main_arg0)) (m ((c.tc : Thread nD τ).loc main_arg1)))
              (colNearest (m ((c.tc : Thread nD τ).loc main_arg0)) (m ((c.tc : Thread nD τ).loc main_arg1)))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run (defs (F := Ideal)) _ _).mono
    (fun _ h c => ⟨(h c).1.trans ((Cert.ReferenceIdeal.Read.val_main_v28_eq _ _).trans
        (reference_eq_hostTail _ _ (hP c) (hT c))), (h c).2⟩)
    (Cert.ReferenceIdeal.Value.run (F := Ideal) m ρ)

end Cert.Nearest

end
-- ==== Proof.Finite.lean ====
/-
  The precondition read back: both input clouds consist of real numbers.

  The precondition compares the absolute value of every entry of either array with +∞, reduces the verdicts of each
  array by "and" from "true", and asks that the "and" of the two results be "true". Then each array's check came out
  "true", and every entry of either array is a real number.
-/
import proofs.«176827_j80092550135919_2_alg».proof.Proof.Gen.Pre_finite_inputs
import proofs.«176827_j80092550135919_2_alg».proof.Proof.LibFinite
import proofs.«176827_j80092550135919_2_alg».proof.Proof.Spec

noncomputable section

namespace Cert.Nearest

open Idealize.ShloMosaic Idealize.ShloMosaic.ValueIdx Cert.LibFinite

/-- If the finite-inputs check of two clouds is "true", every entry of either cloud is a real number. -/
theorem real_of_finite_inputs [hPre : Cert.Pre_finite_inputs.Facts] (P T : Cloud)
    (h : Cert.Pre_finite_inputs.fn (F := Ideal) P T = fun _ => 1#1) :
    (∀ i, IsReal (P i)) ∧ (∀ i, IsReal (T i)) := by
  have h0 := congrFun h ix0
  dsimp only [Cert.Pre_finite_inputs.fn] at h0
  obtain ⟨e0, e1⟩ := IntOp.andi_eq_one.mp h0
  exact ⟨fun i => isReal_of_check P _ _ _ _ e0 i, fun i => isReal_of_check T _ _ _ _ e1 i⟩

end Cert.Nearest

end
-- ==== Proof.SweepValue.lean ====
/-
  What the sweep over the sixteen column chunks leaves in the two minima buffers, as functions. The row-minima tile is
  rewritten whole at every trip: after k trips it holds the k-fold application of "lower the running minimum by this
  chunk's row minima" to what the loop found. The column-minima block is lowered one 256-column chunk per trip: after
  k trips its first k chunks hold the found values lowered by the chunk's column minima, the others what was found.
-/
import proofs.«176827_j80092550135919_2_alg».proof.Proof.ChunksI
import Idealize.ShloMosaic.Lib.Pipeline.FrameBody
import Idealize.ShloMosaic.Lib.Pipeline.Value

set_option maxRecDepth 16384

noncomputable section

namespace Cert.KernelIdeal.Chunks

open Cert.KernelIdeal Cert.KernelIdeal.Gen
open Idealize.ShloMosaic Idealize.ShloMosaic.TcCoe
open Idealize.SL Idealize.SL.Sem

variable {F : FTy → Type} [FloatOps F]

theorem zero2 : (![0, 0] : Fin 2 → Nat) = fun _ => 0 := funext fun a => by fin_cases a <;> rfl

/-- The row piece of trip k: the whole tile, the running minimum it finds lowered by the chunk's row minima. -/
theorem trip_rows (𝒱 : Variants) (c : Dev nD) (bd : Option 𝒱.V) (i : grid0.Coords) (arg2 : Memref sig .tc .vmem S3x8x256 .f32) (harg2 : arg2.IsWhole) (arg3 : Memref sig .tc .vmem S3x8x4096 .f32) (harg3 : arg3.IsWhole) (arg4 : Memref sig .tc .vmem S8x256 .f32) (harg4 : arg4.IsWhole) (arg5 : Memref sig .tc .vmem S8x4096 .f32) (harg5 : arg5.IsWhole) (v5 : Vec F S1x8x256 .f32) (v7 : Vec F S1x8x256 .f32) (v9 : Vec F S1x8x256 .f32) (X3 : BufTy.Contents (Elt F) arg3.view.ty) (k : Fin k0_t1_loop.trips) (f4 : BufTy.Contents (Elt F) arg4.view.ty) (f5 : BufTy.Contents (Elt F) arg5.view.ty) :
    (trip (F := F) 𝒱 c bd i arg2 harg2 arg3 harg3 arg4 harg4 arg5 harg5 v5 v7 v9 X3 k).1 f4 f5
      = [⟨Rect.unit ![0, 0] S8x256.size inb_S8x256_S8x256_0_0,
          k0_pay8 v5 v7 v9 (trip.sl.r arg3 X3 k) (trip.sl.r_1 arg3 v5 v7 v9 X3 k)
            (View.readAt (Elt F) arg4.view (Rect.unit ![0, 0] S8x256.size inb_S8x256_S8x256_0_0).toLoadRect f4)⟩] := by
  unfold trip; rfl

/-- The column piece of trip k: chunk k, what it finds there lowered by the chunk's column minima. -/
theorem trip_cols (𝒱 : Variants) (c : Dev nD) (bd : Option 𝒱.V) (i : grid0.Coords) (arg2 : Memref sig .tc .vmem S3x8x256 .f32) (harg2 : arg2.IsWhole) (arg3 : Memref sig .tc .vmem S3x8x4096 .f32) (harg3 : arg3.IsWhole) (arg4 : Memref sig .tc .vmem S8x256 .f32) (harg4 : arg4.IsWhole) (arg5 : Memref sig .tc .vmem S8x4096 .f32) (harg5 : arg5.IsWhole) (v5 : Vec F S1x8x256 .f32) (v7 : Vec F S1x8x256 .f32) (v9 : Vec F S1x8x256 .f32) (X3 : BufTy.Contents (Elt F) arg3.view.ty) (k : Fin k0_t1_loop.trips) (f4 : BufTy.Contents (Elt F) arg4.view.ty) (f5 : BufTy.Contents (Elt F) arg5.view.ty) :
    (trip (F := F) 𝒱 c bd i arg2 harg2 arg3 harg3 arg4 harg4 arg5 harg5 v5 v7 v9 X3 k).2.1 f4 f5
      = [⟨Rect.unit (s := S8x4096) (k0_off1 k) S8x256.size (k0_off1_inb k),
          k0_pay7 v5 v7 v9 (trip.sl.r arg3 X3 k) (trip.sl.r_1 arg3 v5 v7 v9 X3 k)
            (View.readAt (Elt F) arg5.view (Rect.unit (s := S8x4096) (k0_off1 k) S8x256.size (k0_off1_inb k)).toLoadRect f5)⟩] := by
  unfold trip; rfl

/-- The row-minima tile after k trips, from the tile `g` the loop found. -/
def rowAcc (arg3 : Memref sig .tc .vmem S3x8x4096 .f32) (v5 v7 v9 : Vec F S1x8x256 .f32) (X3 : BufTy.Contents (Elt F) arg3.view.ty)
    (g : Vec F S8x256 .f32) : ℕ → Vec F S8x256 .f32
  | 0 => g
  | k + 1 => if h : k < k0_t1_loop.trips then
      k0_pay8 v5 v7 v9 (trip.sl.r arg3 X3 ⟨k, h⟩) (trip.sl.r_1 arg3 v5 v7 v9 X3 ⟨k, h⟩) (rowAcc arg3 v5 v7 v9 X3 g k)
    else rowAcc arg3 v5 v7 v9 X3 g k

/-- The column-minima block after k trips, from the block `g` the loop found. -/
def colAcc (arg3 : Memref sig .tc .vmem S3x8x4096 .f32) (v5 v7 v9 : Vec F S1x8x256 .f32) (X3 : BufTy.Contents (Elt F) arg3.view.ty)
    (g : Vec F S8x4096 .f32) : ℕ → Vec F S8x4096 .f32
  | 0 => g
  | k + 1 => if h : k < k0_t1_loop.trips then
      (Rect.unit (s := S8x4096) (k0_off1 ⟨k, h⟩) S8x256.size (k0_off1_inb ⟨k, h⟩)).overlay (colAcc arg3 v5 v7 v9 X3 g k)
        (k0_pay7 v5 v7 v9 (trip.sl.r arg3 X3 ⟨k, h⟩) (trip.sl.r_1 arg3 v5 v7 v9 X3 ⟨k, h⟩)
          (View.ld (colAcc arg3 v5 v7 v9 X3 g k) (Rect.unit (s := S8x4096) (k0_off1 ⟨k, h⟩) S8x256.size (k0_off1_inb ⟨k, h⟩))))
    else colAcc arg3 v5 v7 v9 X3 g k

/-- Reading back after one more write: the write's payload on its rectangle, the earlier contents off it. -/
theorem read_writes_cons_overlay {sig : RefSig} {κ : Kind} {sp : Space} {s : Shape} {e : EltTy} {Val : EltTy → Type}
    (v : View sig κ sp s e) (f : v.ty.Contents Val) (r : Rect s) (w : r.shape.Idx → Val e) (L : List (View.Piece Val s e)) :
    v.read Val (v.writes Val f (⟨r, w⟩ :: L)) = r.overlay (v.read Val (v.writes Val f L)) w := by
  funext y
  by_cases hy : y ∈ r.set
  · obtain ⟨x, rfl⟩ := r.exists_idx_of_mem hy
    exact (View.read_writes_cons_emb v f r w L x).trans (r.overlay_emb _ w x).symm
  · rw [View.writes_cons, View.read_slice_write_of_not_mem r _ _ _ (by rwa [Rect.map_emb_univ]), r.overlay_of_not_mem _ w hy]

/-- The row tile after k trips, read back: over a fill `H` of the tile, the pieces of the trips before k leave
    `rowAcc` of what the fill left. -/
theorem canon_rows (𝒱 : Variants) (c : Dev nD) (bd : Option 𝒱.V) (i : grid0.Coords) (arg2 : Memref sig .tc .vmem S3x8x256 .f32) (harg2 : arg2.IsWhole) (arg3 : Memref sig .tc .vmem S3x8x4096 .f32) (harg3 : arg3.IsWhole) (arg4 : Memref sig .tc .vmem S8x256 .f32) (harg4 : arg4.IsWhole) (arg5 : Memref sig .tc .vmem S8x4096 .f32) (harg5 : arg5.IsWhole) (v5 : Vec F S1x8x256 .f32) (v7 : Vec F S1x8x256 .f32) (v9 : Vec F S1x8x256 .f32) (X3 : BufTy.Contents (Elt F) arg3.view.ty) (H : List (View.Piece (Elt F) S8x256 .f32)) (G5 : BufTy.Contents (Elt F) arg5.view.ty) :
    ∀ k : ℕ, k ≤ k0_t1_loop.trips →
      View.canon ((piecesBefore (F := F) 𝒱 c bd i arg2 harg2 arg3 harg3 arg4 harg4 arg5 harg5 v5 v7 v9 X3 (arg4.view.writes (Elt F) arg4.view.junk H) G5 k).1 ++ H)
        = rowAcc arg3 v5 v7 v9 X3 (View.canon H) k
  | 0, _ => rfl
  | k + 1, hk => by
    have hlt : k < k0_t1_loop.trips := hk
    rw [piecesBefore_succ (F := F) 𝒱 c bd i arg2 harg2 arg3 harg3 arg4 harg4 arg5 harg5 v5 v7 v9 X3 _ G5 ⟨k, hlt⟩]
    dsimp only [tripPieces]
    rw [trip_rows, List.singleton_append, List.cons_append, View.canon_cons_unit_zero zero2]
    rw [rowAcc, dif_pos hlt]
    congr 1
    rw [← View.writes_append, View.readAt_writes_junk_eq_canon]
    show View.ld (View.canon _) _ = _
    rw [View.ld_unit_zero zero2, canon_rows 𝒱 c bd i arg2 harg2 arg3 harg3 arg4 harg4 arg5 harg5 v5 v7 v9 X3 H G5 k (Nat.le_of_lt hlt)]

/-- The column block after k trips, read back: the pieces of the trips before k over contents `G5` leave `colAcc`
    of what `G5` reads. -/
theorem read_cols (𝒱 : Variants) (c : Dev nD) (bd : Option 𝒱.V) (i : grid0.Coords) (arg2 : Memref sig .tc .vmem S3x8x256 .f32) (harg2 : arg2.IsWhole) (arg3 : Memref sig .tc .vmem S3x8x4096 .f32) (harg3 : arg3.IsWhole) (arg4 : Memref sig .tc .vmem S8x256 .f32) (harg4 : arg4.IsWhole) (arg5 : Memref sig .tc .vmem S8x4096 .f32) (harg5 : arg5.IsWhole) (v5 : Vec F S1x8x256 .f32) (v7 : Vec F S1x8x256 .f32) (v9 : Vec F S1x8x256 .f32) (X3 : BufTy.Contents (Elt F) arg3.view.ty) (G4 : BufTy.Contents (Elt F) arg4.view.ty) (G5 : BufTy.Contents (Elt F) arg5.view.ty) :
    ∀ k : ℕ, k ≤ k0_t1_loop.trips →
      arg5.view.read (Elt F) (arg5.view.writes (Elt F) G5 (piecesBefore (F := F) 𝒱 c bd i arg2 harg2 arg3 harg3 arg4 harg4 arg5 harg5 v5 v7 v9 X3 G4 G5 k).2)
        = colAcc arg3 v5 v7 v9 X3 (arg5.view.read (Elt F) G5) k
  | 0, _ => rfl
  | k + 1, hk => by
    have hlt : k < k0_t1_loop.trips := hk
    rw [piecesBefore_succ (F := F) 𝒱 c bd i arg2 harg2 arg3 harg3 arg4 harg4 arg5 harg5 v5 v7 v9 X3 G4 G5 ⟨k, hlt⟩]
    dsimp only [tripPieces]
    rw [trip_cols, List.singleton_append, read_writes_cons_overlay]
    rw [colAcc, dif_pos hlt, View.readAt_eq_ld, read_cols 𝒱 c bd i arg2 harg2 arg3 harg3 arg4 harg4 arg5 harg5 v5 v7 v9 X3 G4 G5 k (Nat.le_of_lt hlt)]

end Cert.KernelIdeal.Chunks

end
-- ==== Proof.CaseValue.lean ====
/-
  What each control case of the body leaves in the two output buffers, as the chunk sweep's closed forms: the row tile
  is the sweep's row accumulation from a tile of +infinity; the column block is the sweep's column accumulation from a
  block of +infinity at the first tile of a batch group, and from what the tile before left at a later one.
-/
import proofs.«176827_j80092550135919_2_alg».proof.Proof.BodyI
import proofs.«176827_j80092550135919_2_alg».proof.Proof.SweepValue
import Idealize.ShloMosaic.Lib.Pipeline.Value
import Idealize.ShloMosaic.Lib.Pipeline.FrameBody
import Idealize.ShloMosaic.Lib.Ring
import Idealize.ShloMosaic.Lib.Tactic

set_option maxRecDepth 16384

noncomputable section

namespace Cert.KernelIdeal.Tile

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The three coordinate planes the body loads from the first cloud's tile, the staging buffer holding the tile `x0`. -/
abbrev plane0 (arg2 : Memref sig .tc .vmem S3x8x256 .f32) (harg2 : arg2.IsWhole) (x0 : Vec F S3x8x256 .f32) : Vec F S1x8x256 .f32 :=
  View.readAt (Elt F) arg2.view (Rect.unit (s := S3x8x256) ![0, 0, 0] S1x8x256.size inb_S3x8x256_S1x8x256_0_0_0).toLoadRect (harg2.unread x0)
abbrev plane1 (arg2 : Memref sig .tc .vmem S3x8x256 .f32) (harg2 : arg2.IsWhole) (x0 : Vec F S3x8x256 .f32) : Vec F S1x8x256 .f32 :=
  View.readAt (Elt F) arg2.view (Rect.unit (s := S3x8x256) ![1, 0, 0] S1x8x256.size inb_S3x8x256_S1x8x256_1_0_0).toLoadRect (harg2.unread x0)
abbrev plane2 (arg2 : Memref sig .tc .vmem S3x8x256 .f32) (harg2 : arg2.IsWhole) (x0 : Vec F S3x8x256 .f32) : Vec F S1x8x256 .f32 :=
  View.readAt (Elt F) arg2.view (Rect.unit (s := S3x8x256) ![2, 0, 0] S1x8x256.size inb_S3x8x256_S1x8x256_2_0_0).toLoadRect (harg2.unread x0)

theorem rowsFirst_eq (c : Dev nD) (i : grid0.Coords) (arg2 : Memref sig .tc .vmem S3x8x256 .f32) (harg2 : arg2.IsWhole) (arg3 : Memref sig .tc .vmem S3x8x4096 .f32) (harg3 : arg3.IsWhole) (arg4 : Memref sig .tc .vmem S8x256 .f32) (harg4 : arg4.IsWhole) (arg5 : Memref sig .tc .vmem S8x4096 .f32) (harg5 : arg5.IsWhole) (hc0 : firstTile i) (x0 : Vec F S3x8x256 .f32) (x1 : Vec F S3x8x4096 .f32) :
    rowsFirst c i arg2 harg2 arg3 harg3 arg4 harg4 arg5 harg5 hc0 x0 x1 = Chunks.rowAcc arg3 (plane0 arg2 harg2 x0) (plane1 arg2 harg2 x0) (plane2 arg2 harg2 x0) (harg3.unread x1) k0_pay2 k0_t1_loop.trips := by
  unfold rowsFirst runFirst
  dsimp only
  have h := Chunks.canon_rows (F := F) Variants.none c none i arg2 harg2 arg3 harg3 arg4 harg4 arg5 harg5 (plane0 arg2 harg2 x0) (plane1 arg2 harg2 x0) (plane2 arg2 harg2 x0) (harg3.unread x1)
    (runFirst.sl.H4_1 (F := F)) (arg5.view.writes (Elt F) arg5.view.junk runFirst.sl.H5_1) k0_t1_loop.trips (le_refl _)
  rw [show View.canon (runFirst.sl.H4_1 (F := F)) = k0_pay2 from View.canon_unit_zero Chunks.zero2 _ _] at h
  exact h

theorem rowsLater_eq (c : Dev nD) (i : grid0.Coords) (arg2 : Memref sig .tc .vmem S3x8x256 .f32) (harg2 : arg2.IsWhole) (arg3 : Memref sig .tc .vmem S3x8x4096 .f32) (harg3 : arg3.IsWhole) (arg4 : Memref sig .tc .vmem S8x256 .f32) (harg4 : arg4.IsWhole) (arg5 : Memref sig .tc .vmem S8x4096 .f32) (harg5 : arg5.IsWhole) (hc0 : ¬firstTile i) (x0 : Vec F S3x8x256 .f32) (x1 : Vec F S3x8x4096 .f32) (xo : Vec F S8x4096 .f32) :
    rowsLater c i arg2 harg2 arg3 harg3 arg4 harg4 arg5 harg5 hc0 x0 x1 xo = Chunks.rowAcc arg3 (plane0 arg2 harg2 x0) (plane1 arg2 harg2 x0) (plane2 arg2 harg2 x0) (harg3.unread x1) k0_pay2 k0_t1_loop.trips := by
  unfold rowsLater runLater
  dsimp only
  have h := Chunks.canon_rows (F := F) Variants.none c none i arg2 harg2 arg3 harg3 arg4 harg4 arg5 harg5 (plane0 arg2 harg2 x0) (plane1 arg2 harg2 x0) (plane2 arg2 harg2 x0) (harg3.unread x1)
    (runLater.sl.H4_1 (F := F)) (harg5.unread xo) k0_t1_loop.trips (le_refl _)
  rw [show View.canon (runLater.sl.H4_1 (F := F)) = k0_pay2 from View.canon_unit_zero Chunks.zero2 _ _] at h
  exact h

theorem colsFirst_eq (c : Dev nD) (i : grid0.Coords) (arg2 : Memref sig .tc .vmem S3x8x256 .f32) (harg2 : arg2.IsWhole) (arg3 : Memref sig .tc .vmem S3x8x4096 .f32) (harg3 : arg3.IsWhole) (arg4 : Memref sig .tc .vmem S8x256 .f32) (harg4 : arg4.IsWhole) (arg5 : Memref sig .tc .vmem S8x4096 .f32) (harg5 : arg5.IsWhole) (hc0 : firstTile i) (x0 : Vec F S3x8x256 .f32) (x1 : Vec F S3x8x4096 .f32) :
    colsFirst c i arg2 harg2 arg3 harg3 arg4 harg4 arg5 harg5 hc0 x0 x1 = Chunks.colAcc arg3 (plane0 arg2 harg2 x0) (plane1 arg2 harg2 x0) (plane2 arg2 harg2 x0) (harg3.unread x1) k0_pay1 k0_t1_loop.trips := by
  unfold colsFirst runFirst
  dsimp only
  have h := Chunks.read_cols (F := F) Variants.none c none i arg2 harg2 arg3 harg3 arg4 harg4 arg5 harg5 (plane0 arg2 harg2 x0) (plane1 arg2 harg2 x0) (plane2 arg2 harg2 x0) (harg3.unread x1)
    (arg4.view.writes (Elt F) arg4.view.junk runFirst.sl.H4_1) (arg5.view.writes (Elt F) arg5.view.junk runFirst.sl.H5_1) k0_t1_loop.trips (le_refl _)
  have h1 : arg5.view.read (Elt F) (arg5.view.writes (Elt F) arg5.view.junk (runFirst.sl.H5_1 (F := F))) = k0_pay1 := by
    funext z
    rw [View.read_writes_junk_apply_eq_canon]
    exact congrFun (View.canon_unit_zero Chunks.zero2 _ _) z
  rw [h1, ← View.writes_append] at h
  rw [← h]
  funext y
  exact (View.read_writes_junk_apply_eq_canon arg5.view y _).symm

theorem colsLater_eq (c : Dev nD) (i : grid0.Coords) (arg2 : Memref sig .tc .vmem S3x8x256 .f32) (harg2 : arg2.IsWhole) (arg3 : Memref sig .tc .vmem S3x8x4096 .f32) (harg3 : arg3.IsWhole) (arg4 : Memref sig .tc .vmem S8x256 .f32) (harg4 : arg4.IsWhole) (arg5 : Memref sig .tc .vmem S8x4096 .f32) (harg5 : arg5.IsWhole) (hc0 : ¬firstTile i) (x0 : Vec F S3x8x256 .f32) (x1 : Vec F S3x8x4096 .f32) (xo : Vec F S8x4096 .f32) :
    colsLater c i arg2 harg2 arg3 harg3 arg4 harg4 arg5 harg5 hc0 x0 x1 xo = Chunks.colAcc arg3 (plane0 arg2 harg2 x0) (plane1 arg2 harg2 x0) (plane2 arg2 harg2 x0) (harg3.unread x1) xo k0_t1_loop.trips := by
  unfold colsLater runLater
  dsimp only
  have h := Chunks.read_cols (F := F) Variants.none c none i arg2 harg2 arg3 harg3 arg4 harg4 arg5 harg5 (plane0 arg2 harg2 x0) (plane1 arg2 harg2 x0) (plane2 arg2 harg2 x0) (harg3.unread x1)
    (arg4.view.writes (Elt F) arg4.view.junk runLater.sl.H4_1) (harg5.unread xo) k0_t1_loop.trips (le_refl _)
  rw [harg5.read_unread] at h
  exact h

end Cert.KernelIdeal.Tile
end
-- ==== Proof.ChunkValue.lean ====
/-
  The arithmetic of one chunk of the nearest-neighbour kernel, read at one index, at the ideal
  (extended real) values.

  For a batch row `r`, the kernel holds three coordinate planes of 256 query points (`v5`, `v7`,
  `v9`, each of shape [1, 8, 256]) and loads three coordinate planes of 256 target points (`t0`,
  `t1`, `t2`, each of shape [8, 256]). It forms the [8, 256, 256] array

      |p|² + |t|² − (p₀·(t₀+t₀) + p₁·(t₁+t₁) + p₂·(t₂+t₂))

  (the squared distance between query point `n` and target point `j` of row `r`, written `d2`
  below with exactly the kernel's order of operations), and folds it with `min` along the target
  axis into the running row minimum and along the query axis into the running column minimum.
  `rowStep` and `colStep` say so at one index; the infimum over `Fin 256` is the fold of `min`
  from `+∞`, the value of the reduction's initial word.
-/
import proofs.«176827_j80092550135919_2_alg».proof.Proof.Gen.KernelIdeal.Skeleton
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.ChunkValue

open Cert.KernelIdeal Cert.KernelIdeal.Gen Idealize.ShloMosaic Idealize.ShloMosaic.ValueIdx

/-! ## The layout operations of the chunk, read at coordinates -/

section Layout
variable {α : Type}

/-- An [8, 256] array cast to [8, 256, 1] reads, at `(r, n, u)`, the operand at `(r, n)`. -/
theorem cast_col_apply (x : S8x256.Idx → α) (h : S8x256.ShapeCasts S8x256x1) (r : Fin 8) (n : Fin 256) (u : Fin 1) :
    shapeCast S8x256x1 x h (ix3 r n u) = x (ix2 r n) :=
  shapeCast_apply x h _ _ (by
    have hu : u.val = 0 := by omega
    rw [Shape.rowMajor_val_two, Shape.rowMajor_val_three]
    show r.val * 256 + n.val = (r.val * 256 + n.val) * 1 + u.val
    omega)

/-- An [8, 256] array cast to [8, 1, 256] reads, at `(r, u, j)`, the operand at `(r, j)`. -/
theorem cast_row_apply (x : S8x256.Idx → α) (h : S8x256.ShapeCasts S8x1x256) (r : Fin 8) (u : Fin 1) (j : Fin 256) :
    shapeCast S8x1x256 x h (ix3 r u j) = x (ix2 r j) :=
  shapeCast_apply x h _ _ (by
    have hu : u.val = 0 := by omega
    rw [Shape.rowMajor_val_two, Shape.rowMajor_val_three]
    show r.val * 256 + j.val = (r.val * 1 + u.val) * 256 + j.val
    omega)

/-- An [8, 256, 1] array spread to [8, 256, 256] reads, at `(r, n, j)`, the operand at `(r, n, 0)`. -/
theorem spread_col_apply (x : S8x256x1.Idx → α) (h : S8x256x1.Broadcasts S8x256x256) (r : Fin 8) (n j : Fin 256) :
    broadcastTo S8x256x256 x h (ix3 r n j) = x (ix3 r n (0 : Fin 1)) :=
  broadcastTo_apply x h (ix3 r n j) (ix3 r n (0 : Fin 1)) fun ax =>
    match ax with
    | ⟨0, _⟩ => rfl
    | ⟨1, _⟩ => rfl
    | ⟨2, _⟩ => rfl

/-- An [8, 1, 256] array spread to [8, 256, 256] reads, at `(r, n, j)`, the operand at `(r, 0, j)`. -/
theorem spread_row_apply (x : S8x1x256.Idx → α) (h : S8x1x256.Broadcasts S8x256x256) (r : Fin 8) (n j : Fin 256) :
    broadcastTo S8x256x256 x h (ix3 r n j) = x (ix3 r (0 : Fin 1) j) :=
  broadcastTo_apply x h (ix3 r n j) (ix3 r (0 : Fin 1) j) fun ax =>
    match ax with
    | ⟨0, _⟩ => rfl
    | ⟨1, _⟩ => rfl
    | ⟨2, _⟩ => rfl

end Layout

/-! ## A minimum along one axis of the [8, 256, 256] array, read at a result index -/

/-- The reduction's initial word is `+∞`. -/
theorem ofBits_inf : Ideal.ofBits .f32 0x7F800000#32 = (⊤ : EReal) := by simp [Ideal.ofBits, Ideal.ieee]

/-- The fold of `min` from the initial word's value over the 256 coordinates of an axis is the infimum over them. -/
theorem fold_min_inf (f : Fin 256 → EReal) :
    (Finset.univ : Finset (Fin 256)).fold min (Ideal.ofBits .f32 0x7F800000#32) f = ⨅ k : Fin 256, f k := by
  rw [ofBits_inf, ← Finset.inf_univ_eq_iInf]; rfl

/-- The source index over `(r, n)` with `j` inserted on the last axis is `(r, n, j)`. -/
theorem lift_last (h : S8x256x256.Reduces [2] S8x256) (r : Fin 8) (n j : Fin 256) :
    h.lift (ix2 r n) j = ix3 r n j := by
  funext c
  match c with
  | ⟨0, _⟩ => exact Fin.ext rfl
  | ⟨1, _⟩ => exact Fin.ext rfl
  | ⟨2, _⟩ => exact Fin.ext rfl

/-- The source index over `(r, j)` with `n` inserted on the middle axis is `(r, n, j)`. -/
theorem lift_mid (h : S8x256x256.Reduces [1] S8x256) (r : Fin 8) (n j : Fin 256) :
    h.lift (ix2 r j) n = ix3 r n j := by
  funext c
  match c with
  | ⟨0, _⟩ => exact Fin.ext rfl
  | ⟨1, _⟩ => exact Fin.ext rfl
  | ⟨2, _⟩ => exact Fin.ext rfl

/-- A minimum from `+∞` along the LAST axis, read at `(r, n)`: the infimum over `j` of the source at `(r, n, j)`. -/
theorem min_last_apply (src : FVec Ideal S8x256x256 .f32) (h : S8x256x256.Reduces [2] S8x256)
    (hφ : FKind.Formats .f32) (hacc : (0x7F800000#32 : BitVec 32) = FKind.minimumf.neutral .f32 hφ) (r : Fin 8) (n : Fin 256) :
    multiReduction .minimumf [2] S8x256 src 0x7F800000#32 h hφ hacc (ix2 r n) = ⨅ j : Fin 256, src (ix3 r n j) := by
  rw [multiReduction_minimumf_eq_fold, h.fold_filter_drop_single]
  refine (fold_min_inf (src ∘ h.lift (ix2 r n))).trans ?_
  exact iInf_congr fun j => congrArg src (lift_last h r n j)

/-- A minimum from `+∞` along the MIDDLE axis, read at `(r, j)`: the infimum over `n` of the source at `(r, n, j)`. -/
theorem min_mid_apply (src : FVec Ideal S8x256x256 .f32) (h : S8x256x256.Reduces [1] S8x256)
    (hφ : FKind.Formats .f32) (hacc : (0x7F800000#32 : BitVec 32) = FKind.minimumf.neutral .f32 hφ) (r : Fin 8) (j : Fin 256) :
    multiReduction .minimumf [1] S8x256 src 0x7F800000#32 h hφ hacc (ix2 r j) = ⨅ n : Fin 256, src (ix3 r n j) := by
  rw [multiReduction_minimumf_eq_fold, h.fold_filter_drop_single]
  refine (fold_min_inf (src ∘ h.lift (ix2 r j))).trans ?_
  exact iInf_congr fun n => congrArg src (lift_mid h r n j)

/-! ## The chunk's squared distances -/

/-- The squared distance between query point `n` and target point `j` of row `r`, in the kernel's own order of
    operations: `(|p|² + |t|²) − Σ pᵢ·(tᵢ + tᵢ)`. -/
def d2 (v5 v7 v9 : Vec Ideal S1x8x256 .f32) (t0 t1 t2 : Vec Ideal S8x256 .f32) (r : Fin 8) (n j : Fin 256) : EReal :=
  ((v5 (ix3 (0 : Fin 1) r n) * v5 (ix3 (0 : Fin 1) r n) + v7 (ix3 (0 : Fin 1) r n) * v7 (ix3 (0 : Fin 1) r n))
      + v9 (ix3 (0 : Fin 1) r n) * v9 (ix3 (0 : Fin 1) r n))
    + ((t0 (ix2 r j) * t0 (ix2 r j) + t1 (ix2 r j) * t1 (ix2 r j)) + t2 (ix2 r j) * t2 (ix2 r j))
    - ((v5 (ix3 (0 : Fin 1) r n) * (t0 (ix2 r j) + t0 (ix2 r j)) + v7 (ix3 (0 : Fin 1) r n) * (t1 (ix2 r j) + t1 (ix2 r j)))
      + v9 (ix3 (0 : Fin 1) r n) * (t2 (ix2 r j) + t2 (ix2 r j)))

/-- The [8, 256, 256] array the kernel reduces is `d2` at every index. -/
theorem pay6_apply (v5 v7 v9 : Vec Ideal S1x8x256 .f32) (t0 t1 t2 : Vec Ideal S8x256 .f32) (r : Fin 8) (n j : Fin 256) :
    k0_pay6 (F := Ideal) v5 v7 v9 (k0_pay12 t0 t1 t2) (k0_pay13 (k0_pay3 v5) (k0_pay4 v7) (k0_pay5 v9) t0 t1 t2) (ix3 r n j)
      = d2 v5 v7 v9 t0 t1 t2 r n j := by
  unfold k0_pay6 k0_pay13 k0_pay12 k0_pay9 k0_pay10 k0_pay11 k0_pay3 k0_pay4 k0_pay5 d2
  simp only [subf_apply, addf_apply, mulf_apply, spread_col_apply, spread_row_apply, cast_col_apply, cast_row_apply,
    shapeCast_self, shapeCast_1ab_ab_apply]

/-- One chunk's update of the running ROW minimum, at `(r, n)`. -/
theorem rowStep (v5 v7 v9 : Vec Ideal S1x8x256 .f32) (t0 t1 t2 : Vec Ideal S8x256 .f32) (acc : Vec Ideal S8x256 .f32)
    (r : Fin 8) (n : Fin 256) :
    k0_pay8 (F := Ideal) v5 v7 v9 (k0_pay12 t0 t1 t2) (k0_pay13 (k0_pay3 v5) (k0_pay4 v7) (k0_pay5 v9) t0 t1 t2) acc (ix2 r n)
      = min (acc (ix2 r n)) (⨅ j : Fin 256, d2 v5 v7 v9 t0 t1 t2 r n j) := by
  unfold k0_pay8
  simp only [minimumf_apply, shapeCast_self]
  refine congrArg (min (acc (ix2 r n))) ?_
  refine (min_last_apply _ _ _ _ r n).trans ?_
  exact iInf_congr fun j => pay6_apply v5 v7 v9 t0 t1 t2 r n j

/-- One chunk's update of the running COLUMN minimum, at `(r, j)`. -/
theorem colStep (v5 v7 v9 : Vec Ideal S1x8x256 .f32) (t0 t1 t2 : Vec Ideal S8x256 .f32) (acc : Vec Ideal S8x256 .f32)
    (r : Fin 8) (j : Fin 256) :
    k0_pay7 (F := Ideal) v5 v7 v9 (k0_pay12 t0 t1 t2) (k0_pay13 (k0_pay3 v5) (k0_pay4 v7) (k0_pay5 v9) t0 t1 t2) acc (ix2 r j)
      = min (acc (ix2 r j)) (⨅ n : Fin 256, d2 v5 v7 v9 t0 t1 t2 r n j) := by
  unfold k0_pay7
  simp only [minimumf_apply, shapeCast_self]
  refine congrArg (min (acc (ix2 r j))) ?_
  refine (min_mid_apply _ _ _ _ r j).trans ?_
  exact iInf_congr fun n => pay6_apply v5 v7 v9 t0 t1 t2 r n j

end Cert.KernelIdeal.ChunkValue

end
-- ==== Proof.SweepIdeal.lean ====
/-
  The chunk sweep at the ideal (extended real) values, read at one entry. After k trips, entry (r, n) of the row tile
  is the least of what the loop found there and the squared distances from point n to the 256·k points of the first k
  chunks; entry (r, J) of the column block is, once J's chunk has been swept, the least of what the loop found there
  and the squared distances from the tile's 256 points to point J — and what the loop found until then. A minimum is
  carried by what lies below it: x ≤ min a b ↔ x ≤ a ∧ x ≤ b, x ≤ ⨅ f ↔ ∀ i, x ≤ f i.
-/
import proofs.«176827_j80092550135919_2_alg».proof.Proof.ChunkValue
import proofs.«176827_j80092550135919_2_alg».proof.Proof.SweepValue

set_option maxRecDepth 16384

noncomputable section

namespace Cert.KernelIdeal.Chunks

open Cert.KernelIdeal Cert.KernelIdeal.Gen Cert.KernelIdeal.ChunkValue
open Idealize.ShloMosaic Idealize.ShloMosaic.ValueIdx

theorem trips_eq : k0_t1_loop.trips = 16 := by decide

variable (arg3 : Memref sig .tc .vmem S3x8x4096 .f32) (v5 v7 v9 : Vec Ideal S1x8x256 .f32) (X3 : BufTy.Contents (Elt Ideal) arg3.view.ty)

/-- The squared distances of the tile's points to the points of chunk k, from the loaded planes. -/
abbrev chunkDist (k : Fin k0_t1_loop.trips) (r : Fin 8) (n j : Fin 256) : EReal :=
  d2 v5 v7 v9 (trip.sl.v27 arg3 X3 k) (trip.sl.v32 arg3 X3 k) (trip.sl.v37 arg3 X3 k) r n j

theorem rowAcc_succ_apply (g : Vec Ideal S8x256 .f32) (k : ℕ) (hlt : k < k0_t1_loop.trips) (r : Fin 8) (n : Fin 256) :
    rowAcc arg3 v5 v7 v9 X3 g (k + 1) (ix2 r n)
      = min (rowAcc arg3 v5 v7 v9 X3 g k (ix2 r n)) (⨅ j : Fin 256, chunkDist arg3 v5 v7 v9 X3 ⟨k, hlt⟩ r n j) := by
  rw [rowAcc, dif_pos hlt]
  exact rowStep v5 v7 v9 (trip.sl.v27 arg3 X3 ⟨k, hlt⟩) (trip.sl.v32 arg3 X3 ⟨k, hlt⟩) (trip.sl.v37 arg3 X3 ⟨k, hlt⟩) _ r n

/-- What lies below entry (r, n) of the row tile after k trips. -/
theorem le_rowAcc (g : Vec Ideal S8x256 .f32) (r : Fin 8) (n : Fin 256) (x : EReal) :
    ∀ k : ℕ, k ≤ k0_t1_loop.trips →
      (x ≤ rowAcc arg3 v5 v7 v9 X3 g k (ix2 r n)
        ↔ x ≤ g (ix2 r n) ∧ ∀ k' : Fin k0_t1_loop.trips, k'.val < k → ∀ j : Fin 256, x ≤ chunkDist arg3 v5 v7 v9 X3 k' r n j)
  | 0, _ => ⟨fun h => ⟨h, fun k' hk' => absurd hk' (Nat.not_lt_zero _)⟩, fun h => h.1⟩
  | k + 1, hk => by
    have hlt : k < k0_t1_loop.trips := hk
    rw [rowAcc_succ_apply arg3 v5 v7 v9 X3 g k hlt, le_min_iff, le_iInf_iff, le_rowAcc g r n x k (Nat.le_of_lt hlt)]
    constructor
    · rintro ⟨⟨hg, hb⟩, hk'⟩
      refine ⟨hg, fun k' hk'' j => ?_⟩
      rcases Nat.lt_succ_iff_lt_or_eq.mp hk'' with h | h
      · exact hb k' h j
      · obtain rfl : k' = ⟨k, hlt⟩ := Fin.ext h
        exact hk' j
    · rintro ⟨hg, hb⟩
      exact ⟨⟨hg, fun k' hk' j => hb k' (Nat.lt_succ_of_lt hk') j⟩, fun j => hb ⟨k, hlt⟩ (Nat.lt_succ_self k) j⟩

/-- Column 256·k + j of the block is column j of chunk k. -/
def chunkCol (k : Fin k0_t1_loop.trips) (j : Fin 256) : Fin 4096 :=
  ⟨256 * k.val + j.val, by have hk : k.val < 16 := lt_of_lt_of_eq k.isLt trips_eq; have hj := j.isLt; omega⟩

theorem chunk_emb (k : Fin k0_t1_loop.trips) (r : Fin 8) (j : Fin 256) :
    (Rect.unit (s := S8x4096) (k0_off1 k) S8x256.size (k0_off1_inb k)).emb (ix2 r j) = ix2 r (chunkCol k j) := by
  funext a
  apply Fin.ext
  match a with
  | ⟨0, _⟩ => show (k0_off1 k) 0 + 1 * r.val = r.val; rw [k0_off1_eq]; simp
  | ⟨1, _⟩ => show (k0_off1 k) 1 + 1 * j.val = 256 * k.val + j.val; rw [k0_off1_eq]; simp

theorem mem_chunk (k : Fin k0_t1_loop.trips) (r : Fin 8) (J : Fin 4096) :
    ix2 r J ∈ (Rect.unit (s := S8x4096) (k0_off1 k) S8x256.size (k0_off1_inb k)).set ↔ 256 * k.val ≤ J.val ∧ J.val < 256 * k.val + 256 := by
  rw [Rect.mem_set_unit, k0_off1_eq]
  constructor
  · intro h
    have h1 := h (1 : Fin 2)
    exact ⟨h1.1, h1.2⟩
  · intro h a
    match a with
    | ⟨0, _⟩ => exact ⟨Nat.zero_le _, by show r.val < 0 + 8; omega⟩
    | ⟨1, _⟩ => exact ⟨h.1, h.2⟩

theorem colAcc_succ_in (g : Vec Ideal S8x4096 .f32) (k : ℕ) (hlt : k < k0_t1_loop.trips) (r : Fin 8) (j : Fin 256) :
    colAcc arg3 v5 v7 v9 X3 g (k + 1) (ix2 r (chunkCol ⟨k, hlt⟩ j))
      = min (colAcc arg3 v5 v7 v9 X3 g k (ix2 r (chunkCol ⟨k, hlt⟩ j))) (⨅ n : Fin 256, chunkDist arg3 v5 v7 v9 X3 ⟨k, hlt⟩ r n j) := by
  rw [colAcc, dif_pos hlt, ← chunk_emb ⟨k, hlt⟩ r j, Rect.overlay_emb]
  exact colStep v5 v7 v9 (trip.sl.v27 arg3 X3 ⟨k, hlt⟩) (trip.sl.v32 arg3 X3 ⟨k, hlt⟩) (trip.sl.v37 arg3 X3 ⟨k, hlt⟩) _ r j

theorem colAcc_succ_out (g : Vec Ideal S8x4096 .f32) (k : ℕ) (hlt : k < k0_t1_loop.trips) (r : Fin 8) (J : Fin 4096)
    (h : ¬(256 * k ≤ J.val ∧ J.val < 256 * k + 256)) :
    colAcc arg3 v5 v7 v9 X3 g (k + 1) (ix2 r J) = colAcc arg3 v5 v7 v9 X3 g k (ix2 r J) := by
  rw [colAcc, dif_pos hlt]
  exact Rect.overlay_of_not_mem _ _ _ (fun hm => h ((mem_chunk ⟨k, hlt⟩ r J).mp hm))

/-- The chunk column J lies in, and its place there. -/
def colChunk (J : Fin 4096) : Fin k0_t1_loop.trips := ⟨J.val / 256, by have := J.isLt; rw [trips_eq]; omega⟩
theorem colChunk_val (J : Fin 4096) : (colChunk J).val = J.val / 256 := rfl
def colPlace (J : Fin 4096) : Fin 256 := ⟨J.val % 256, Nat.mod_lt _ (by decide)⟩
theorem chunkCol_colChunk (J : Fin 4096) : chunkCol (colChunk J) (colPlace J) = J :=
  Fin.ext (by show 256 * (J.val / 256) + J.val % 256 = J.val; omega)

/-- What lies below entry (r, J) of the column block after k trips. -/
theorem le_colAcc (g : Vec Ideal S8x4096 .f32) (r : Fin 8) (J : Fin 4096) (x : EReal) :
    ∀ k : ℕ, k ≤ k0_t1_loop.trips →
      (x ≤ colAcc arg3 v5 v7 v9 X3 g k (ix2 r J)
        ↔ x ≤ g (ix2 r J) ∧ (J.val / 256 < k → ∀ n : Fin 256, x ≤ chunkDist arg3 v5 v7 v9 X3 (colChunk J) r n (colPlace J)))
  | 0, _ => ⟨fun h => ⟨h, fun hk' => absurd hk' (Nat.not_lt_zero _)⟩, fun h => h.1⟩
  | k + 1, hk => by
    have hlt : k < k0_t1_loop.trips := hk
    by_cases hin : 256 * k ≤ J.val ∧ J.val < 256 * k + 256
    · have hJ : J.val / 256 = k := by omega
      have hkk : colChunk J = ⟨k, hlt⟩ := Fin.ext hJ
      have hcol : ix2 r J = ix2 r (chunkCol ⟨k, hlt⟩ (colPlace J)) := by rw [← hkk, chunkCol_colChunk]
      rw [hcol, colAcc_succ_in arg3 v5 v7 v9 X3 g k hlt, le_min_iff, le_iInf_iff, ← hcol,
        le_colAcc g r J x k (Nat.le_of_lt hlt), hkk]
      constructor
      · rintro ⟨⟨hg, _⟩, hn⟩
        exact ⟨hg, fun _ => hn⟩
      · rintro ⟨hg, hn⟩
        exact ⟨⟨hg, fun h => absurd h (by rw [hJ]; exact Nat.lt_irrefl k)⟩, hn (by rw [hJ]; exact Nat.lt_succ_self k)⟩
    · rw [colAcc_succ_out arg3 v5 v7 v9 X3 g k hlt r J hin, le_colAcc g r J x k (Nat.le_of_lt hlt)]
      have hne : J.val / 256 ≠ k := by omega
      constructor
      · rintro ⟨hg, hn⟩
        exact ⟨hg, fun h => hn (by omega)⟩
      · rintro ⟨hg, hn⟩
        exact ⟨hg, fun h => hn (by omega)⟩

end Cert.KernelIdeal.Chunks

end
-- ==== Proof.BlockValue.lean ====
/-
  The kernel's two input blocks read at coordinates.

  The program first moves the coordinate axis of both point clouds to the front (a transpose
  [16, 4096, 3] → [3, 16, 4096]); the region's window 0 then stages, at grid point `t = 16·bg + nt`,
  the [3, 8, 256] block at block index (0, bg, nt) of the first transposed array, and window 1 the
  [3, 8, 4096] block at block index (0, bg, 0) of the second. Read at coordinates, an element of a
  block is therefore an element of the launched argument: coordinate plane `d`, batch row
  `8·bg + r`, and point `256·nt + n` (window 0) or `j` (window 1), with the plane axis last.
-/
import proofs.«176827_j80092550135919_2_alg».proof.Proof.Gen.KernelIdeal.Frame
import Idealize.ShloMosaic.Lib.ValueIdx
import Idealize.ShloMosaic.Lib.Pipeline.Value
import Idealize.ShloMosaic.Lib.StableHlo.Run

noncomputable section

namespace Cert.KernelIdeal.BlockValue

open Cert.KernelIdeal Cert.KernelIdeal.Gen Idealize.ShloMosaic Idealize.ShloMosaic.TcCoe Idealize.ShloMosaic.ValueIdx Idealize.SL.Sem

variable {F : FTy → Type} [FloatOps F]
variable (m : (ℓ : Loc nD τ sig) → Buf (Elt F) ℓ)

/-! ## The grid's points and the rows and points under a block -/

/-- The grid has 32 points. -/
theorem t_lt (t : Fin cfg0.N) : t.val < 32 := lt_of_lt_of_eq t.isLt Gen.N_0

/-- The batch row of the array under row `r` of a block at point `t`: `8·(t / 16) + r`. -/
def bgRow (t : Fin cfg0.N) (r : Fin 8) : Fin 16 := ⟨8 * (t.val / 16) + r.val, by have := t_lt t; omega⟩
/-- The point of the array under point `n` of window 0's block at point `t`: `256·(t % 16) + n`. -/
def tilePt (t : Fin cfg0.N) (n : Fin 256) : Fin 4096 := ⟨256 * (t.val % 16) + n.val, by omega⟩

@[simp] theorem bgRow_val (t : Fin cfg0.N) (r : Fin 8) : (bgRow t r).val = 8 * (t.val / 16) + r.val := rfl
@[simp] theorem tilePt_val (t : Fin cfg0.N) (n : Fin 256) : (tilePt t n).val = 256 * (t.val % 16) + n.val := rfl

/-- Window 0's block index at point `t` is `(0, t / 16, t % 16)`: decided once over the grid. -/
theorem idx0 : ∀ t : Fin grid0.N, win0_0.index t (0 : Fin 3) = 0 ∧ win0_0.index t (1 : Fin 3) = t.val / 16
    ∧ win0_0.index t (2 : Fin 3) = t.val % 16 := by decide +kernel
/-- Window 1's block index at point `t` is `(0, t / 16, 0)`. -/
theorem idx1 : ∀ t : Fin grid0.N, win0_1.index t (0 : Fin 3) = 0 ∧ win0_1.index t (1 : Fin 3) = t.val / 16
    ∧ win0_1.index t (2 : Fin 3) = 0 := by decide +kernel

/-! ## The staged arrays as the region finds them -/

/-- The array window 0 stages: the first argument with its coordinate axis moved to the front. -/
theorem V_main_v0 (c : Dev nD) :
    (Gen.V m c main_v0 : S3x16x4096.Idx → Elt F .f32)
      = transpose S3x16x4096 [2, 0, 1] (m ((c : Thread nD τ).loc main_arg0)) transposes_S16x4096x3_S3x16x4096_2_0_1 := by
  show StableHlo.after hostOps0 (fun b => m (c, b)) (Proc.devRef .tc main_v0) = _
  after_results

/-- The array window 1 stages: the second argument with its coordinate axis moved to the front. -/
theorem V_main_v1 (c : Dev nD) :
    (Gen.V m c main_v1 : S3x16x4096.Idx → Elt F .f32)
      = transpose S3x16x4096 [2, 0, 1] (m ((c : Thread nD τ).loc main_arg1)) transposes_S16x4096x3_S3x16x4096_2_0_1 := by
  show StableHlo.after hostOps0 (fun b => m (c, b)) (Proc.devRef .tc main_v1) = _
  after_results

/-- A [16, 4096, 3] array transposed by [2, 0, 1] reads, at `(d, b, p)`, the operand at `(b, p, d)`. -/
theorem transpose_201_apply {α : Type} (x : S16x4096x3.Idx → α) (h : S16x4096x3.Transposes [2, 0, 1] S3x16x4096)
    (d : Fin 3) (b : Fin 16) (p : Fin 4096) :
    transpose S3x16x4096 [2, 0, 1] x h (ix3 d b p) = x (ix3 b p d) :=
  transpose_apply _ x h _ _ fun a => match a with | ⟨0, _⟩ => rfl | ⟨1, _⟩ => rfl | ⟨2, _⟩ => rfl

/-! ## The blocks read off the staged arrays -/

/-- Window 0's block at point `t` reads the staged array at plane `d`, row `8·(t / 16) + r`, point `256·(t % 16) + n`. -/
theorem blk0_apply (c : Dev nD) (t : Fin cfg0.N) (d : Fin 3) (r : Fin 8) (n : Fin 256) :
    (Gen.iblk m c 0 t : Vec F S3x8x256 .f32) (ix3 d r n)
      = (Gen.V m c main_v0 : S3x16x4096.Idx → Elt F .f32) (ix3 d (bgRow t r) (tilePt t n)) := by
  have hi := idx0 t
  unfold Gen.iblk
  rw [View.read_apply]
  show Gen.V m c main_v0 _ = Gen.V m c main_v0 _
  refine congrArg (Gen.V m c main_v0) (funext fun a => Fin.ext ?_)
  match a with
  | ⟨0, _⟩ => show win0_0.index t 0 * 3 + 1 * d.val = d.val; rw [hi.1]; omega
  | ⟨1, _⟩ => show win0_0.index t 1 * 8 + 1 * r.val = 8 * (t.val / 16) + r.val; rw [hi.2.1]; omega
  | ⟨2, _⟩ => show win0_0.index t 2 * 256 + 1 * n.val = 256 * (t.val % 16) + n.val; rw [hi.2.2]; omega

/-- Window 1's block at point `t` reads the staged array at plane `d`, row `8·(t / 16) + r`, point `j`. -/
theorem blk1_apply (c : Dev nD) (t : Fin cfg0.N) (d : Fin 3) (r : Fin 8) (j : Fin 4096) :
    (Gen.iblk m c 1 t : Vec F S3x8x4096 .f32) (ix3 d r j)
      = (Gen.V m c main_v1 : S3x16x4096.Idx → Elt F .f32) (ix3 d (bgRow t r) j) := by
  have hi := idx1 t
  unfold Gen.iblk
  rw [View.read_apply]
  show Gen.V m c main_v1 _ = Gen.V m c main_v1 _
  refine congrArg (Gen.V m c main_v1) (funext fun a => Fin.ext ?_)
  match a with
  | ⟨0, _⟩ => show win0_1.index t 0 * 3 + 1 * d.val = d.val; rw [hi.1]; omega
  | ⟨1, _⟩ => show win0_1.index t 1 * 8 + 1 * r.val = 8 * (t.val / 16) + r.val; rw [hi.2.1]; omega
  | ⟨2, _⟩ => show win0_1.index t 2 * 4096 + 1 * j.val = j.val; rw [hi.2.2]; omega

/-! ## The blocks read off the launched arguments -/

/-- THE QUERY BLOCK: window 0's block at point `t`, at `(d, r, n)`, is the first argument at row `8·(t / 16) + r`,
    point `256·(t % 16) + n`, coordinate `d`. -/
theorem predBlock (c : Dev nD) (t : Fin cfg0.N) (d : Fin 3) (r : Fin 8) (n : Fin 256) :
    (Gen.iblk m c 0 t : Vec F S3x8x256 .f32) (ix3 d r n)
      = m ((c : Thread nD τ).loc main_arg0) (ix3 (bgRow t r) (tilePt t n) d) :=
  (blk0_apply m c t d r n).trans
    ((congrFun (V_main_v0 m c) _).trans (transpose_201_apply _ _ d (bgRow t r) (tilePt t n)))

/-- THE TARGET BLOCK: window 1's block at point `t`, at `(d, r, j)`, is the second argument at row `8·(t / 16) + r`,
    point `j`, coordinate `d`. -/
theorem targetBlock (c : Dev nD) (t : Fin cfg0.N) (d : Fin 3) (r : Fin 8) (j : Fin 4096) :
    (Gen.iblk m c 1 t : Vec F S3x8x4096 .f32) (ix3 d r j)
      = m ((c : Thread nD τ).loc main_arg1) (ix3 (bgRow t r) j d) :=
  (blk1_apply m c t d r j).trans
    ((congrFun (V_main_v1 m c) _).trans (transpose_201_apply _ _ d (bgRow t r) j))

end Cert.KernelIdeal.BlockValue

end
-- ==== Proof.PlaneReads.lean ====
/-
  The body's loads read at coordinates.

  The body holds each input staging buffer whole, at the contents that read its block. A load of
  one coordinate plane of the [3, 8, 256] query block then reads the block at that plane; a load
  of chunk `k` (256 points) of one coordinate plane of the [3, 8, 4096] target block, taken through
  the plane's slice viewed as [8, 4096], reads the block at that plane and at point `256·k + j`.
-/
import proofs.«176827_j80092550135919_2_alg».proof.Proof.ChunksI
import Idealize.ShloMosaic.Lib.WholeRead
import Idealize.ShloMosaic.Lib.ValueIdx
import Idealize.ShloMosaic.Lib.ValueLayout

noncomputable section

namespace Cert.KernelIdeal.PlaneReads

open Cert.KernelIdeal Cert.KernelIdeal.Gen Idealize.ShloMosaic Idealize.ShloMosaic.ValueIdx

variable {F : FTy → Type} [FloatOps F]

/-! ## The query block's planes -/

/-- A load of the [1, 8, 256] plane at offset `(d, 0, 0)` of a [3, 8, 256] buffer held whole at the contents that
    read `x0` reads, at `(0, r, n)`, `x0` at `(d, r, n)`. -/
theorem plane_read (arg2 : Memref sig .tc .vmem S3x8x256 .f32) (harg2 : arg2.IsWhole) (x0 : Vec F S3x8x256 .f32)
    (d : Fin 3) (o : Fin 3 → Nat) (ho0 : o 0 = d.val) (ho1 : o 1 = 0) (ho2 : o 2 = 0)
    (hin : ∀ a, o a + S1x8x256.size a ≤ S3x8x256.size a) (r : Fin 8) (n : Fin 256) :
    View.readAt (Elt F) arg2.view (Rect.unit (s := S3x8x256) o S1x8x256.size hin).toLoadRect (harg2.unread x0)
        (ix3 (0 : Fin 1) r n) = x0 (ix3 d r n) := by
  refine (harg2.readAt_unread x0 _ _).trans (congrArg x0 (funext fun a => Fin.ext ?_))
  match a with
  | ⟨0, _⟩ => show o 0 + 1 * 0 = d.val; omega
  | ⟨1, _⟩ => show o 1 + 1 * r.val = r.val; omega
  | ⟨2, _⟩ => show o 2 + 1 * n.val = n.val; omega

/-- The load of plane 0 of the query block. -/
theorem predPlane0 (arg2 : Memref sig .tc .vmem S3x8x256 .f32) (harg2 : arg2.IsWhole) (x0 : Vec F S3x8x256 .f32)
    (r : Fin 8) (n : Fin 256) :
    View.readAt (Elt F) arg2.view (Rect.unit (s := S3x8x256) ![0, 0, 0] S1x8x256.size inb_S3x8x256_S1x8x256_0_0_0).toLoadRect
        (harg2.unread x0) (ix3 (0 : Fin 1) r n) = x0 (ix3 (0 : Fin 3) r n) :=
  plane_read arg2 harg2 x0 0 ![0, 0, 0] rfl rfl rfl _ r n

/-- The load of plane 1 of the query block. -/
theorem predPlane1 (arg2 : Memref sig .tc .vmem S3x8x256 .f32) (harg2 : arg2.IsWhole) (x0 : Vec F S3x8x256 .f32)
    (r : Fin 8) (n : Fin 256) :
    View.readAt (Elt F) arg2.view (Rect.unit (s := S3x8x256) ![1, 0, 0] S1x8x256.size inb_S3x8x256_S1x8x256_1_0_0).toLoadRect
        (harg2.unread x0) (ix3 (0 : Fin 1) r n) = x0 (ix3 (1 : Fin 3) r n) :=
  plane_read arg2 harg2 x0 1 ![1, 0, 0] rfl rfl rfl _ r n

/-- The load of plane 2 of the query block. -/
theorem predPlane2 (arg2 : Memref sig .tc .vmem S3x8x256 .f32) (harg2 : arg2.IsWhole) (x0 : Vec F S3x8x256 .f32)
    (r : Fin 8) (n : Fin 256) :
    View.readAt (Elt F) arg2.view (Rect.unit (s := S3x8x256) ![2, 0, 0] S1x8x256.size inb_S3x8x256_S1x8x256_2_0_0).toLoadRect
        (harg2.unread x0) (ix3 (0 : Fin 1) r n) = x0 (ix3 (2 : Fin 3) r n) :=
  plane_read arg2 harg2 x0 2 ![2, 0, 0] rfl rfl rfl _ r n

/-! ## The target block's planes, a chunk at a time -/

/-- The loop makes at most 16 trips. -/
theorem k_lt (k : Fin k0_t1_loop.trips) : k.val < 16 := lt_of_lt_of_le k.isLt Gen.k0_t1_abs.2.1

/-- The point of the target block under point `j` of chunk `k`: `256·k + j`. -/
def chunkPt (k : Fin k0_t1_loop.trips) (j : Fin 256) : Fin 4096 := ⟨256 * k.val + j.val, by have := k_lt k; omega⟩

@[simp] theorem chunkPt_val (k : Fin k0_t1_loop.trips) (j : Fin 256) : (chunkPt k j).val = 256 * k.val + j.val := rfl

/-- The index arithmetic of a chunk load: through the [1, 8, 4096] slice at offset `(d, 0, 0)` viewed as
    [8, 4096], the [8, 256] load at offset `(0, 256·k)` places `(r, j)` at `(d, r, 256·k + j)`. -/
theorem chunk_idx (d : Fin 3) (o : Fin 3 → Nat) (ho0 : o 0 = d.val) (ho1 : o 1 = 0) (ho2 : o 2 = 0)
    (hin : ∀ a, o a + S1x8x4096.size a ≤ S3x8x4096.size a)
    (hn : S8x4096.numel = (Rect.unit (s := S3x8x4096) o S1x8x4096.size hin).shape.numel)
    (off : Fin 2 → Nat) (k : Nat) (hoff : off = ![0, 256 * k]) (hB : ∀ a, off a + S8x256.size a ≤ S8x4096.size a)
    (r : Fin 8) (j : Fin 256) (p : Fin 4096) (hp : p.val = 256 * k + j.val) :
    (Rect.unit (s := S3x8x4096) o S1x8x4096.size hin).emb
        (Shape.reshapeEquiv hn ((Rect.unit (s := S8x4096) off S8x256.size hB).toLoadRect.idx (ix2 r j)))
      = ix3 d r p := by
  subst hoff
  have h1 : (Rect.unit (s := S8x4096) ![0, 256 * k] S8x256.size hB).toLoadRect.idx (ix2 r j) = ix2 r p := by
    funext a
    refine Fin.ext ?_
    match a with
    | ⟨0, _⟩ => show 0 + 1 * r.val = r.val; omega
    | ⟨1, _⟩ => show 256 * k + 1 * j.val = p.val; omega
  rw [h1]
  have h2 : Shape.reshapeEquiv hn (ix2 r p) = ix3 (⟨0, Nat.one_pos⟩ : Fin 1) r p := reshapeEquiv_ix2_1ab hn r p
  rw [h2]
  funext a
  refine Fin.ext ?_
  match a with
  | ⟨0, _⟩ => show o 0 + 1 * 0 = d.val; omega
  | ⟨1, _⟩ => show o 1 + 1 * r.val = r.val; omega
  | ⟨2, _⟩ => show o 2 + 1 * p.val = p.val; omega

/-- Chunk `k` of plane 0 of the target block, as the loop's trip loads it. -/
theorem targetPlane0 (arg3 : Memref sig .tc .vmem S3x8x4096 .f32) (harg3 : arg3.IsWhole) (x1 : Vec F S3x8x4096 .f32)
    (k : Fin k0_t1_loop.trips) (r : Fin 8) (j : Fin 256) :
    Cert.KernelIdeal.Chunks.trip.sl.v27 arg3 (harg3.unread x1) k (ix2 r j) = x1 (ix3 (0 : Fin 3) r (chunkPt k j)) := by
  unfold Cert.KernelIdeal.Chunks.trip.sl.v27
  refine (harg3.readAt_slice_reshape_unread x1 _ _ _ _).trans (congrArg x1 ?_)
  exact chunk_idx 0 ![0, 0, 0] rfl rfl rfl _ _ _ k.val (Gen.k0_off1_eq k) _ r j (chunkPt k j) rfl

/-- Chunk `k` of plane 1 of the target block. -/
theorem targetPlane1 (arg3 : Memref sig .tc .vmem S3x8x4096 .f32) (harg3 : arg3.IsWhole) (x1 : Vec F S3x8x4096 .f32)
    (k : Fin k0_t1_loop.trips) (r : Fin 8) (j : Fin 256) :
    Cert.KernelIdeal.Chunks.trip.sl.v32 arg3 (harg3.unread x1) k (ix2 r j) = x1 (ix3 (1 : Fin 3) r (chunkPt k j)) := by
  unfold Cert.KernelIdeal.Chunks.trip.sl.v32
  refine (harg3.readAt_slice_reshape_unread x1 _ _ _ _).trans (congrArg x1 ?_)
  exact chunk_idx 1 ![1, 0, 0] rfl rfl rfl _ _ _ k.val (Gen.k0_off1_eq k) _ r j (chunkPt k j) rfl

/-- Chunk `k` of plane 2 of the target block. -/
theorem targetPlane2 (arg3 : Memref sig .tc .vmem S3x8x4096 .f32) (harg3 : arg3.IsWhole) (x1 : Vec F S3x8x4096 .f32)
    (k : Fin k0_t1_loop.trips) (r : Fin 8) (j : Fin 256) :
    Cert.KernelIdeal.Chunks.trip.sl.v37 arg3 (harg3.unread x1) k (ix2 r j) = x1 (ix3 (2 : Fin 3) r (chunkPt k j)) := by
  unfold Cert.KernelIdeal.Chunks.trip.sl.v37
  refine (harg3.readAt_slice_reshape_unread x1 _ _ _ _).trans (congrArg x1 ?_)
  exact chunk_idx 2 ![2, 0, 0] rfl rfl rfl _ _ _ k.val (Gen.k0_off1_eq k) _ r j (chunkPt k j) rfl

end Cert.KernelIdeal.PlaneReads

end
-- ==== Proof.TileIdeal.lean ====
/-
  The two output tiles at every grid point, at the ideal values, against the specification. Grid point t = 16·g + s
  handles batches 8g … 8g+7 and points 256s … 256s+255 of the first cloud. After its body the row tile holds, for each
  of those points, the least squared distance to the 4096 points of the second cloud (sixteen chunks of 256); the
  column block holds, for each point of the second cloud, the least squared distance to the first 256·(s+1) points of
  the first cloud — to all of them once s = 15.
-/
import proofs.«176827_j80092550135919_2_alg».proof.Proof.CaseValue
import proofs.«176827_j80092550135919_2_alg».proof.Proof.SweepIdeal
import proofs.«176827_j80092550135919_2_alg».proof.Proof.BlockValue
import proofs.«176827_j80092550135919_2_alg».proof.Proof.PlaneReads
import proofs.«176827_j80092550135919_2_alg».proof.Proof.Spec

set_option maxRecDepth 16384

noncomputable section

namespace Cert.KernelIdeal.Tile

open Cert.KernelIdeal Cert.KernelIdeal.Gen Cert.KernelIdeal.ChunkValue Cert.KernelIdeal.BlockValue Cert.Nearest
open Idealize.ShloMosaic Idealize.ShloMosaic.TcCoe Idealize.ShloMosaic.ValueIdx
open Idealize.SL Idealize.SL.Sem

variable (m : (ℓ : Loc nD τ sig) → Buf (Elt Ideal) ℓ)

/-- The two clouds as launched on core `c`. -/
abbrev pred (c : Dev nD) : Cloud := m ((c : Thread nD τ).loc main_arg0)
abbrev target (c : Dev nD) : Cloud := m ((c : Thread nD τ).loc main_arg1)

theorem fill_rows_top (y : S8x256.Idx) : k0_pay2 (F := Ideal) y = ⊤ := ChunkValue.ofBits_inf
theorem fill_cols_top (y : S8x4096.Idx) : k0_pay1 (F := Ideal) y = ⊤ := ChunkValue.ofBits_inf

/-- The squared distances a trip forms at grid point t are the specification's, at the tile's points and the chunk's. -/
theorem chunkDist_eq (c : Dev nD) (t : Fin cfg0.N) (k : Fin k0_t1_loop.trips) (r : Fin 8) (n j : Fin 256) :
    Chunks.chunkDist (ms1 t) (plane0 (ms0 t) (hs0 t) (iblk m c 0 t)) (plane1 (ms0 t) (hs0 t) (iblk m c 0 t)) (plane2 (ms0 t) (hs0 t) (iblk m c 0 t))
        ((hs1 t).unread (iblk m c 1 t)) k r n j
      = sqDist (pred m c) (target m c) (bgRow t r) (tilePt t n) (Chunks.chunkCol k j) := by
  have p0 : plane0 (ms0 t) (hs0 t) (iblk m c 0 t) (ix3 (0 : Fin 1) r n) = pred m c (ix3 (bgRow t r) (tilePt t n) (0 : Fin 3)) :=
    (PlaneReads.predPlane0 (ms0 t) (hs0 t) (iblk m c 0 t) r n).trans (predBlock m c t 0 r n)
  have p1 : plane1 (ms0 t) (hs0 t) (iblk m c 0 t) (ix3 (0 : Fin 1) r n) = pred m c (ix3 (bgRow t r) (tilePt t n) (1 : Fin 3)) :=
    (PlaneReads.predPlane1 (ms0 t) (hs0 t) (iblk m c 0 t) r n).trans (predBlock m c t 1 r n)
  have p2 : plane2 (ms0 t) (hs0 t) (iblk m c 0 t) (ix3 (0 : Fin 1) r n) = pred m c (ix3 (bgRow t r) (tilePt t n) (2 : Fin 3)) :=
    (PlaneReads.predPlane2 (ms0 t) (hs0 t) (iblk m c 0 t) r n).trans (predBlock m c t 2 r n)
  have q0 : Chunks.trip.sl.v27 (ms1 t) ((hs1 t).unread (iblk m c 1 t)) k (ix2 r j) = target m c (ix3 (bgRow t r) (Chunks.chunkCol k j) (0 : Fin 3)) :=
    (PlaneReads.targetPlane0 (ms1 t) (hs1 t) (iblk m c 1 t) k r j).trans (targetBlock m c t 0 r _)
  have q1 : Chunks.trip.sl.v32 (ms1 t) ((hs1 t).unread (iblk m c 1 t)) k (ix2 r j) = target m c (ix3 (bgRow t r) (Chunks.chunkCol k j) (1 : Fin 3)) :=
    (PlaneReads.targetPlane1 (ms1 t) (hs1 t) (iblk m c 1 t) k r j).trans (targetBlock m c t 1 r _)
  have q2 : Chunks.trip.sl.v37 (ms1 t) ((hs1 t).unread (iblk m c 1 t)) k (ix2 r j) = target m c (ix3 (bgRow t r) (Chunks.chunkCol k j) (2 : Fin 3)) :=
    (PlaneReads.targetPlane2 (ms1 t) (hs1 t) (iblk m c 1 t) k r j).trans (targetBlock m c t 2 r _)
  unfold Chunks.chunkDist ChunkValue.d2 sqDist sqNorm twiceInner
  rw [p0, p1, p2, q0, q1, q2]

/-- The row tile after the body at any grid point is the sweep's row accumulation from +infinity. -/
theorem rowsAt_eq (c : Dev nD) (t : Fin cfg0.N) :
    rowsAt m c t = Chunks.rowAcc (ms1 t) (plane0 (ms0 t) (hs0 t) (iblk m c 0 t)) (plane1 (ms0 t) (hs0 t) (iblk m c 0 t)) (plane2 (ms0 t) (hs0 t) (iblk m c 0 t))
      ((hs1 t).unread (iblk m c 1 t)) (k0_pay2 (F := Ideal)) k0_t1_loop.trips := by
  unfold rowsAt
  split
  · exact rowsFirst_eq ..
  · exact rowsLater_eq ..

/-- Every point of the first cloud's tile ends with its least squared distance to the second cloud. -/
theorem rows_eq (c : Dev nD) (t : Fin cfg0.N) (r : Fin 8) (n : Fin 256) :
    rowsAt m c t (ix2 r n) = rowNearest (pred m c) (target m c) (ix2 (bgRow t r) (tilePt t n)) := by
  rw [rowsAt_eq]
  refine eq_of_forall_le_iff fun x => ?_
  rw [Chunks.le_rowAcc _ _ _ _ _ _ r n x _ (le_refl _), fill_rows_top]
  show _ ↔ x ≤ ⨅ mm : Fin 4096, sqDist (pred m c) (target m c) (bgRow t r) (tilePt t n) mm
  rw [le_iInf_iff]
  constructor
  · rintro ⟨-, h⟩ mm
    have := h (Chunks.colChunk mm) (Chunks.colChunk mm).isLt (Chunks.colPlace mm)
    rwa [chunkDist_eq, Chunks.chunkCol_colChunk] at this
  · intro h
    exact ⟨le_top, fun k' _ j => by rw [chunkDist_eq]; exact h _⟩

/-- What lies below an entry of the column block after the body at grid point t: the squared distances from the points of
    the first cloud handled so far in t's batch group. -/
theorem le_colsAt (c : Dev nD) (r : Fin 8) (J : Fin 4096) (x : EReal) :
    ∀ (n : ℕ) (hn : n < cfg0.N),
      (x ≤ colsAt m c n hn (ix2 r J)
        ↔ ∀ nn : Fin 4096, nn.val < 256 * (n % 16 + 1) → x ≤ sqDist (pred m c) (target m c) (bgRow ⟨n, hn⟩ r) nn J)
  | n, hn => by
    have sweep : ∀ g : Vec Ideal S8x4096 .f32,
        (x ≤ Chunks.colAcc (ms1 ⟨n, hn⟩) (plane0 (ms0 ⟨n, hn⟩) (hs0 ⟨n, hn⟩) (iblk m c 0 ⟨n, hn⟩)) (plane1 (ms0 ⟨n, hn⟩) (hs0 ⟨n, hn⟩) (iblk m c 0 ⟨n, hn⟩))
            (plane2 (ms0 ⟨n, hn⟩) (hs0 ⟨n, hn⟩) (iblk m c 0 ⟨n, hn⟩)) ((hs1 ⟨n, hn⟩).unread (iblk m c 1 ⟨n, hn⟩)) g k0_t1_loop.trips (ix2 r J)
          ↔ x ≤ g (ix2 r J) ∧ ∀ p : Fin 256, x ≤ sqDist (pred m c) (target m c) (bgRow ⟨n, hn⟩ r) (tilePt ⟨n, hn⟩ p) J) := by
      intro g
      rw [Chunks.le_colAcc _ _ _ _ _ g r J x _ (le_refl _)]
      have hJ : J.val / 256 < k0_t1_loop.trips := (Chunks.colChunk J).isLt
      constructor
      · rintro ⟨hg, h⟩
        refine ⟨hg, fun p => ?_⟩
        have := h hJ p
        rwa [chunkDist_eq, Chunks.chunkCol_colChunk] at this
      · rintro ⟨hg, h⟩
        exact ⟨hg, fun _ p => by rw [chunkDist_eq, Chunks.chunkCol_colChunk]; exact h p⟩
    have hN : n < 32 := lt_of_lt_of_eq hn N_0
    by_cases h0 : n % 16 = 0
    · rw [colsAt_first m c ⟨n, hn⟩ h0, colsFirst_eq, sweep, fill_cols_top]
      constructor
      · rintro ⟨-, h⟩ nn hnn
        have hlt : nn.val < 256 := by rw [h0] at hnn; omega
        have := h ⟨nn.val, hlt⟩
        have e : tilePt ⟨n, hn⟩ ⟨nn.val, hlt⟩ = nn := Fin.ext (by show 256 * (n % 16) + nn.val = nn.val; omega)
        rwa [e] at this
      · intro h
        exact ⟨le_top, fun p => h _ (by show 256 * (n % 16) + p.val < _; have := p.isLt; omega)⟩
    · rw [colsAt_later m c ⟨n, hn⟩ h0, colsLater_eq, sweep]
      have hpos : n ≠ 0 := fun h => h0 (by rw [h])
      have ih := le_colsAt c r J x (n - 1) (Nat.lt_of_le_of_lt (Nat.sub_le _ _) hn)
      have hb : bgRow ⟨n - 1, Nat.lt_of_le_of_lt (Nat.sub_le _ _) hn⟩ r = bgRow ⟨n, hn⟩ r :=
        Fin.ext (by show 8 * ((n - 1) / 16) + r.val = 8 * (n / 16) + r.val; omega)
      show (x ≤ colsAt m c (n - 1) (Nat.lt_of_le_of_lt (Nat.sub_le _ _) hn) (ix2 r J) ∧ _) ↔ _
      rw [ih, hb]
      constructor
      · rintro ⟨hprev, h⟩ nn hnn
        by_cases hlt : nn.val < 256 * ((n - 1) % 16 + 1)
        · exact hprev nn hlt
        · have hlo : 256 * (n % 16) ≤ nn.val := by omega
          have hp : nn.val - 256 * (n % 16) < 256 := by omega
          have := h ⟨nn.val - 256 * (n % 16), hp⟩
          have e : tilePt ⟨n, hn⟩ ⟨nn.val - 256 * (n % 16), hp⟩ = nn :=
            Fin.ext (by show 256 * (n % 16) + (nn.val - 256 * (n % 16)) = nn.val; omega)
          rwa [e] at this
      · intro h
        exact ⟨fun nn hnn => h nn (by omega), fun p => h _ (by show 256 * (n % 16) + p.val < _; have := p.isLt; omega)⟩
  termination_by n => n
  decreasing_by omega

/-- After the sixteenth tile of a batch group every point of the second cloud holds its least squared distance to the
    first cloud. -/
theorem cols_eq (c : Dev nD) (t : Fin cfg0.N) (h15 : t.val % 16 = 15) (r : Fin 8) (J : Fin 4096) :
    colsAt m c t.val t.isLt (ix2 r J) = colNearest (pred m c) (target m c) (ix2 (bgRow t r) J) := by
  refine eq_of_forall_le_iff fun x => ?_
  rw [le_colsAt m c r J x t.val t.isLt]
  show _ ↔ x ≤ ⨅ nn : Fin 4096, sqDist (pred m c) (target m c) (bgRow t r) nn J
  rw [le_iInf_iff]
  constructor
  · intro h nn
    exact h nn (by have := nn.isLt; rw [h15]; omega)
  · intro h nn _
    exact h nn

end Cert.KernelIdeal.Tile

end
-- ==== Proof.lean ====
/-
  The Chamfer distance of two batches of point clouds, computed two ways.

  For 16 batches of two clouds of 4096 points of ℝ³ each, both programs compute
      (1/16) Σ_b ½ · ( (1/4096) Σ_n min_m ‖p_n − t_m‖ + (1/4096) Σ_m min_n ‖p_n − t_m‖ ),
  with ‖p − t‖ obtained as √max(|p|² + |t|² − 2⟨p, t⟩, 0).

  The reference forms all 16·4096·4096 clamped roots and then takes the minima along either axis. The kernel streams
  tiles of the squared distances |p|² + |t|² − Σ_d p_d·(t_d + t_d), keeps the running minima of the SQUARED distances
  along either axis, and clamps and takes the root only of the 2·16·4096 minima, on the host, after the region.

  The two agree at exact arithmetic for finite inputs because
    • over real numbers 2·⟨p, t⟩ = Σ_d p_d·(t_d + t_d) (a distributive step, false at infinities: the inputs'
      finiteness is used here and nowhere else), so both programs take minima of the same squared distances;
    • x ↦ √max(x, 0) is monotone and fixes +∞, so it commutes with a minimum counted from +∞: the least of the roots is
      the root of the least;
    • after that both programs apply the same operations (a mean over each batch's points, a half-sum, a mean over the
      batches) to the same two arrays.

  The proof is cut accordingly: the specification of the two arrays of nearest squared distances and the shared tail;
  the reference read back as that tail of those arrays; the inputs' finiteness read off the precondition; the kernel's
  body at one grid point, the values its tiles hold against the specification, and the two result arrays assembled from
  the tiles; and this module, which states the five claims.
-/
import proofs.«176827_j80092550135919_2_alg».proof.Defs
import proofs.«176827_j80092550135919_2_alg».proof.Proof.Gen.Kernel
import proofs.«176827_j80092550135919_2_alg».proof.Proof.Gen.KernelIdeal
import proofs.«176827_j80092550135919_2_alg».proof.Proof.Gen.ReferenceIdeal
import proofs.«176827_j80092550135919_2_alg».proof.Proof.Gen.Pre_finite_inputs
import proofs.«176827_j80092550135919_2_alg».proof.Proof.BodyW
import proofs.«176827_j80092550135919_2_alg».proof.Proof.BodyI
import proofs.«176827_j80092550135919_2_alg».proof.Proof.KernelArrays
import proofs.«176827_j80092550135919_2_alg».proof.Proof.RefRun
import proofs.«176827_j80092550135919_2_alg».proof.Proof.Finite
import proofs.«176827_j80092550135919_2_alg».proof.Proof.TileIdeal
import Idealize.ShloMosaic.Adequacy
import Idealize.ShloMosaic.Init

noncomputable section

namespace Cert.Proof

open Idealize.ShloMosaic Idealize.SL.Sem Cert.LibFinite
open Cert.Nearest (rowNearest colNearest hostTail)

/-- The word-level kernel runs to the end, faults nowhere and leaves its inputs unchanged. -/
theorem frame_Kernel : Cert.frame_Kernel := fun m ρ _ => Cert.Kernel.Tile.frame m ρ

/-- So does the kernel at exact arithmetic. -/
theorem frame_KernelIdeal : Cert.frame_KernelIdeal := fun m ρ _ => Cert.KernelIdeal.Tile.frame m ρ

/-- The reference is a straight line of host operations: its run, with the result dropped. -/
theorem frame_ReferenceIdeal : Cert.frame_ReferenceIdeal := fun m ρ _ =>
  (θ_run Cert.ReferenceIdeal.defs _ _).mono (fun _ h c => (h c).2) (Cert.ReferenceIdeal.Value.run (F := Ideal) m ρ)

/-- The idealized kernel is the kernel's own text read at exact arithmetic: nothing was rewritten. -/
theorem preserves : Cert.preserves_Kernel_KernelIdeal := trivial

/-- At exact arithmetic, from finite inputs, both programs end at the shared tail of the specification's two arrays of
    nearest squared distances of the input clouds. -/
theorem algebraic : Cert.algebraic_KernelIdeal_ReferenceIdeal := by
  intro m ρ m' ρ' hpre hagree
  have hP : ∀ (c : Dev Cert.KernelIdeal.nD) i, IsReal (m ((c.tc : Thread Cert.KernelIdeal.nD Cert.KernelIdeal.τ).loc Cert.KernelIdeal.main_arg0) i) :=
    fun c => (Cert.Nearest.real_of_finite_inputs _ _ (hpre c)).1
  have hT : ∀ (c : Dev Cert.KernelIdeal.nD) i, IsReal (m ((c.tc : Thread Cert.KernelIdeal.nD Cert.KernelIdeal.τ).loc Cert.KernelIdeal.main_arg1) i) :=
    fun c => (Cert.Nearest.real_of_finite_inputs _ _ (hpre c)).2
  refine ⟨fun c => hostTail
      (rowNearest (Cert.KernelIdeal.Arrays.cloudP m c) (Cert.KernelIdeal.Arrays.cloudT m c))
      (colNearest (Cert.KernelIdeal.Arrays.cloudP m c) (Cert.KernelIdeal.Arrays.cloudT m c)),
    Cert.KernelIdeal.Arrays.kernel_run m ρ
      (Cert.KernelIdeal.Arrays.rowsSpec_of_coords m (Cert.KernelIdeal.Tile.rows_eq m))
      (Cert.KernelIdeal.Arrays.colsSpec_of_coords m (Cert.KernelIdeal.Tile.cols_eq m)), ?_⟩
  refine (θ_run Cert.ReferenceIdeal.defs _ _).mono (fun _ h c => ⟨?_, (h c).2⟩)
    (Cert.Nearest.reference_run m' ρ'
      (fun c i => by rw [(hagree c).1]; exact hP c i) (fun c i => by rw [(hagree c).2]; exact hT c i))
  rw [(h c).1, (hagree c).1, (hagree c).2]

theorem claim : Cert.Claim :=
  ⟨Cert.Kernel.Gen.facts, Cert.KernelIdeal.Gen.facts, Cert.ReferenceIdeal.Gen.facts, Cert.Pre_finite_inputs.Gen.facts,
    frame_Kernel, frame_KernelIdeal, frame_ReferenceIdeal, preserves, algebraic⟩

end Cert.Proof

end
